-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S1x256x64 : Shape := ⟨3, ![1, 256, 64]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S1x256x64 : S_.BroadcastsInDim S1x256x64 (![] : Fin 0 → Fin S1x256x64.rank)
  reducesTo_S1x256x64_S_d0_1_2 : S1x256x64.ReducesTo [0, 1, 2] S_

variable [Facts]

def fn {F : FTy → Type} [FloatOps F] (main_arg0 : FVec F S16x256x128x128 .f32) (main_arg1 : FVec F S1x256x64 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S1x256x64 .f32 := Host.absf main_arg1
  let main_cst_0 : FVec F S_ .f32 := constant S_ .f32 0x7F800000#32
  let main_v5 : FVec F S1x256x64 .f32 := broadcastInDim S1x256x64 ![] bcast_S_S1x256x64 main_cst_0
  let main_v6 : IVec S1x256x64 1 := cmpf .olt main_v4 main_v5
  let main_c_1 : IVec S_ 1 := constantI S_ 1 1#1
  let main_v7 : IVec S_ 1 := (fun x v => Host.reduce IntOp.andi x v reducesTo_S1x256x64_S_d0_1_2 h_S_) main_v6 main_c_1
  let main_v8 : IVec S_ 1 := andi main_v3 main_v7
  main_v8
-- ==== Kernel.lean ====
abbrev S16x256x128x128 : Shape := ⟨4, ![16, 256, 128, 128]⟩
abbrev S1x256x64 : Shape := ⟨3, ![1, 256, 64]⟩
abbrev S16x256x16384 : Shape := ⟨3, ![16, 256, 16384]⟩
abbrev S16x16384x64 : Shape := ⟨3, ![16, 16384, 64]⟩
abbrev S1x256x16384 : Shape := ⟨3, ![1, 256, 16384]⟩
abbrev S1x16384x64 : Shape := ⟨3, ![1, 16384, 64]⟩
abbrev S256x64 : Shape := ⟨2, ![256, 64]⟩
abbrev S1x64 : Shape := ⟨2, ![1, 64]⟩
abbrev S1x256x4096 : Shape := ⟨3, ![1, 256, 4096]⟩
abbrev S256x4096 : Shape := ⟨2, ![256, 4096]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S1x4096x64 : Shape := ⟨3, ![1, 4096, 64]⟩

abbrev nBuf : Space → Nat
  | .hbm => 4
  | .vmem => 4
  | .smem => 0
  | _ => 0

abbrev bufTy : (tb : Table) → Fin (tcTables nBuf tb) → BufTy
  | .hbm, ⟨0, _⟩ => ⟨S16x256x128x128, .f32⟩
  | .hbm, ⟨1, _⟩ => ⟨S1x256x64, .f32⟩
  | .hbm, ⟨2, _⟩ => ⟨S16x256x16384, .f32⟩
  | .hbm, ⟨3, _⟩ => ⟨S16x16384x64, .f32⟩
  | .local _ .vmem, ⟨0, _⟩ => ⟨S1x256x16384, .f32⟩
  | .local _ .vmem, ⟨1, _⟩ => ⟨S1x256x64, .f32⟩
  | .local _ .vmem, ⟨2, _⟩ => ⟨S1x16384x64, .f32⟩
  | .local _ .vmem, ⟨3, _⟩ => ⟨S1x16384x64, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c4096_i32 : BitVec 32 := 4096#32
  let v5 : BitVec 32 := Scalar.muli c0_i32 c4096_i32
  v5
def k0_off1 (c0_i32 : BitVec 32) : Fin 3 → Nat :=
  let c0_3 : Index := 0#32
  let c0_4 : Index := 0#32
  let c4096_i32 : BitVec 32 := 4096#32
  let v5 : BitVec 32 := Scalar.muli c0_i32 c4096_i32
  let v6 : BitVec 32 := v5
  let v7 : Index := Scalar.indexCast v6
  ![0, 0, v7.toNat]
def k0_mult2 : BitVec 32 :=
  let c1_i32 : BitVec 32 := 1#32
  let c4096_i32_11 : BitVec 32 := 4096#32
  let v29 : BitVec 32 := Scalar.muli c1_i32 c4096_i32_11
  v29
def k0_mult3 : BitVec 32 :=
  let c2_i32 : BitVec 32 := 2#32
  let c4096_i32_20 : BitVec 32 := 4096#32
  let v53 : BitVec 32 := Scalar.muli c2_i32 c4096_i32_20
  v53
def k0_mult4 : BitVec 32 :=
  let c3_i32 : BitVec 32 := 3#32
  let c4096_i32_29 : BitVec 32 := 4096#32
  let v77 : BitVec 32 := Scalar.muli c3_i32 c4096_i32_29
  v77
def k0_mult5 : BitVec 32 :=
  let c0_i32_43 : BitVec 32 := 0#32
  let c4096_i32_44 : BitVec 32 := 4096#32
  let v116 : BitVec 32 := Scalar.muli c0_i32_43 c4096_i32_44
  v116
def k0_mult6 : BitVec 32 :=
  let c1_i32_53 : BitVec 32 := 1#32
  let c4096_i32_54 : BitVec 32 := 4096#32
  let v140 : BitVec 32 := Scalar.muli c1_i32_53 c4096_i32_54
  v140
def k0_mult7 : BitVec 32 :=
  let c2_i32_63 : BitVec 32 := 2#32
  let c4096_i32_64 : BitVec 32 := 4096#32
  let v164 : BitVec 32 := Scalar.muli c2_i32_63 c4096_i32_64
  v164
def k0_mult8 : BitVec 32 :=
  let c3_i32_73 : BitVec 32 := 3#32
  let c4096_i32_74 : BitVec 32 := 4096#32
  let v188 : BitVec 32 := Scalar.muli c3_i32_73 c4096_i32_74
  v188
def k0_mult9 : BitVec 32 :=
  let c0_i32_89 : BitVec 32 := 0#32
  let c4096_i32_90 : BitVec 32 := 4096#32
  let v227 : BitVec 32 := Scalar.muli c0_i32_89 c4096_i32_90
  v227
def k0_mult10 : BitVec 32 :=
  let c1_i32_99 : BitVec 32 := 1#32
  let c4096_i32_100 : BitVec 32 := 4096#32
  let v251 : BitVec 32 := Scalar.muli c1_i32_99 c4096_i32_100
  v251
def k0_mult11 : BitVec 32 :=
  let c2_i32_109 : BitVec 32 := 2#32
  let c4096_i32_110 : BitVec 32 := 4096#32
  let v275 : BitVec 32 := Scalar.muli c2_i32_109 c4096_i32_110
  v275
def k0_mult12 : BitVec 32 :=
  let c3_i32_119 : BitVec 32 := 3#32
  let c4096_i32_120 : BitVec 32 := 4096#32
  let v299 : BitVec 32 := Scalar.muli c3_i32_119 c4096_i32_120
  v299
def k0_mult13 : BitVec 32 :=
  let c0_i32_133 : BitVec 32 := 0#32
  let c4096_i32_134 : BitVec 32 := 4096#32
  let v336 : BitVec 32 := Scalar.muli c0_i32_133 c4096_i32_134
  v336
def k0_mult14 : BitVec 32 :=
  let c0_i32_133 : BitVec 32 := 0#32
  let c4096_i32_140 : BitVec 32 := 4096#32
  let v352 : BitVec 32 := Scalar.muli c0_i32_133 c4096_i32_140
  v352
def k0_off2 (c0_i32_133 : BitVec 32) : Fin 3 → Nat :=
  let c0_141 : Index := 0#32
  let c4096_i32_140 : BitVec 32 := 4096#32
  let v352 : BitVec 32 := Scalar.muli c0_i32_133 c4096_i32_140
  let v353 : BitVec 32 := v352
  let v354 : Index := Scalar.indexCast v353
  let c0_142 : Index := 0#32
  ![0, v354.toNat, 0]
def k0_mult15 : BitVec 32 :=
  let c1_i32_143 : BitVec 32 := 1#32
  let c4096_i32_144 : BitVec 32 := 4096#32
  let v358 : BitVec 32 := Scalar.muli c1_i32_143 c4096_i32_144
  v358
def k0_mult16 : BitVec 32 :=
  let c1_i32_143 : BitVec 32 := 1#32
  let c4096_i32_150 : BitVec 32 := 4096#32
  let v374 : BitVec 32 := Scalar.muli c1_i32_143 c4096_i32_150
  v374
def k0_mult17 : BitVec 32 :=
  let c2_i32_153 : BitVec 32 := 2#32
  let c4096_i32_154 : BitVec 32 := 4096#32
  let v380 : BitVec 32 := Scalar.muli c2_i32_153 c4096_i32_154
  v380
def k0_mult18 : BitVec 32 :=
  let c2_i32_153 : BitVec 32 := 2#32
  let c4096_i32_160 : BitVec 32 := 4096#32
  let v396 : BitVec 32 := Scalar.muli c2_i32_153 c4096_i32_160
  v396
def k0_mult19 : BitVec 32 :=
  let c3_i32_163 : BitVec 32 := 3#32
  let c4096_i32_164 : BitVec 32 := 4096#32
  let v402 : BitVec 32 := Scalar.muli c3_i32_163 c4096_i32_164
  v402
def k0_mult20 : BitVec 32 :=
  let c3_i32_163 : BitVec 32 := 3#32
  let c4096_i32_170 : BitVec 32 := 4096#32
  let v418 : BitVec 32 := Scalar.muli c3_i32_163 c4096_i32_170
  v418
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x256x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x128x128_S16x256x16384 : S16x256x128x128.ShapeCasts S16x256x16384
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  h_S1x256x4096 : 0 < S1x256x4096.numel
  shapeCasts_S1x256x4096_S256x4096 : S1x256x4096.ShapeCasts S256x4096
  reduces_S4096x64_S4096 : S4096x64.Reduces [1] S4096
  shapeCasts_S4096_S4096x1 : S4096.ShapeCasts S4096x1
  broadcasts_S4096x1_S4096x64 : S4096x1.Broadcasts S4096x64
  reduces_S4096x64_S64 : S4096x64.Reduces [0] S64
  shapeCasts_S64_S1x64 : S64.ShapeCasts S1x64
  broadcasts_S1x64_S256x64 : S1x64.Broadcasts S256x64
  reduces_S256x64_S64 : S256x64.Reduces [0] S64
  h_S1x4096x64 : 0 < S1x4096x64.numel
  shapeCasts_S1x4096x64_S4096x64 : S1x4096x64.ShapeCasts S4096x64
  shapeCasts_S4096x64_S1x4096x64 : S4096x64.ShapeCasts S1x4096x64
  dot_S256x4096_S256x64_S4096x64_0_0_1_1_n_n_wf : DotDims.WF S256x4096 S256x64 S4096x64 [0] [0] [1] [1] [] []
  dot_S256x4096_S4096x64_S256x64_1_0_0_1_n_n_wf : DotDims.WF S256x4096 S4096x64 S256x64 [1] [0] [0] [1] [] []
  hrank0 : 0 < grid0.rank
  k0_mult1_dvd : 4096 ∣ k0_mult1.toNat
  k0_off1_inb : ∀ (r : Fin 4), ∀ a, (k0_off1 (BitVec.ofNat 32 r.val)) a + S1x256x4096.size a ≤ S1x256x16384.size a
  k0_mult2_dvd : 4096 ∣ k0_mult2.toNat
  k0_mult3_dvd : 4096 ∣ k0_mult3.toNat
  k0_mult4_dvd : 4096 ∣ k0_mult4.toNat
  k0_mult5_dvd : 4096 ∣ k0_mult5.toNat
  k0_mult6_dvd : 4096 ∣ k0_mult6.toNat
  k0_mult7_dvd : 4096 ∣ k0_mult7.toNat
  k0_mult8_dvd : 4096 ∣ k0_mult8.toNat
  k0_mult9_dvd : 4096 ∣ k0_mult9.toNat
  k0_mult10_dvd : 4096 ∣ k0_mult10.toNat
  k0_mult11_dvd : 4096 ∣ k0_mult11.toNat
  k0_mult12_dvd : 4096 ∣ k0_mult12.toNat
  k0_mult13_dvd : 4096 ∣ k0_mult13.toNat
  k0_mult14_dvd : 4096 ∣ k0_mult14.toNat
  k0_off2_inb : ∀ (r : Fin 4), ∀ a, (k0_off2 (BitVec.ofNat 32 r.val)) a + S1x4096x64.size a ≤ S1x16384x64.size a
  k0_mult15_dvd : 4096 ∣ k0_mult15.toNat
  k0_mult16_dvd : 4096 ∣ k0_mult16.toNat
  k0_mult17_dvd : 4096 ∣ k0_mult17.toNat
  k0_mult18_dvd : 4096 ∣ k0_mult18.toNat
  k0_mult19_dvd : 4096 ∣ k0_mult19.toNat
  k0_mult20_dvd : 4096 ∣ k0_mult20.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x256x16384.size a ≤ S16x256x16384.size a
  hwx0_0 : ∀ i : grid0.Coords, EltTy.bits .f32 = 32 ∨ (Rect.block (s := S16x256x16384) S1x256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S1x256x64.size a
  hwx0_1 : ∀ i : grid0.Coords, EltTy.bits .f32 = 32 ∨ (Rect.block (s := S1x256x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x64.size a ≤ S16x16384x64.size a
  hwx0_2 : ∀ i : grid0.Coords, EltTy.bits .f32 = 32 ∨ (Rect.block (s := S16x16384x64) S1x16384x64.size (cc0_transform_2 i) (hinb0_2 i)).WholeWords (EltTy.packing .f32)

variable [Facts₀]

def dot_S256x4096_S256x64_S4096x64_0_0_1_1_n_n : DotDims S256x4096 S256x64 S4096x64 where
  lhsContracting := [0]
  rhsContracting := [0]
  lhsNonContracting := [1]
  rhsNonContracting := [1]
  lhsBatch := []
  rhsBatch := []
  wf := dot_S256x4096_S256x64_S4096x64_0_0_1_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v0) S1x256x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S1x256x64 : Shape := ⟨3, ![1, 256, 64]⟩
abbrev S16x256x16384 : Shape := ⟨3, ![16, 256, 16384]⟩
abbrev S16x256x64 : Shape := ⟨3, ![16, 256, 64]⟩
abbrev S16x16384x64 : Shape := ⟨3, ![16, 16384, 64]⟩
abbrev S_ : Shape := ⟨0, ![]⟩
abbrev S16x16384 : Shape := ⟨2, ![16, 16384]⟩
abbrev S16x16384x1 : Shape := ⟨3, ![16, 16384, 1]⟩
abbrev S16x64 : Shape := ⟨2, ![16, 64]⟩
abbrev S16x1x64 : Shape := ⟨3, ![16, 1, 64]⟩

abbrev nBuf : Space → Nat
  | .hbm => 130
  | .vmem => 0
  | .smem => 0
  | _ => 0

abbrev hbmTy0_0 (i : Nat) : BufTy := match i % 128 with
  | 0 => ⟨S16x256x128x128, .f32⟩
  | 1 => ⟨S1x256x64, .f32⟩
  | 2 => ⟨S16x256x16384, .f32⟩
  | 3 => ⟨S16x256x64, .f32⟩
  | 4 => ⟨S16x16384x64, .f32⟩
  | 5 => ⟨S_, .f32⟩
  | 6 => ⟨S16x16384x64, .f32⟩
  | 7 => ⟨S16x16384x64, .f32⟩
  | 8 => ⟨S_, .f32⟩
  | 9 => ⟨S16x16384, .f32⟩
  | 10 => ⟨S_, .f32⟩
  | 11 => ⟨S16x16384, .f32⟩
  | 12 => ⟨S16x16384, .f32⟩
  | 13 => ⟨S16x16384x1, .f32⟩
  | 14 => ⟨S16x16384x64, .f32⟩
  | 15 => ⟨S16x16384x64, .f32⟩
  | 16 => ⟨S16x16384x64, .f32⟩
  | 17 => ⟨S_, .f32⟩
  | 18 => ⟨S16x16384, .f32⟩
  | 19 => ⟨S16x16384x1, .f32⟩
  | 20 => ⟨S16x16384x64, .f32⟩
  | 21 => ⟨S16x16384x64, .f32⟩
  | 22 => ⟨S_, .f32⟩
  | 23 => ⟨S16x64, .f32⟩
  | 24 => ⟨S16x1x64, .f32⟩
  | 25 => ⟨S_, .f32⟩
  | 26 => ⟨S16x1x64, .f32⟩
  | 27 => ⟨S16x1x64, .f32⟩
  | 28 => ⟨S16x16384x64, .f32⟩
  | 29 => ⟨S16x16384x64, .f32⟩
  | 30 => ⟨S16x256x64, .f32⟩
  | 31 => ⟨S16x256x64, .f32⟩
  | 32 => ⟨S_, .f32⟩
  | 33 => ⟨S16x64, .f32⟩
  | 34 => ⟨S16x1x64, .f32⟩
  | 35 => ⟨S16x1x64, .f32⟩
  | 36 => ⟨S_, .f32⟩
  | 37 => ⟨S16x1x64, .f32⟩
  | 38 => ⟨S16x1x64, .f32⟩
  | 39 => ⟨S16x256x64, .f32⟩
  | 40 => ⟨S16x256x64, .f32⟩
  | 41 => ⟨S16x16384x64, .f32⟩
  | 42 => ⟨S_, .f32⟩
  | 43 => ⟨S16x16384x64, .f32⟩
  | 44 => ⟨S16x16384x64, .f32⟩
  | 45 => ⟨S_, .f32⟩
  | 46 => ⟨S16x16384, .f32⟩
  | 47 => ⟨S_, .f32⟩
  | 48 => ⟨S16x16384, .f32⟩
  | 49 => ⟨S16x16384, .f32⟩
  | 50 => ⟨S16x16384x1, .f32⟩
  | 51 => ⟨S16x16384x64, .f32⟩
  | 52 => ⟨S16x16384x64, .f32⟩
  | 53 => ⟨S16x16384x64, .f32⟩
  | 54 => ⟨S_, .f32⟩
  | 55 => ⟨S16x16384, .f32⟩
  | 56 => ⟨S16x16384x1, .f32⟩
  | 57 => ⟨S16x16384x64, .f32⟩
  | 58 => ⟨S16x16384x64, .f32⟩
  | 59 => ⟨S_, .f32⟩
  | 60 => ⟨S16x64, .f32⟩
  | 61 => ⟨S16x1x64, .f32⟩
  | 62 => ⟨S_, .f32⟩
  | 63 => ⟨S16x1x64, .f32⟩
  | 64 => ⟨S16x1x64, .f32⟩
  | 65 => ⟨S16x16384x64, .f32⟩
  | 66 => ⟨S16x16384x64, .f32⟩
  | 67 => ⟨S16x256x64, .f32⟩
  | 68 => ⟨S16x256x64, .f32⟩
  | 69 => ⟨S_, .f32⟩
  | 70 => ⟨S16x64, .f32⟩
  | 71 => ⟨S16x1x64, .f32⟩
  | 72 => ⟨S16x1x64, .f32⟩
  | 73 => ⟨S_, .f32⟩
  | 74 => ⟨S16x1x64, .f32⟩
  | 75 => ⟨S16x1x64, .f32⟩
  | 76 => ⟨S16x256x64, .f32⟩
  | 77 => ⟨S16x256x64, .f32⟩
  | 78 => ⟨S16x16384x64, .f32⟩
  | 79 => ⟨S_, .f32⟩
  | 80 => ⟨S16x16384x64, .f32⟩
  | 81 => ⟨S16x16384x64, .f32⟩
  | 82 => ⟨S_, .f32⟩
  | 83 => ⟨S16x16384, .f32⟩
  | 84 => ⟨S_, .f32⟩
  | 85 => ⟨S16x16384, .f32⟩
  | 86 => ⟨S16x16384, .f32⟩
  | 87 => ⟨S16x16384x1, .f32⟩
  | 88 => ⟨S16x16384x64, .f32⟩
  | 89 => ⟨S16x16384x64, .f32⟩
  | 90 => ⟨S16x16384x64, .f32⟩
  | 91 => ⟨S_, .f32⟩
  | 92 => ⟨S16x16384, .f32⟩
  | 93 => ⟨S16x16384x1, .f32⟩
  | 94 => ⟨S16x16384x64, .f32⟩
  | 95 => ⟨S16x16384x64, .f32⟩
  | 96 => ⟨S_, .f32⟩
  | 97 => ⟨S16x64, .f32⟩
  | 98 => ⟨S16x1x64, .f32⟩
  | 99 => ⟨S_, .f32⟩
  | 100 => ⟨S16x1x64, .f32⟩
  | 101 => ⟨S16x1x64, .f32⟩
  | 102 => ⟨S16x16384x64, .f32⟩
  | 103 => ⟨S16x16384x64, .f32⟩
  | 104 => ⟨S16x256x64, .f32⟩
  | 105 => ⟨S16x256x64, .f32⟩
  | 106 => ⟨S_, .f32⟩
  | 107 => ⟨S16x64, .f32⟩
  | 108 => ⟨S16x1x64, .f32⟩
  | 109 => ⟨S16x1x64, .f32⟩
  | 110 => ⟨S_, .f32⟩
  | 111 => ⟨S16x1x64, .f32⟩
  | 112 => ⟨S16x1x64, .f32⟩
  | 113 => ⟨S16x256x64, .f32⟩
  | 114 => ⟨S16x256x64, .f32⟩
  | 115 => ⟨S16x16384x64, .f32⟩
  | 116 => ⟨S_, .f32⟩
  | 117 => ⟨S16x16384, .f32⟩
  | 118 => ⟨S_, .f32⟩
  | 119 => ⟨S16x16384, .f32⟩
  | 120 => ⟨S16x16384, .f32⟩
  | 121 => ⟨S16x16384x1, .f32⟩
  | 122 => ⟨S16x16384x64, .f32⟩
  | 123 => ⟨S16x16384x64, .f32⟩
  | 124 => ⟨S16x16384x64, .f32⟩
  | 125 => ⟨S_, .f32⟩
  | 126 => ⟨S16x16384, .f32⟩
  | 127 => ⟨S16x16384x1, .f32⟩
  | _ => ⟨S16x256x128x128, .f32⟩

abbrev hbmTy0_1 (i : Nat) : BufTy := match i % 128 with
  | 0 => ⟨S16x16384x64, .f32⟩
  | 1 => ⟨S16x16384x64, .f32⟩
  | _ => ⟨S16x256x128x128, .f32⟩

abbrev hbmTy (i : Nat) : BufTy := match i / 128 with
  | 0 => hbmTy0_0 i
  | 1 => hbmTy0_1 i
  | _ => ⟨S16x256x128x128, .f32⟩

abbrev bufTy : (tb : Table) → Fin (tcTables nBuf tb) → BufTy
  | .hbm, ⟨i, _⟩ => hbmTy i
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_call1_v2 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_v0 : Ref sig .tc := ⟨.hbm, 105, rfl⟩
abbrev main_call2_cst : Ref sig .tc := ⟨.hbm, 106, rfl⟩
abbrev main_call2_v1 : Ref sig .tc := ⟨.hbm, 107, rfl⟩
abbrev main_call2_v2 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_20 : Ref sig .tc := ⟨.hbm, 116, rfl⟩
abbrev main_v81 : Ref sig .tc := ⟨.hbm, 117, rfl⟩
abbrev main_cst_21 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_22 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]

class Facts₀ : Prop where
  shapeCasts_S16x256x128x128_S16x256x16384 : S16x256x128x128.ShapeCasts S16x256x16384
  bcast_S1x256x64_S16x256x64_0_1_2 : S1x256x64.BroadcastsInDim S16x256x64 (![0, 1, 2] : Fin 3 → Fin S16x256x64.rank)
  bcast_S_S16x16384x64 : S_.BroadcastsInDim S16x16384x64 (![] : Fin 0 → Fin S16x16384x64.rank)
  reducesTo_S16x16384x64_S16x16384_d2 : S16x16384x64.ReducesTo [2] S16x16384
  h_S_ : 0 < S_.numel
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x64_0_1_2 : S16x16384x1.BroadcastsInDim S16x16384x64 (![0, 1, 2] : Fin 3 → Fin S16x16384x64.rank)
  reducesTo_S16x16384x64_S16x64_d1 : S16x16384x64.ReducesTo [1] S16x64
  bcast_S16x64_S16x1x64_0_2 : S16x64.BroadcastsInDim S16x1x64 (![0, 2] : Fin 2 → Fin S16x1x64.rank)
  bcast_S_S16x1x64 : S_.BroadcastsInDim S16x1x64 (![] : Fin 0 → Fin S16x1x64.rank)
  bcast_S16x1x64_S16x16384x64_0_1_2 : S16x1x64.BroadcastsInDim S16x16384x64 (![0, 1, 2] : Fin 3 → Fin S16x16384x64.rank)
  reducesTo_S16x256x64_S16x64_d1 : S16x256x64.ReducesTo [1] S16x64
  bcast_S16x1x64_S16x256x64_0_1_2 : S16x1x64.BroadcastsInDim S16x256x64 (![0, 1, 2] : Fin 3 → Fin S16x256x64.rank)
  dot_S16x256x16384_S16x256x64_S16x16384x64_1_1_2_2_0_0_wf : DotDims.WF S16x256x16384 S16x256x64 S16x16384x64 [1] [1] [2] [2] [0] [0]
  dot_S16x256x16384_S16x16384x64_S16x256x64_2_1_1_2_0_0_wf : DotDims.WF S16x256x16384 S16x16384x64 S16x256x64 [2] [1] [1] [2] [0] [0]

variable [Facts₀]

def dot_S16x256x16384_S16x256x64_S16x16384x64_1_1_2_2_0_0 : DotDims S16x256x16384 S16x256x64 S16x16384x64 where
  lhsContracting := [1]
  rhsContracting := [1]
  lhsNonContracting := [2]
  rhsNonContracting := [2]
  lhsBatch := [0]
  rhsBatch := [0]
  wf := dot_S16x256x16384_S16x256x64_S16x16384x64_1_1_2_2_0_0_wf
def dot_S16x256x16384_S16x16384x64_S16x256x64_2_1_1_2_0_0 : DotDims S16x256x16384 S16x16384x64 S16x256x64 where
  lhsContracting := [2]
  rhsContracting := [1]
  lhsNonContracting := [1]
  rhsNonContracting := [2]
  lhsBatch := [0]
  rhsBatch := [0]
  wf := dot_S16x256x16384_S16x16384x64_S16x256x64_2_1_1_2_0_0_wf

class Facts : Prop extends Facts₀ where

variable [Facts]
-- ==== Proof.Spec.lean ====
/-
  One batch of the soft clustering iteration, index by index over the extended reals.

  A batch holds points `x c n` (feature `c` of point `n`) and prototypes `m c k`. One iteration scores every point
  against every prototype, `∑ c, x c n * m c k`; turns each point's row of scores, scaled by a temperature, into a soft
  assignment over the prototypes (exponentials of the scores less the row maximum, divided by their sum); re-estimates
  prototype `k` as the assignment-weighted sum of the points divided by `eps` plus the total weight prototype `k`
  received; and rescales each prototype by `eps` plus its Euclidean length. After three iterations the result is the soft
  assignment (temperature one) of the points to the final prototypes.

  The re-estimate is written in two arrangements: dividing each weight by the total first and summing after
  (`mstepEach`), or summing the weighted points first and dividing once (`mstepOnce`). The two agree whenever the
  total is a positive real number, since a nonnegative real factor distributes over any sum of extended reals.
-/
import Idealize.ShloMosaic.PureOps.Ideal

noncomputable section

open scoped BigOperators

namespace Cert.Spec

open Idealize.ShloMosaic

variable {C N K : Type} [Fintype C] [Fintype N] [Fintype K]

/-- The score of point `n` against prototype `k`: the inner product over the features. -/
def score (x : C → N → EReal) (m : C → K → EReal) (n : N) (k : K) : EReal := ∑ c, x c n * m c k

/-- The largest entry of a row, starting the comparison from `lo`. -/
def rowMax (lo : EReal) (z : K → EReal) : EReal := (Finset.univ : Finset K).fold max lo z

/-- The soft assignment of one row of scores: each exponential of a score less the row maximum, over their sum. -/
def softRow (lo : EReal) (z : K → EReal) (k : K) : EReal :=
  Ideal.div (Ideal.exp (z k - rowMax lo z)) (∑ k', Ideal.exp (z k' - rowMax lo z))

/-- The weight of prototype `k` for point `n` at temperature `t`. -/
def resp (lo t : EReal) (x : C → N → EReal) (m : C → K → EReal) (n : N) (k : K) : EReal :=
  softRow lo (fun k' => t * score x m n k') k

/-- Each weight divided by `eps` plus the column total, then the weighted sum of the points. -/
def mstepEach (eps : EReal) (x : C → N → EReal) (s : N → K → EReal) (c : C) (k : K) : EReal :=
  ∑ n, x c n * Ideal.div (s n k) (eps + ∑ n', s n' k)

/-- The weighted sum of the points, then one division by `eps` plus the column total. -/
def mstepOnce (eps : EReal) (x : C → N → EReal) (s : N → K → EReal) (c : C) (k : K) : EReal :=
  Ideal.div (∑ n, x c n * s n k) (eps + ∑ n, s n k)

/-- Each prototype divided by `eps` plus its Euclidean length. -/
def unitCols (eps : EReal) (m : C → K → EReal) (c : C) (k : K) : EReal :=
  Ideal.div (m c k) (eps + Ideal.sqrt (∑ c', m c' k * m c' k))

/-- One iteration, the weights normalised one by one. -/
def iterEach (lo t eps : EReal) (x : C → N → EReal) (m : C → K → EReal) : C → K → EReal :=
  unitCols eps (mstepEach eps x (resp lo t x m))

/-- One iteration, one division after the weighted sum. -/
def iterOnce (lo t eps : EReal) (x : C → N → EReal) (m : C → K → EReal) : C → K → EReal :=
  unitCols eps (mstepOnce eps x (resp lo t x m))

/-- Three iterations (each weight normalised), then the soft assignment at temperature one. -/
def assignEach (lo t eps : EReal) (x : C → N → EReal) (m : C → K → EReal) (n : N) (k : K) : EReal :=
  softRow lo (fun k' => score x (iterEach lo t eps x (iterEach lo t eps x (iterEach lo t eps x m))) n k') k

/-- Three iterations (one division each), then the soft assignment at temperature one. -/
def assignOnce (lo t eps : EReal) (x : C → N → EReal) (m : C → K → EReal) (n : N) (k : K) : EReal :=
  softRow lo (fun k' => score x (iterOnce lo t eps x (iterOnce lo t eps x (iterOnce lo t eps x m))) n k') k

end Cert.Spec

end
-- ==== Proof.SpecLaw.lean ====
/-
  The two arrangements of the soft clustering iteration agree on real data.

  Call an extended real REAL when it is a real number (neither infinity). Sums, products and differences of reals are
  real; the largest of finitely many reals (at least one) is real; the exponential of a real is a positive real; a
  real divided by a positive real is real, and a positive real so divided is positive; the square root of a
  nonnegative real is a nonnegative real. So from real points and real prototypes every score is real, every
  weight is a positive real, the total weight a prototype receives is a nonnegative real, and `eps` plus it a
  positive real `d`. Dividing by `d` is multiplying by the real `1 / d`, and among real numbers a factor moves through
  a finite sum: `∑ n, x n * (s n * (1 / d)) = (∑ n, x n * s n) * (1 / d)`. Hence one iteration gives the same
  prototypes in either arrangement, and those are real again, so the argument repeats for three iterations.
-/
import proofs.«151417_j40132174413878_2_alg».proof.Proof.Spec

noncomputable section

open scoped BigOperators

namespace Cert.Spec

open Idealize.ShloMosaic

/-! ### Real, nonnegative real and positive real extended reals -/

/-- An extended real that is a real number. -/
def IsReal (a : EReal) : Prop := ∃ r : ℝ, a = (r : EReal)

/-- An extended real that is a nonnegative real number. -/
def IsNonneg (a : EReal) : Prop := ∃ r : ℝ, 0 ≤ r ∧ a = (r : EReal)

/-- An extended real that is a positive real number. -/
def IsPos (a : EReal) : Prop := ∃ r : ℝ, 0 < r ∧ a = (r : EReal)

theorem IsPos.isNonneg {a : EReal} (h : IsPos a) : IsNonneg a := by
  obtain ⟨r, hr, rfl⟩ := h
  exact ⟨r, hr.le, rfl⟩

theorem IsNonneg.isReal {a : EReal} (h : IsNonneg a) : IsReal a := by
  obtain ⟨r, _, rfl⟩ := h
  exact ⟨r, rfl⟩

theorem IsPos.isReal {a : EReal} (h : IsPos a) : IsReal a := h.isNonneg.isReal

theorem isReal_zero : IsReal 0 := ⟨0, EReal.coe_zero.symm⟩

theorem isNonneg_zero : IsNonneg 0 := ⟨0, le_rfl, EReal.coe_zero.symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsNonneg.add {a b : EReal} (ha : IsNonneg a) (hb : IsNonneg b) : IsNonneg (a + b) := by
  obtain ⟨r, hr, rfl⟩ := ha
  obtain ⟨s, hs, rfl⟩ := hb
  exact ⟨r + s, add_nonneg hr hs, (EReal.coe_add r s).symm⟩

theorem IsPos.add {a b : EReal} (ha : IsPos a) (hb : IsPos b) : IsPos (a + b) := by
  obtain ⟨r, hr, rfl⟩ := ha
  obtain ⟨s, hs, rfl⟩ := hb
  exact ⟨r + s, add_pos hr hs, (EReal.coe_add r s).symm⟩

/-- A positive real plus a nonnegative real is a positive real. -/
theorem IsPos.add_nonneg {a b : EReal} (ha : IsPos a) (hb : IsNonneg b) : IsPos (a + b) := by
  obtain ⟨r, hr, rfl⟩ := ha
  obtain ⟨s, hs, rfl⟩ := hb
  exact ⟨r + s, add_pos_of_pos_of_nonneg hr hs, (EReal.coe_add r s).symm⟩

/-- The square of a real is a nonnegative real. -/
theorem IsReal.mul_self {a : EReal} (ha : IsReal a) : IsNonneg (a * a) := by
  obtain ⟨r, rfl⟩ := ha
  exact ⟨r * r, mul_self_nonneg r, (EReal.coe_mul r r).symm⟩

theorem IsReal.sum {ι : Type} (s : Finset ι) (f : ι → EReal) (h : ∀ i ∈ s, IsReal (f i)) :
    IsReal (∑ i ∈ s, f i) :=
  Finset.sum_induction f IsReal (fun _ _ => IsReal.add) isReal_zero h

theorem IsNonneg.sum {ι : Type} (s : Finset ι) (f : ι → EReal) (h : ∀ i ∈ s, IsNonneg (f i)) :
    IsNonneg (∑ i ∈ s, f i) :=
  Finset.sum_induction f IsNonneg (fun _ _ => IsNonneg.add) isNonneg_zero h

/-- A sum of positive reals over at least one index is a positive real. -/
theorem IsPos.sum {ι : Type} (s : Finset ι) (hs : s.Nonempty) (f : ι → EReal) (h : ∀ i ∈ s, IsPos (f i)) :
    IsPos (∑ i ∈ s, f i) :=
  Finset.sum_induction_nonempty f IsPos (fun _ _ => IsPos.add) hs h

/-- The coercion of the reals moves through a finite sum. -/
theorem coe_sum {ι : Type} (s : Finset ι) (f : ι → ℝ) :
    ∑ i ∈ s, (f i : EReal) = ((∑ i ∈ s, f i : ℝ) : EReal) :=
  Finset.sum_hom_rel (r := fun (a : EReal) (b : ℝ) => a = (b : EReal)) EReal.coe_zero.symm
    fun i b c h => by rw [h, EReal.coe_add]

/-- The exponential of a real is a positive real. -/
theorem IsReal.exp {a : EReal} (ha : IsReal a) : IsPos (Ideal.exp a) := by
  obtain ⟨r, rfl⟩ := ha
  exact ⟨Real.exp r, Real.exp_pos r, Ideal.exp_coe r⟩

/-- A real divided by a positive real is real. -/
theorem IsReal.div {a d : EReal} (ha : IsReal a) (hd : IsPos d) : IsReal (Ideal.div a d) := by
  obtain ⟨r, rfl⟩ := ha
  obtain ⟨e, he, rfl⟩ := hd
  rw [Ideal.div_coe he.ne']
  exact ⟨r * (1 / e), (EReal.coe_mul r (1 / e)).symm⟩

/-- A positive real divided by a positive real is a positive real. -/
theorem IsPos.div {a d : EReal} (ha : IsPos a) (hd : IsPos d) : IsPos (Ideal.div a d) := by
  obtain ⟨r, hr, rfl⟩ := ha
  obtain ⟨e, he, rfl⟩ := hd
  rw [Ideal.div_coe he.ne']
  exact ⟨r * (1 / e), mul_pos hr (one_div_pos.mpr he), (EReal.coe_mul r (1 / e)).symm⟩

/-- The square root of a nonnegative real is a nonnegative real. -/
theorem IsNonneg.sqrt {a : EReal} (ha : IsNonneg a) : IsNonneg (Ideal.sqrt a) := by
  obtain ⟨r, hr, rfl⟩ := ha
  rw [Ideal.sqrt_coe, if_neg (not_lt.mpr hr)]
  exact ⟨Real.sqrt r, Real.sqrt_nonneg r, rfl⟩

/-! ### The row maximum -/

/-- The start value is below the maximum taken from it. -/
theorem max_rowMax {K : Type} [Fintype K] (lo : EReal) (z : K → EReal) : max lo (rowMax lo z) = rowMax lo z :=
  max_eq_right ((Finset.le_fold_max lo).mpr (Or.inl le_rfl))

/-- A maximum taken from `⊥` is `⊥` or one of the entries. -/
theorem fold_max_bot_eq {K : Type} (z : K → EReal) (s : Finset K) :
    s.fold max ⊥ z = ⊥ ∨ ∃ k ∈ s, s.fold max ⊥ z = z k := by
  classical
  induction s using Finset.induction_on with
  | empty => exact Or.inl Finset.fold_empty
  | insert a s ha ih =>
    rw [Finset.fold_insert ha]
    rcases max_choice (z a) (s.fold max ⊥ z) with h | h
    · exact Or.inr ⟨a, Finset.mem_insert_self a s, h⟩
    · rw [h]
      rcases ih with ih | ⟨k, hk, ih⟩
      · exact Or.inl ih
      · exact Or.inr ⟨k, Finset.mem_insert_of_mem hk, ih⟩

/-- The maximum, taken from `⊥`, of a row of reals with at least one entry is real. -/
theorem rowMax_bot_isReal {K : Type} [Fintype K] (z : K → EReal) (hz : ∀ k, IsReal (z k)) (k₀ : K) :
    IsReal (rowMax ⊥ z) := by
  rcases fold_max_bot_eq z Finset.univ with h | ⟨k, _, h⟩
  · exfalso
    obtain ⟨r, hr⟩ := hz k₀
    have hle : z k₀ ≤ rowMax ⊥ z := (Finset.le_fold_max (z k₀)).mpr (Or.inr ⟨k₀, Finset.mem_univ k₀, le_rfl⟩)
    rw [rowMax, h, hr] at hle
    exact EReal.coe_ne_bot r (le_bot_iff.mp hle)
  · rw [rowMax, h]
    exact hz k

variable {C N K : Type} [Fintype C] [Fintype N] [Fintype K]

/-! ### Scores and weights -/

theorem score_isReal (x : C → N → EReal) (m : C → K → EReal)
    (hx : ∀ c n, IsReal (x c n)) (hm : ∀ c k, IsReal (m c k)) (n : N) (k : K) : IsReal (score x m n k) :=
  IsReal.sum _ _ fun c _ => (hx c n).mul (hm c k)

/-- The soft assignment of a row of reals is a row of positive reals. -/
theorem softRow_isPos (z : K → EReal) (hz : ∀ k, IsReal (z k)) (k : K) : IsPos (softRow ⊥ z k) := by
  have hM : IsReal (rowMax ⊥ z) := rowMax_bot_isReal z hz k
  exact ((hz k).sub hM).exp.div
    (IsPos.sum _ ⟨k, Finset.mem_univ k⟩ _ fun k' _ => ((hz k').sub hM).exp)

/-- From real points and prototypes every weight is a positive real. -/
theorem resp_isPos (t : EReal) (ht : IsReal t) (x : C → N → EReal) (m : C → K → EReal)
    (hx : ∀ c n, IsReal (x c n)) (hm : ∀ c k, IsReal (m c k)) (n : N) (k : K) : IsPos (resp ⊥ t x m n k) :=
  softRow_isPos _ (fun k' => ht.mul (score_isReal x m hx hm n k')) k

/-! ### The re-estimate, in its two arrangements -/

/-- With real points, real weights and a positive real divisor, dividing each weight first and dividing the
    weighted sum once give the same value: a real factor moves through a finite sum of reals. -/
theorem mstepOnce_eq_mstepEach (eps : EReal) (x : C → N → EReal) (s : N → K → EReal) (c : C) (k : K)
    (hx : ∀ n, IsReal (x c n)) (hs : ∀ n, IsReal (s n k)) (hd : IsPos (eps + ∑ n, s n k)) :
    mstepOnce eps x s c k = mstepEach eps x s c k := by
  obtain ⟨d, hd0, hd⟩ := hd
  choose x' hx' using hx
  choose s' hs' using hs
  unfold mstepOnce mstepEach
  rw [hd]
  simp only [Ideal.div_coe hd0.ne']
  simp only [hx', hs', ← EReal.coe_mul, coe_sum]
  rw [Finset.sum_mul]
  exact congrArg _ (Finset.sum_congr rfl fun n _ => mul_assoc _ _ _)

/-- The re-estimate is real. -/
theorem mstepOnce_isReal (eps : EReal) (x : C → N → EReal) (s : N → K → EReal) (c : C) (k : K)
    (hx : ∀ n, IsReal (x c n)) (hs : ∀ n, IsReal (s n k)) (hd : IsPos (eps + ∑ n, s n k)) :
    IsReal (mstepOnce eps x s c k) :=
  (IsReal.sum _ _ fun n _ => (hx n).mul (hs n)).div hd

/-- Rescaling real prototypes by `eps` plus their lengths keeps them real. -/
theorem unitCols_isReal (eps : EReal) (heps : IsPos eps) (m : C → K → EReal) (hm : ∀ c k, IsReal (m c k))
    (c : C) (k : K) : IsReal (unitCols eps m c k) :=
  (hm c k).div (heps.add_nonneg (IsNonneg.sum _ _ fun c' _ => (hm c' k).mul_self).sqrt)

/-! ### One iteration, then three -/

/-- `eps` plus the total weight a prototype receives is a positive real. -/
theorem total_isPos (t eps : EReal) (ht : IsReal t) (heps : IsPos eps) (x : C → N → EReal) (m : C → K → EReal)
    (hx : ∀ c n, IsReal (x c n)) (hm : ∀ c k, IsReal (m c k)) (k : K) :
    IsPos (eps + ∑ n, resp ⊥ t x m n k) :=
  heps.add_nonneg (IsNonneg.sum _ _ fun n _ => (resp_isPos t ht x m hx hm n k).isNonneg)

/-- On real points and prototypes one iteration is the same in either arrangement. -/
theorem iterOnce_eq_iterEach (t eps : EReal) (ht : IsReal t) (heps : IsPos eps) (x : C → N → EReal)
    (m : C → K → EReal) (hx : ∀ c n, IsReal (x c n)) (hm : ∀ c k, IsReal (m c k)) :
    iterOnce ⊥ t eps x m = iterEach ⊥ t eps x m := by
  unfold iterOnce iterEach
  refine congrArg (unitCols eps) (funext fun c => funext fun k => ?_)
  exact mstepOnce_eq_mstepEach eps x _ c k (hx c) (fun n => (resp_isPos t ht x m hx hm n k).isReal)
    (total_isPos t eps ht heps x m hx hm k)

/-- … and its prototypes are real again. -/
theorem iterOnce_isReal (t eps : EReal) (ht : IsReal t) (heps : IsPos eps) (x : C → N → EReal)
    (m : C → K → EReal) (hx : ∀ c n, IsReal (x c n)) (hm : ∀ c k, IsReal (m c k)) (c : C) (k : K) :
    IsReal (iterOnce ⊥ t eps x m c k) :=
  unitCols_isReal eps heps _ (fun c' k' => mstepOnce_isReal eps x _ c' k' (hx c')
    (fun n => (resp_isPos t ht x m hx hm n k').isReal) (total_isPos t eps ht heps x m hx hm k')) c k

/-- Three iterations on real points and prototypes, then the soft assignment: the two arrangements agree. -/
theorem assignOnce_eq_assignEach {C N K : Type} [Fintype C] [Fintype N] [Fintype K]
    (t eps : EReal) (ht : ∃ r : ℝ, t = (r : EReal)) (heps : ∃ e : ℝ, 0 < e ∧ eps = (e : EReal))
    (x : C → N → EReal) (m : C → K → EReal)
    (hx : ∀ c n, ∃ r : ℝ, x c n = (r : EReal)) (hm : ∀ c k, ∃ r : ℝ, m c k = (r : EReal)) :
    assignOnce ⊥ t eps x m = assignEach ⊥ t eps x m := by
  have h1 := iterOnce_eq_iterEach t eps ht heps x m hx hm
  have r1 := iterOnce_isReal t eps ht heps x m hx hm
  have h2 := iterOnce_eq_iterEach t eps ht heps x _ hx r1
  have r2 := iterOnce_isReal t eps ht heps x _ hx r1
  have h3 := iterOnce_eq_iterEach t eps ht heps x _ hx r2
  unfold assignOnce assignEach
  rw [h3, h2, h1]

end Cert.Spec

end
-- ==== Proof.KernelBody.lean ====
/-
  The kernel's body for one batch, as a composition of whole-vector functions.

  A batch's points arrive as four column blocks of 4096 points each. One iteration takes the current prototypes,
  and for each block in turn scores its points against the prototypes, scales by the temperature, takes the row-wise
  soft assignment, adds the block's column totals to a running total and the block's weighted sum of points to a
  running table; after the fourth block the table is divided by `eps` plus the totals and each column by `eps` plus
  its Euclidean length. After three iterations each block's rows of the result are the soft assignment of its points
  to the last prototypes. This module names those steps and shows that the values the body's run found are exactly
  these compositions of the loaded blocks.
-/
import proofs.«151417_j40132174413878_2_alg».proof.Proof.Gen.KernelIdeal.Value

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- A loaded block of points as a 256 × 4096 table. -/
def chunkB (v : Vec F S1x256x4096 .f32) : FVec F S256x4096 .bf16 :=
  truncf .bf16 (shapeCast S256x4096 v shapeCasts_S1x256x4096_S256x4096) bitsLt_bf16_f32

/-- The loaded prototypes as a 256 × 64 table. -/
def protoB (v : Vec F S1x256x64 .f32) : FVec F S256x64 .bf16 :=
  truncf .bf16 (shapeCast S256x64 v shapeCasts_S1x256x64_S256x64) bitsLt_bf16_f32

/-- Scores of a block's points against the prototypes: the product contracted over the features. -/
def scores (xb : FVec F S256x4096 .bf16) (mb : FVec F S256x64 .bf16) : FVec F S4096x64 .f32 :=
  matmul dot_S256x4096_S256x64_S4096x64_0_0_1_1_n_n none xb mb (constant S4096x64 .f32 0x00000000#32)

/-- The scores times the temperature. -/
def heated (z : FVec F S4096x64 .f32) : FVec F S4096x64 .f32 :=
  mulf (broadcast S4096x64 (Scalar.ofBits .f32 0x41A00000#32)) z

/-- The row-wise soft assignment: exponentials of the entries less the row maximum, over the row sum. -/
def softRows (z : FVec F S4096x64 .f32) : FVec F S4096x64 .f32 :=
  have mx : FVec F S4096 .f32 := multiReduction .maximumf [1] S4096 z 0xFF800000#32 reduces_S4096x64_S4096 (.inl rfl) rfl
  have e : FVec F S4096x64 .f32 := exp (subf z (broadcastTo S4096x64 (shapeCast S4096x1 mx shapeCasts_S4096_S4096x1) broadcasts_S4096x1_S4096x64))
  have sm : FVec F S4096 .f32 := multiReduction .add [1] S4096 e 0x00000000#32 reduces_S4096x64_S4096 (.inl rfl) rfl
  divf e (broadcastTo S4096x64 (shapeCast S4096x1 sm shapeCasts_S4096_S4096x1) broadcasts_S4096x1_S4096x64)

/-- A block's weights at the iteration's temperature. -/
def weights (mb : FVec F S256x64 .bf16) (v : Vec F S1x256x4096 .f32) : FVec F S4096x64 .f32 :=
  softRows (heated (scores (chunkB v) mb))

/-- The column totals of a block's weights, as a row. -/
def colTotal (s : FVec F S4096x64 .f32) : FVec F S1x64 .f32 :=
  shapeCast S1x64 (multiReduction .add [0] S64 s 0x00000000#32 reduces_S4096x64_S64 (.inl rfl) rfl) shapeCasts_S64_S1x64

/-- The block's weighted sum of points: the product contracted over the block's points. -/
def weighted (xb : FVec F S256x4096 .bf16) (s : FVec F S4096x64 .f32) : FVec F S256x64 .f32 :=
  matmul dot_S256x4096_S4096x64_S256x64_1_0_0_1_n_n none xb (truncf .bf16 s bitsLt_bf16_f32) (constant S256x64 .f32 0x00000000#32)

/-- The zero row and the zero table the running sums start from. -/
def zeroRow : FVec F S1x64 .f32 := broadcast S1x64 (Scalar.ofBits .f32 0x00000000#32)
def zeroTab : FVec F S256x64 .f32 := broadcast S256x64 (Scalar.ofBits .f32 0x00000000#32)

/-- The end of an iteration: the table over `eps` plus the totals, then each column over `eps` plus its length. -/
def finish (numer : FVec F S256x64 .f32) (denom : FVec F S1x64 .f32) : FVec F S256x64 .bf16 :=
  have q : FVec F S256x64 .f32 := divf numer (broadcastTo S256x64 (addf (broadcast S1x64 (Scalar.ofBits .f32 0x358637BD#32)) denom) broadcasts_S1x64_S256x64)
  have len : FVec F S1x64 .f32 := sqrt (shapeCast S1x64 (multiReduction .add [0] S64 (mulf q q) 0x00000000#32 reduces_S256x64_S64 (.inl rfl) rfl) shapeCasts_S64_S1x64)
  truncf .bf16 (divf q (broadcastTo S256x64 (addf (broadcast S1x64 (Scalar.ofBits .f32 0x358637BD#32)) len) broadcasts_S1x64_S256x64)) bitsLt_bf16_f32

/-- One iteration over the four blocks. -/
def emStep (mb : FVec F S256x64 .bf16) (c0 c1 c2 c3 : Vec F S1x256x4096 .f32) : FVec F S256x64 .bf16 :=
  finish
    (addf (addf (addf (addf zeroTab (weighted (chunkB c0) (weights mb c0))) (weighted (chunkB c1) (weights mb c1)))
      (weighted (chunkB c2) (weights mb c2))) (weighted (chunkB c3) (weights mb c3)))
    (addf (addf (addf (addf zeroRow (colTotal (weights mb c0))) (colTotal (weights mb c1))) (colTotal (weights mb c2)))
      (colTotal (weights mb c3)))

/-- A block's rows of the result: the soft assignment (temperature one) to the last prototypes. -/
def lastChunk (mb : FVec F S256x64 .bf16) (v : Vec F S1x256x4096 .f32) : FVec F S1x4096x64 .f32 :=
  shapeCast S1x4096x64 (softRows (scores (chunkB v) mb)) shapeCasts_S4096x64_S1x4096x64

/-- The four column blocks of the staged points and the staged prototypes, as the body loads them. -/
def xRect (o : Nat) (h : ∀ a, (![0, 0, o] : Fin 3 → Nat) a + S1x256x4096.size a ≤ S1x256x16384.size a) : Rect S1x256x16384 :=
  Rect.unit ![0, 0, o] S1x256x4096.size h
def blk0 (x0 : Vec F S1x256x16384 .f32) : Vec F S1x256x4096 .f32 := View.ld x0 (xRect 0 (by decide))
def blk1 (x0 : Vec F S1x256x16384 .f32) : Vec F S1x256x4096 .f32 := View.ld x0 (xRect 4096 (by decide))
def blk2 (x0 : Vec F S1x256x16384 .f32) : Vec F S1x256x4096 .f32 := View.ld x0 (xRect 8192 (by decide))
def blk3 (x0 : Vec F S1x256x16384 .f32) : Vec F S1x256x4096 .f32 := View.ld x0 (xRect 12288 (by decide))
def proto0 (x1 : Vec F S1x256x64 .f32) : FVec F S256x64 .bf16 :=
  protoB (View.ld x1 (Rect.unit ![0, 0, 0] S1x256x64.size inb_S1x256x64_S1x256x64_0_0_0))

/-- The prototypes after one, two and three iterations. -/
def protoAfter1 (x0 : Vec F S1x256x16384 .f32) (x1 : Vec F S1x256x64 .f32) : FVec F S256x64 .bf16 :=
  emStep (proto0 x1) (blk0 x0) (blk1 x0) (blk2 x0) (blk3 x0)
def protoAfter2 (x0 : Vec F S1x256x16384 .f32) (x1 : Vec F S1x256x64 .f32) : FVec F S256x64 .bf16 :=
  emStep (protoAfter1 x0 x1) (blk0 x0) (blk1 x0) (blk2 x0) (blk3 x0)
def protoAfter3 (x0 : Vec F S1x256x16384 .f32) (x1 : Vec F S1x256x64 .f32) : FVec F S256x64 .bf16 :=
  emStep (protoAfter2 x0 x1) (blk0 x0) (blk1 x0) (blk2 x0) (blk3 x0)

section Run

variable (c : Dev nD) (arg1 : Memref sig .tc .vmem S1x256x16384 .f32) (harg1 : arg1.IsWhole)
  (arg2 : Memref sig .tc .vmem S1x256x64 .f32) (harg2 : arg2.IsWhole)
  (x0 : Vec F S1x256x16384 .f32) (x1 : Vec F S1x256x64 .f32)

/-- The first iteration's prototypes, as the run names them. -/
theorem after1_eq : kernelRun0_A.sl.r_7 c arg1 harg1 arg2 harg2 x0 x1 = protoAfter1 x0 x1 := by
  unfold kernelRun0_A.sl.r_7 kernelRun0_A.sl.r_6 kernelRun0_A.sl.r_5 kernelRun0_A.sl.r_4 kernelRun0_A.sl.r_3
    kernelRun0_A.sl.r_2 kernelRun0_A.sl.r_1 kernelRun0_A.sl.r
  simp only [View.readAt_eq_ld, Memref.IsWhole.read_unread]
  rfl

/-- The second iteration's prototypes, from the first's. -/
theorem after2_eq : kernelRun0_A.sl.r_16 c arg1 harg1 arg2 harg2 x0 x1 = protoAfter2 x0 x1 := by
  unfold kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [View.readAt_eq_ld, Memref.IsWhole.read_unread]
  rfl

/-- The third iteration's prototypes, from the second's. -/
theorem after3_eq : kernelRun0_A.sl.r_23 c arg1 harg1 arg2 harg2 x0 x1 = protoAfter3 x0 x1 := by
  unfold kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [View.readAt_eq_ld, Memref.IsWhole.read_unread]
  rfl

/-- The four row blocks the output's staging buffer is written through. -/
def oRect (o : Nat) (h : ∀ a, (![0, o, 0] : Fin 3 → Nat) a + S1x4096x64.size a ≤ S1x16384x64.size a) : Rect S1x16384x64 :=
  Rect.unit ![0, o, 0] S1x4096x64.size h

/-- What the body's run leaves for the output: one piece per block of points, each the soft assignment of that
    block's points to the prototypes after the third iteration. -/
theorem pieces_eq (i : grid0.Coords) (arg3 : Memref sig .tc .vmem S1x16384x64 .f32) (harg3 : arg3.IsWhole) :
    (kernelRun0_A c i arg1 harg1 arg2 harg2 arg3 harg3 x0 x1).1
      = [⟨oRect 12288 (by decide), lastChunk (protoAfter3 x0 x1) (blk3 x0)⟩,
         ⟨oRect 8192 (by decide), lastChunk (protoAfter3 x0 x1) (blk2 x0)⟩,
         ⟨oRect 4096 (by decide), lastChunk (protoAfter3 x0 x1) (blk1 x0)⟩,
         ⟨oRect 0 (by decide), lastChunk (protoAfter3 x0 x1) (blk0 x0)⟩] := by
  rw [← after3_eq c arg1 harg1 arg2 harg2 x0 x1]
  unfold kernelRun0_A
  dsimp only
  unfold kernelRun0_A.sl.r_25 kernelRun0_A.sl.r_24
  generalize kernelRun0_A.sl.r_23 c arg1 harg1 arg2 harg2 x0 x1 = mb
  simp only [View.readAt_eq_ld, Memref.IsWhole.read_unread]
  rfl

end Run

end Cert.KernelIdeal.Body

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibColumnForms.lean ====
/-
  Keepdims column forms read at an index given by coordinates: a vector `[a]` cast to the column `[a, 1]`, a column
  `[a, 1]` cast to the row `[1, a]`, and a column `[a, 1]` broadcast along the lanes to `[a, b]`. Each is the
  library's general lemma for the operation (a shape cast keeps the row-major position; a broadcast reads `0` on the
  operand's unit axes) with both indices written by coordinates, so that it applies to a printed operation by
  unification.
  Two more readings at the extended reals close the file: a lane sum of a matrix into the zero word is, at row `r`, the sum of
  that row's entries; and a square root of a vector is taken element by element.
-/
import Idealize.ShloMosaic.Lib.ValueIdx
import Idealize.ShloMosaic.Lib.Pipeline.Value
import Idealize.ShloMosaic.Lib.ValueLayout
import Idealize.ShloMosaic.PureOps.Ideal.Laws

open scoped BigOperators

namespace Cert.ColumnForms

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along the lanes to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum and a square root at the extended reals -/

/-- A binary32 `add` reduction of an `[a, b]` matrix over its lanes, from the zero word, reads at row `r` the sum of the
    row's `b` entries. The accumulator's side condition is taken as the equation between the two zero words that a
    printed operation carries. -/
theorem multiReduction_add_lanes_f32 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun c => Fin.ext ?_)
  match c with
  | ⟨0, _⟩ => rfl
  | ⟨1, _⟩ => rfl

/-- A square root of a vector at an index is the extended reals' square root of the element. -/
theorem sqrt_apply {s : Shape} {φ : FTy} (x : FVec Ideal s φ) (i : s.Idx) :
    Idealize.ShloMosaic.sqrt x i = Ideal.sqrt (x i) := rfl

end Cert.ColumnForms
-- ==== Proof.KernelOps.lean ====
/-
  The kernel's whole-vector steps read at coordinates, over the extended reals.

  Each step of the body (the block of points as a table, the scores, the temperature, the row-wise soft assignment,
  the column totals, the weighted sum of points, the end of an iteration, the last pass) is a composition of a few
  vector operations; read at an entry it is the textbook expression in the entries of its operands: a product
  contracted over one axis is a finite sum of products, a reduction over one axis a finite sum or a maximum fold,
  a cast that adds or drops a unit axis keeps the entry, a broadcast repeats it, and a change of float format is
  the identity.
-/
import proofs.«151417_j40132174413878_2_alg».proof.Proof.KernelBody
import proofs.«151417_j40132174413878_2_alg».proof.Proof.Spec
import proofs.«151417_j40132174413878_2_alg».proof.Proof.LibRank2
import proofs.«151417_j40132174413878_2_alg».proof.Proof.LibDenseEntry
import proofs.«151417_j40132174413878_2_alg».proof.Proof.LibColumnForms
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Ops

open Cert.KernelIdeal Cert.KernelIdeal.Gen Cert.KernelIdeal.Body Idealize.ShloMosaic Idealize.ShloMosaic.ValueIdx

/-- The three float words of the program: minus infinity (where a row maximum starts), the temperature 20, and the
    f32 nearest to 1e-6. They are never evaluated here. -/
abbrev lo : EReal := Ideal.ofBits .f32 0xFF800000#32
abbrev tmp : EReal := Ideal.ofBits .f32 0x41A00000#32
abbrev eps : EReal := Ideal.ofBits .f32 0x358637BD#32

/-- An exponential of a vector at an index is the extended reals' exponential of the element. -/
private theorem exp_apply {s : Shape} {φ : FTy} (x : FVec Ideal s φ) (i : s.Idx) :
    Idealize.ShloMosaic.exp x i = Ideal.exp (x i) := rfl

/-- A loaded block of points as a table: entry (c, r) is the block's (0, c, r). -/
theorem chunkB_apply (v : Vec Ideal S1x256x4096 .f32) (c : Fin 256) (r : Fin 4096) :
    chunkB (F := Ideal) v (ix2 c r) = v (ix3 (0 : Fin 1) c r) := by
  unfold chunkB
  rw [truncf_apply]
  exact shapeCast_1ab_ab_apply _ _ c r

/-- The loaded prototypes as a table: entry (c, k) is the block's (0, c, k). -/
theorem protoB_apply (v : Vec Ideal S1x256x64 .f32) (c : Fin 256) (k : Fin 64) :
    protoB (F := Ideal) v (ix2 c k) = v (ix3 (0 : Fin 1) c k) := by
  unfold protoB
  rw [truncf_apply]
  exact shapeCast_1ab_ab_apply _ _ c k

/-- The score of point r against prototype k: the sum over the features. -/
theorem scores_apply (xb : FVec Ideal S256x4096 .bf16) (mb : FVec Ideal S256x64 .bf16) (r : Fin 4096) (k : Fin 64) :
    scores (F := Ideal) xb mb (ix2 r k) = ∑ c : Fin 256, xb (ix2 c r) * mb (ix2 c k) := by
  unfold scores
  exact Cert.LibRank2.matmul_lhsT_zero_apply dot_S256x4096_S256x64_S4096x64_0_0_1_1_n_n rfl rfl rfl rfl rfl rfl none xb mb r k

/-- The temperature multiplies every score. -/
theorem heated_apply (z : FVec Ideal S4096x64 .f32) (r : Fin 4096) (k : Fin 64) :
    heated (F := Ideal) z (ix2 r k) = tmp * z (ix2 r k) := by
  rfl

/-- The row maximum, kept as a column and repeated along the row, reads at (r, k) the maximum of row r. -/
private theorem rowMax_read (z : FVec Ideal S4096x64 .f32) (r : Fin 4096) (k : Fin 64) :
    broadcastTo S4096x64 (shapeCast S4096x1
        (multiReduction .maximumf [1] S4096 z 0xFF800000#32 reduces_S4096x64_S4096 (.inl rfl) rfl)
        shapeCasts_S4096_S4096x1) broadcasts_S4096x1_S4096x64 (ix2 r k)
      = Cert.Spec.rowMax lo (fun k' : Fin 64 => z (ix2 r k')) := by
  rw [Cert.ColumnForms.broadcastTo_a1_ab_apply, Cert.ColumnForms.shapeCast_a_a1_apply]
  exact Cert.LibRank2.max_last z _ _ _ _ r

/-- The exponential of an entry less its row's maximum. -/
private theorem expRow_read (z : FVec Ideal S4096x64 .f32) (r : Fin 4096) (k : Fin 64) :
    exp (subf z (broadcastTo S4096x64 (shapeCast S4096x1
        (multiReduction .maximumf [1] S4096 z 0xFF800000#32 reduces_S4096x64_S4096 (.inl rfl) rfl)
        shapeCasts_S4096_S4096x1) broadcasts_S4096x1_S4096x64)) (ix2 r k)
      = Ideal.exp (z (ix2 r k) - Cert.Spec.rowMax lo (fun k' : Fin 64 => z (ix2 r k'))) := by
  rw [exp_apply, subf_apply, rowMax_read]

/-- The row-wise soft assignment at (r, k) is the specification's soft assignment of row r. -/
theorem softRows_apply (z : FVec Ideal S4096x64 .f32) (r : Fin 4096) (k : Fin 64) :
    softRows (F := Ideal) z (ix2 r k) = Cert.Spec.softRow lo (fun k' : Fin 64 => z (ix2 r k')) k := by
  unfold softRows
  dsimp only
  rw [divf_apply, Cert.ColumnForms.broadcastTo_a1_ab_apply, Cert.ColumnForms.shapeCast_a_a1_apply]
  exact congrArg₂ Ideal.div (expRow_read z r k)
    ((Cert.LibRank2.sum_last _ _ _ _ _ r).trans (Finset.sum_congr rfl fun k' _ => expRow_read z r k'))

/-- The column totals, kept as a row: entry (0, k) is the sum over the block's points. -/
theorem colTotal_apply (s : FVec Ideal S4096x64 .f32) (u : Fin 1) (k : Fin 64) :
    colTotal (F := Ideal) s (ix2 u k) = ∑ r : Fin 4096, s (ix2 r k) := by
  unfold colTotal
  rw [shapeCast_a_1a_apply]
  exact Cert.LibRank2.sum_first s _ _ _ _ k

/-- The block's weighted sum of points at (c, k): the sum over the block's points. -/
theorem weighted_apply (xb : FVec Ideal S256x4096 .bf16) (s : FVec Ideal S4096x64 .f32) (c : Fin 256) (k : Fin 64) :
    weighted (F := Ideal) xb s (ix2 c k) = ∑ r : Fin 4096, xb (ix2 c r) * s (ix2 r k) := by
  unfold weighted
  exact Cert.LibDenseEntry.matmul_plain_zero_apply dot_S256x4096_S4096x64_S256x64_1_0_0_1_n_n rfl rfl rfl rfl rfl rfl none xb _ c k

/-- The zero row and the zero table are zero. -/
theorem zeroRow_apply (i : S1x64.Idx) : zeroRow (F := Ideal) i = 0 := by
  exact Ideal.ofBits_zero_f32
theorem zeroTab_apply (i : S256x64.Idx) : zeroTab (F := Ideal) i = 0 := by
  exact Ideal.ofBits_zero_f32

/-- The table over `eps` plus the totals, at an entry. -/
private theorem quot_read (numer : FVec Ideal S256x64 .f32) (denom : FVec Ideal S1x64 .f32) (c : Fin 256) (k : Fin 64) :
    divf numer (broadcastTo S256x64 (addf (broadcast S1x64 (Scalar.ofBits .f32 0x358637BD#32)) denom)
        broadcasts_S1x64_S256x64) (ix2 c k)
      = Ideal.div (numer (ix2 c k)) (eps + denom (ix2 (0 : Fin 1) k)) := by
  rw [divf_apply, broadcastTo_1b_ab_apply, addf_apply, broadcast_apply]
  rfl

/-- The Euclidean length of column k of a table, kept as a row: the square root of the sum of the squares. -/
private theorem len_read (q : FVec Ideal S256x64 .f32) (u : Fin 1) (k : Fin 64) :
    sqrt (shapeCast S1x64 (multiReduction .add [0] S64 (mulf q q) 0x00000000#32 reduces_S256x64_S64 (.inl rfl) rfl)
        shapeCasts_S64_S1x64) (ix2 u k)
      = Ideal.sqrt (∑ c' : Fin 256, q (ix2 c' k) * q (ix2 c' k)) := by
  rw [Cert.ColumnForms.sqrt_apply, shapeCast_a_1a_apply]
  exact congrArg Ideal.sqrt (Cert.LibRank2.sum_first _ _ _ _ _ k)

/-- The end of an iteration at (c, k): the table over `eps` plus the totals, each column over `eps` plus its length. -/
theorem finish_apply (numer : FVec Ideal S256x64 .f32) (denom : FVec Ideal S1x64 .f32) (c : Fin 256) (k : Fin 64) :
    finish (F := Ideal) numer denom (ix2 c k)
      = Cert.Spec.unitCols eps
          (fun (c' : Fin 256) (k' : Fin 64) => Ideal.div (numer (ix2 c' k')) (eps + denom (ix2 (0 : Fin 1) k'))) c k := by
  unfold finish
  dsimp only
  rw [truncf_apply, divf_apply, broadcastTo_1b_ab_apply, addf_apply, broadcast_apply, len_read]
  simp only [quot_read]
  rfl

/-- A block's rows of the result at (0, r, k): the soft assignment of the scores of point r. -/
theorem lastChunk_apply (mb : FVec Ideal S256x64 .bf16) (v : Vec Ideal S1x256x4096 .f32) (u : Fin 1) (r : Fin 4096) (k : Fin 64) :
    lastChunk (F := Ideal) mb v (ix3 u r k)
      = Cert.Spec.softRow lo (fun k' : Fin 64 => ∑ c : Fin 256, v (ix3 (0 : Fin 1) c r) * mb (ix2 c k')) k := by
  unfold lastChunk
  rw [shapeCast_ab_1ab_apply, softRows_apply]
  simp only [scores_apply, chunkB_apply]

/-- The four column blocks of the staged points: block j holds the points j * 4096 + r. -/
theorem blk0_apply (x0 : Vec Ideal S1x256x16384 .f32) (c : Fin 256) (r : Fin 4096) :
    blk0 (F := Ideal) x0 (ix3 (0 : Fin 1) c r) = x0 (ix3 (0 : Fin 1) c (⟨0 * 4096 + r.val, by omega⟩ : Fin 16384)) := by
  unfold blk0 xRect
  refine congrArg x0 (funext fun a => Fin.ext ?_)
  match a with
  | ⟨0, _⟩ => rfl
  | ⟨1, _⟩ => exact (Nat.zero_add _).trans (Nat.one_mul _)
  | ⟨2, _⟩ => show 0 + 1 * r.val = 0 * 4096 + r.val; omega
theorem blk1_apply (x0 : Vec Ideal S1x256x16384 .f32) (c : Fin 256) (r : Fin 4096) :
    blk1 (F := Ideal) x0 (ix3 (0 : Fin 1) c r) = x0 (ix3 (0 : Fin 1) c (⟨1 * 4096 + r.val, by omega⟩ : Fin 16384)) := by
  unfold blk1 xRect
  refine congrArg x0 (funext fun a => Fin.ext ?_)
  match a with
  | ⟨0, _⟩ => rfl
  | ⟨1, _⟩ => exact (Nat.zero_add _).trans (Nat.one_mul _)
  | ⟨2, _⟩ => show 4096 + 1 * r.val = 1 * 4096 + r.val; omega
theorem blk2_apply (x0 : Vec Ideal S1x256x16384 .f32) (c : Fin 256) (r : Fin 4096) :
    blk2 (F := Ideal) x0 (ix3 (0 : Fin 1) c r) = x0 (ix3 (0 : Fin 1) c (⟨2 * 4096 + r.val, by omega⟩ : Fin 16384)) := by
  unfold blk2 xRect
  refine congrArg x0 (funext fun a => Fin.ext ?_)
  match a with
  | ⟨0, _⟩ => rfl
  | ⟨1, _⟩ => exact (Nat.zero_add _).trans (Nat.one_mul _)
  | ⟨2, _⟩ => show 8192 + 1 * r.val = 2 * 4096 + r.val; omega
theorem blk3_apply (x0 : Vec Ideal S1x256x16384 .f32) (c : Fin 256) (r : Fin 4096) :
    blk3 (F := Ideal) x0 (ix3 (0 : Fin 1) c r) = x0 (ix3 (0 : Fin 1) c (⟨3 * 4096 + r.val, by omega⟩ : Fin 16384)) := by
  unfold blk3 xRect
  refine congrArg x0 (funext fun a => Fin.ext ?_)
  match a with
  | ⟨0, _⟩ => rfl
  | ⟨1, _⟩ => exact (Nat.zero_add _).trans (Nat.one_mul _)
  | ⟨2, _⟩ => show 12288 + 1 * r.val = 3 * 4096 + r.val; omega

/-- The staged prototypes as loaded: the whole block. -/
theorem proto0_apply (x1 : Vec Ideal S1x256x64 .f32) (c : Fin 256) (k : Fin 64) :
    proto0 (F := Ideal) x1 (ix2 c k) = x1 (ix3 (0 : Fin 1) c k) := by
  unfold proto0
  rw [View.ld_unit_zero (funext fun a => by match a with | ⟨0, _⟩ => rfl | ⟨1, _⟩ => rfl | ⟨2, _⟩ => rfl)]
  exact protoB_apply x1 c k

end Cert.KernelIdeal.Ops

end
-- ==== Proof.LibBlockSum.lean ====
/-
  A finite sum accumulated block by block. The terms term 0, …, term (N - 1) are added up B at a time: after k
  blocks the accumulator holds the sum of the terms of index below k * B. This file states the three facts such an
  accumulation needs: the accumulator starts at zero, one more block adds exactly the B terms of that block, and
  once the bound reaches N the accumulator is the whole sum.
-/
import Mathlib.Algebra.BigOperators.Fin

namespace BlockSum

open scoped BigOperators

variable {M : Type*} [AddCommMonoid M] {N : ℕ}

/-- The kk-th index of block k lies below N as soon as the first k + 1 blocks of size B fit in N:
    k * B + kk < k * B + B = (k + 1) * B ≤ N. -/
theorem block_lt {B : ℕ} {k : ℕ} (hk : (k + 1) * B ≤ N) (kk : Fin B) : k * B + kk.val < N :=
  calc k * B + kk.val < k * B + B := Nat.add_lt_add_left kk.isLt _
    _ = (k + 1) * B := (Nat.succ_mul k B).symm
    _ ≤ N := hk

/-- The sum of the terms of index below n, for n ≤ N, is the sum over Fin n of the same terms: the indices of
    Fin N below n are exactly the images of Fin n under the inclusion Fin n → Fin N. -/
theorem partial_eq_sum_fin (term : Fin N → M) (n : ℕ) (hn : n ≤ N) :
    (∑ j ∈ Finset.univ.filter (fun j : Fin N => j.val < n), term j)
      = ∑ i : Fin n, term ⟨i.val, lt_of_lt_of_le i.isLt hn⟩ := by
  symm
  refine Finset.sum_bij (fun (i : Fin n) _ => (⟨i.val, lt_of_lt_of_le i.isLt hn⟩ : Fin N)) ?_ ?_ ?_ ?_
  · intro i _
    exact Finset.mem_filter.mpr ⟨Finset.mem_univ _, i.isLt⟩
  · intro a _ b _ h
    have hv : (⟨a.val, lt_of_lt_of_le a.isLt hn⟩ : Fin N).val = (⟨b.val, lt_of_lt_of_le b.isLt hn⟩ : Fin N).val :=
      congrArg Fin.val h
    exact Fin.ext hv
  · intro j hj
    exact ⟨⟨j.val, (Finset.mem_filter.mp hj).2⟩, Finset.mem_univ _, Fin.ext rfl⟩
  · intro i _
    rfl

/-- Before any block has been added the accumulator is zero: no index is below 0. -/
theorem partial_zero (term : Fin N → M) :
    (∑ j ∈ Finset.univ.filter (fun j : Fin N => j.val < 0), term j) = 0 := by
  rw [Finset.filter_false_of_mem (fun j _ => Nat.not_lt_zero j.val)]
  exact Finset.sum_empty

/-- One more block: the sum of the terms of index below (k + 1) * B is the sum of the terms of index below k * B
    plus the B terms of block k, those of index k * B + kk for kk < B. -/
theorem partial_step (term : Fin N → M) (B k : ℕ) (hk : (k + 1) * B ≤ N) :
    (∑ j ∈ Finset.univ.filter (fun j : Fin N => j.val < (k + 1) * B), term j)
      = (∑ j ∈ Finset.univ.filter (fun j : Fin N => j.val < k * B), term j)
        + ∑ kk : Fin B, term ⟨k * B + kk.val, block_lt hk kk⟩ := by
  have hk' : k * B ≤ N := le_trans (Nat.mul_le_mul_right B (Nat.le_succ k)) hk
  have e : k * B + B = (k + 1) * B := (Nat.succ_mul k B).symm
  rw [partial_eq_sum_fin term _ hk, partial_eq_sum_fin term _ hk']
  rw [← Fin.sum_congr' (fun i : Fin ((k + 1) * B) => term ⟨i.val, lt_of_lt_of_le i.isLt hk⟩) e,
    Fin.sum_univ_add]
  rfl

/-- Once the bound reaches N every index is below it, and the accumulator is the whole sum. -/
theorem partial_full (term : Fin N → M) (n : ℕ) (hn : N ≤ n) :
    (∑ j ∈ Finset.univ.filter (fun j : Fin N => j.val < n), term j) = ∑ j, term j := by
  rw [Finset.filter_true_of_mem (fun j _ => lt_of_lt_of_le j.isLt hn)]

end BlockSum
-- ==== Proof.KernelStep.lean ====
/-
  One batch of the kernel's body, read at coordinates: the staged points form a table `pts` of 256 features by 16384
  points, the prototypes a table of 256 features by 64. The body walks the points in four blocks of 4096; a sum over all
  points is the sum of the four block sums added in order from zero, so the running total and the running table of an
  iteration are the whole sums of the specification, and an iteration of the body is `Spec.iterOnce`. After three
  iterations each block's rows of the result are the specification's `assignOnce` at that block's points, and the four
  row blocks written to the staging buffer together are that function of the whole buffer.
-/
import proofs.«151417_j40132174413878_2_alg».proof.Proof.KernelOps
import proofs.«151417_j40132174413878_2_alg».proof.Proof.LibBlockSum

set_option maxRecDepth 16384

noncomputable section

open scoped BigOperators

namespace Cert.KernelIdeal.Step

open Cert.KernelIdeal Cert.KernelIdeal.Gen Cert.KernelIdeal.Body Cert.KernelIdeal.Ops
open Idealize.ShloMosaic Idealize.ShloMosaic.ValueIdx

/-- The staged points as a table: feature `c` of point `n`. -/
def pts (x0 : Vec Ideal S1x256x16384 .f32) : Fin 256 → Fin 16384 → EReal := fun c n => x0 (ix3 (0 : Fin 1) c n)
/-- A prototype table held by the body, and the staged prototypes. -/
def tab (mb : FVec Ideal S256x64 .bf16) : Fin 256 → Fin 64 → EReal := fun c k => mb (ix2 c k)
def tab0 (x1 : Vec Ideal S1x256x64 .f32) : Fin 256 → Fin 64 → EReal := fun c k => x1 (ix3 (0 : Fin 1) c k)

/-- Row `r` of block `j` is point `j * 4096 + r`. -/
def pt (j : ℕ) (hj : (j + 1) * 4096 ≤ 16384) (r : Fin 4096) : Fin 16384 := ⟨j * 4096 + r.val, BlockSum.block_lt hj r⟩

/-! ## One block -/

section Block

variable (x0 : Vec Ideal S1x256x16384 .f32) (mb : FVec Ideal S256x64 .bf16)
  (v : Vec Ideal S1x256x4096 .f32) (j : ℕ) (hj : (j + 1) * 4096 ≤ 16384)
  (hv : ∀ (c : Fin 256) (r : Fin 4096), v (ix3 (0 : Fin 1) c r) = pts x0 c (pt j hj r))

include hv

/-- The block's scores are the specification's scores of its points. -/
theorem score_block (r : Fin 4096) (k : Fin 64) :
    scores (F := Ideal) (chunkB v) mb (ix2 r k) = Cert.Spec.score (pts x0) (tab mb) (pt j hj r) k := by
  rw [scores_apply]
  unfold Cert.Spec.score
  exact Finset.sum_congr rfl fun c _ => by rw [chunkB_apply, hv]; rfl

/-- The block's weights are the specification's weights of its points. -/
theorem weights_block (r : Fin 4096) (k : Fin 64) :
    weights (F := Ideal) mb v (ix2 r k) = Cert.Spec.resp lo tmp (pts x0) (tab mb) (pt j hj r) k := by
  unfold weights
  rw [softRows_apply]
  unfold Cert.Spec.resp
  exact congrArg (fun f => Cert.Spec.softRow lo f k)
    (funext fun k' => by rw [heated_apply, score_block x0 mb v j hj hv])

/-- The block's column totals. -/
theorem colTotal_block (u : Fin 1) (k : Fin 64) :
    colTotal (F := Ideal) (weights mb v) (ix2 u k)
      = ∑ r : Fin 4096, Cert.Spec.resp lo tmp (pts x0) (tab mb) (pt j hj r) k := by
  rw [colTotal_apply]
  exact Finset.sum_congr rfl fun r _ => weights_block x0 mb v j hj hv r k

/-- The block's weighted sum of points. -/
theorem weighted_block (c : Fin 256) (k : Fin 64) :
    weighted (F := Ideal) (chunkB v) (weights mb v) (ix2 c k)
      = ∑ r : Fin 4096, pts x0 c (pt j hj r) * Cert.Spec.resp lo tmp (pts x0) (tab mb) (pt j hj r) k := by
  rw [weighted_apply]
  exact Finset.sum_congr rfl fun r _ => by rw [chunkB_apply, hv, weights_block x0 mb v j hj hv]

/-- The block's rows of the result: the soft assignment of its points' scores. -/
theorem lastChunk_block (u : Fin 1) (r : Fin 4096) (k : Fin 64) :
    lastChunk (F := Ideal) mb v (ix3 u r k)
      = Cert.Spec.softRow lo (fun k' : Fin 64 => Cert.Spec.score (pts x0) (tab mb) (pt j hj r) k') k := by
  rw [lastChunk_apply]
  exact congrArg (fun f => Cert.Spec.softRow lo f k)
    (funext fun k' => by
      unfold Cert.Spec.score
      exact Finset.sum_congr rfl fun c _ => by rw [hv]; rfl)

end Block

/-! ## Four blocks make the whole -/

/-- Adding the four block sums in order, from zero, gives the sum over all points. -/
theorem sum_four_blocks (term : Fin 16384 → EReal) :
    (((0 + ∑ r : Fin 4096, term (pt 0 (by decide) r)) + ∑ r : Fin 4096, term (pt 1 (by decide) r))
        + ∑ r : Fin 4096, term (pt 2 (by decide) r)) + ∑ r : Fin 4096, term (pt 3 (by decide) r)
      = ∑ n, term n := by
  have hf := BlockSum.partial_full term ((3 + 1) * 4096) (by decide)
  have h3 := BlockSum.partial_step term 4096 3 (by decide)
  have h2 := BlockSum.partial_step term 4096 2 (by decide)
  have h1 := BlockSum.partial_step term 4096 1 (by decide)
  have h0 := BlockSum.partial_step term 4096 0 (by decide)
  have hz := BlockSum.partial_zero term
  have hz' : (∑ j ∈ Finset.univ.filter (fun j : Fin 16384 => j.val < 0 * 4096), term j) = 0 := hz
  rw [← hf, h3, h2, h1, h0, hz']
  rfl

/-! ## One iteration, and three -/

section Iterate

variable (x0 : Vec Ideal S1x256x16384 .f32)

theorem blk0_pts (c : Fin 256) (r : Fin 4096) : blk0 (F := Ideal) x0 (ix3 (0 : Fin 1) c r) = pts x0 c (pt 0 (by decide) r) :=
  blk0_apply x0 c r
theorem blk1_pts (c : Fin 256) (r : Fin 4096) : blk1 (F := Ideal) x0 (ix3 (0 : Fin 1) c r) = pts x0 c (pt 1 (by decide) r) :=
  blk1_apply x0 c r
theorem blk2_pts (c : Fin 256) (r : Fin 4096) : blk2 (F := Ideal) x0 (ix3 (0 : Fin 1) c r) = pts x0 c (pt 2 (by decide) r) :=
  blk2_apply x0 c r
theorem blk3_pts (c : Fin 256) (r : Fin 4096) : blk3 (F := Ideal) x0 (ix3 (0 : Fin 1) c r) = pts x0 c (pt 3 (by decide) r) :=
  blk3_apply x0 c r

/-- One iteration of the body over the four blocks is the specification's iteration with one division. -/
theorem emStep_apply (mb : FVec Ideal S256x64 .bf16) (c : Fin 256) (k : Fin 64) :
    emStep (F := Ideal) mb (blk0 x0) (blk1 x0) (blk2 x0) (blk3 x0) (ix2 c k)
      = Cert.Spec.iterOnce lo tmp eps (pts x0) (tab mb) c k := by
  unfold emStep
  rw [finish_apply]
  unfold Cert.Spec.iterOnce
  refine congrArg (fun f => Cert.Spec.unitCols eps f c k) (funext fun c' => funext fun k' => ?_)
  unfold Cert.Spec.mstepOnce
  simp only [addf_apply, zeroTab_apply, zeroRow_apply]
  rw [weighted_block x0 mb (blk0 x0) 0 (by decide) (blk0_pts x0), weighted_block x0 mb (blk1 x0) 1 (by decide) (blk1_pts x0),
    weighted_block x0 mb (blk2 x0) 2 (by decide) (blk2_pts x0), weighted_block x0 mb (blk3 x0) 3 (by decide) (blk3_pts x0),
    colTotal_block x0 mb (blk0 x0) 0 (by decide) (blk0_pts x0), colTotal_block x0 mb (blk1 x0) 1 (by decide) (blk1_pts x0),
    colTotal_block x0 mb (blk2 x0) 2 (by decide) (blk2_pts x0), colTotal_block x0 mb (blk3 x0) 3 (by decide) (blk3_pts x0)]
  exact congrArg₂ Ideal.div
    (sum_four_blocks fun n => pts x0 c' n * Cert.Spec.resp lo tmp (pts x0) (tab mb) n k')
    (congrArg (eps + ·) (sum_four_blocks fun n => Cert.Spec.resp lo tmp (pts x0) (tab mb) n k'))

variable (x1 : Vec Ideal S1x256x64 .f32)

/-- The prototype tables after one, two and three iterations. -/
theorem after1_tab : tab (protoAfter1 (F := Ideal) x0 x1) = Cert.Spec.iterOnce lo tmp eps (pts x0) (tab0 x1) := by
  have h : tab (proto0 (F := Ideal) x1) = tab0 x1 := funext fun c => funext fun k => proto0_apply x1 c k
  funext c k
  show protoAfter1 (F := Ideal) x0 x1 (ix2 c k) = _
  unfold protoAfter1
  rw [emStep_apply, h]

theorem after2_tab : tab (protoAfter2 (F := Ideal) x0 x1)
    = Cert.Spec.iterOnce lo tmp eps (pts x0) (Cert.Spec.iterOnce lo tmp eps (pts x0) (tab0 x1)) := by
  funext c k
  show protoAfter2 (F := Ideal) x0 x1 (ix2 c k) = _
  unfold protoAfter2
  rw [emStep_apply, after1_tab]

theorem after3_tab : tab (protoAfter3 (F := Ideal) x0 x1)
    = Cert.Spec.iterOnce lo tmp eps (pts x0)
        (Cert.Spec.iterOnce lo tmp eps (pts x0) (Cert.Spec.iterOnce lo tmp eps (pts x0) (tab0 x1))) := by
  funext c k
  show protoAfter3 (F := Ideal) x0 x1 (ix2 c k) = _
  unfold protoAfter3
  rw [emStep_apply, after2_tab]

/-- A block's rows of the result are the specification's assignment at that block's points. -/
theorem piece_apply (v : Vec Ideal S1x256x4096 .f32) (j : ℕ) (hj : (j + 1) * 4096 ≤ 16384)
    (hv : ∀ (c : Fin 256) (r : Fin 4096), v (ix3 (0 : Fin 1) c r) = pts x0 c (pt j hj r))
    (u : Fin 1) (r : Fin 4096) (k : Fin 64) :
    lastChunk (F := Ideal) (protoAfter3 x0 x1) v (ix3 u r k)
      = Cert.Spec.assignOnce lo tmp eps (pts x0) (tab0 x1) (pt j hj r) k := by
  rw [lastChunk_block x0 (protoAfter3 x0 x1) v j hj hv, after3_tab]
  rfl

end Iterate

end Cert.KernelIdeal.Step

end
-- ==== Proof.KernelValue.lean ====
/-
  From the blocks to the whole array. Grid point `t` stages batch `t` of the points and the one block of prototypes,
  and writes batch `t` of the result. What the body leaves in the output's staging buffer is one function of the two
  staged blocks (`blockResult`: the four row blocks it stores are the restrictions of that function), so what point
  `t` writes back is batch `t` of one function `G` of the arrays the region finds; the sixteen batches cover the result
  array, which therefore ends holding `G`.
-/
import proofs.«151417_j40132174413878_2_alg».proof.Proof.KernelStep
import Idealize.ShloMosaic.Lib.Pipeline.Value
import Idealize.ShloMosaic.Lib.StableHlo.Run

set_option maxRecDepth 16384

noncomputable section

open scoped BigOperators

namespace Cert.KernelIdeal.Result

open Cert.KernelIdeal Cert.KernelIdeal.Gen Cert.KernelIdeal.Body Cert.KernelIdeal.Ops Cert.KernelIdeal.Step
open Idealize.ShloMosaic Idealize.ShloMosaic.ValueIdx Idealize.ShloMosaic.TcCoe Idealize.SL.Sem
open Idealize.ShloMosaic.Pipeline (Dat)

/-! ## The staging buffer after the body -/

/-- The result block as one function of the two staged blocks: row `n`, column `k` is the specification's assignment
    of point `n` to prototype `k`. -/
def blockResult (x0 : Vec Ideal S1x256x16384 .f32) (x1 : Vec Ideal S1x256x64 .f32) : S1x16384x64.Idx → EReal := fun y =>
  Cert.Spec.assignOnce lo tmp eps (pts x0) (tab0 x1) ⟨(y 1).val, (y 1).isLt⟩ ⟨(y 2).val, (y 2).isLt⟩

/-- Each stored row block is the restriction of `blockResult` to its rows. -/
theorem piece_ok (x0 : Vec Ideal S1x256x16384 .f32) (x1 : Vec Ideal S1x256x64 .f32)
    (v : Vec Ideal S1x256x4096 .f32) (j : ℕ) (hj : (j + 1) * 4096 ≤ 16384)
    (hv : ∀ (c : Fin 256) (r : Fin 4096), v (ix3 (0 : Fin 1) c r) = pts x0 c (pt j hj r))
    (o : ℕ) (ho : o = j * 4096) (h : ∀ a, (![0, o, 0] : Fin 3 → Nat) a + S1x4096x64.size a ≤ S1x16384x64.size a)
    (x : S1x4096x64.Idx) :
    lastChunk (F := Ideal) (protoAfter3 x0 x1) v x = blockResult x0 x1 ((oRect o h).emb x) := by
  obtain ⟨u, r, k, rfl⟩ : ∃ (u : Fin 1) (r : Fin 4096) (k : Fin 64), x = ix3 u r k := ⟨x 0, x 1, x 2, eq_ix3 x⟩
  rw [piece_apply x0 x1 v j hj hv u r k]
  unfold blockResult
  subst ho
  exact congrArg₂ (Cert.Spec.assignOnce lo tmp eps (pts x0) (tab0 x1))
    (Fin.ext (by show j * 4096 + r.val = j * 4096 + 1 * r.val; omega))
    (Fin.ext (by show k.val = 0 + 1 * k.val; omega))

/-- What the body's run leaves in the output's staging buffer is `blockResult` of the staged blocks. -/
theorem out_eq (c : Dev nD) (i : grid0.Coords) (arg1 : Memref sig .tc .vmem S1x256x16384 .f32) (harg1 : arg1.IsWhole)
    (arg2 : Memref sig .tc .vmem S1x256x64 .f32) (harg2 : arg2.IsWhole)
    (arg3 : Memref sig .tc .vmem S1x16384x64 .f32) (harg3 : arg3.IsWhole)
    (x0 : Vec Ideal S1x256x16384 .f32) (x1 : Vec Ideal S1x256x64 .f32) :
    out0_A_2 (F := Ideal) c i arg1 harg1 arg2 harg2 arg3 harg3 x0 x1 = blockResult x0 x1 := by
  unfold out0_A_2
  rw [View.read_writes_eq_canon _ _ _ (cover0_A_2 c i arg1 harg1 arg2 harg2 arg3 harg3 x0 x1)]
  funext y
  have hc := cover0_A_2 c i arg1 harg1 arg2 harg2 arg3 harg3 x0 x1 y
  rw [pieces_eq c arg1 harg1 arg2 harg2 x0 x1 i arg3 harg3] at hc ⊢
  refine View.canon_apply_of_pieces (blockResult x0 x1) _ ?_ y hc
  intro p hp
  simp only [List.mem_cons, List.not_mem_nil, or_false] at hp
  rcases hp with rfl | rfl | rfl | rfl
  · exact fun x => piece_ok x0 x1 (blk3 x0) 3 (by decide) (blk3_pts x0) 12288 rfl (by decide) x
  · exact fun x => piece_ok x0 x1 (blk2 x0) 2 (by decide) (blk2_pts x0) 8192 rfl (by decide) x
  · exact fun x => piece_ok x0 x1 (blk1 x0) 1 (by decide) (blk1_pts x0) 4096 rfl (by decide) x
  · exact fun x => piece_ok x0 x1 (blk0 x0) 0 (by decide) (blk0_pts x0) 0 rfl (by decide) x

/-! ## The result array -/

variable (m : (ℓ : Loc nD τ sig) → Buf (Elt Ideal) ℓ) (ρ : Dev nD → PrngReg)

/-- The result array as one function of the reshaped points and the prototypes: at batch `b`, point `n`, prototype
    `k`, the specification's assignment for batch `b`'s points. -/
def G (XF : S16x256x16384.Idx → EReal) (MU : S1x256x64.Idx → EReal) : S16x16384x64.Idx → EReal := fun i =>
  Cert.Spec.assignOnce lo tmp eps
    (fun (c : Fin 256) (n : Fin 16384) => XF (ix3 (⟨(i 0).val, (i 0).isLt⟩ : Fin 16) c n))
    (fun (c : Fin 256) (k : Fin 64) => MU (ix3 (0 : Fin 1) c k))
    ⟨(i 1).val, (i 1).isLt⟩ ⟨(i 2).val, (i 2).isLt⟩

/-- The printed index maps over the grid: point `t` stages batch `t` of the points and of the result, block 0 of the
    prototypes, and block 0 along every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point `t` writes back is batch `t` of `G` of the arrays the region finds. -/
theorem flushed_eq (c : Dev nD) (t : Fin cfg0.N) :
    (dats m 0 c).flushed 2 t
      = ((cfg0.win 2).blk t).view.read (Elt Ideal) (G (V m c main_v0) (V m c main_arg1)) := by
  rw [Cert.KernelIdeal.Value.flushed2_A, out_eq]
  obtain ⟨a0, a1, a2, b0, b1, b2, o0, o1, o2⟩ := idx_facts t
  funext y
  show blockResult (iblk m c 0 t) (iblk m c 1 t) y
    = G (V m c main_v0) (V m c main_arg1) (((cfg0.win 2).blk t).view.emb y)
  unfold blockResult G
  have hy0 : (y 0).val < 1 := (y 0).isLt
  refine congr (congr (congrArg₂ (Cert.Spec.assignOnce lo tmp eps) ?_ ?_) ?_) ?_
  · funext c' n
    show V m c main_v0 (((cfg0.win 0).blk t).view.emb (ix3 (0 : Fin 1) c' n)) = V m c main_v0 _
    congr 1
    funext a
    apply Fin.ext
    match a with
    | ⟨0, _⟩ =>
      show win0_0.index t (0 : Fin 3) * 1 + 1 * 0 = win0_2.index t (0 : Fin 3) * 1 + 1 * (y 0).val
      omega
    | ⟨1, _⟩ => show win0_0.index t (1 : Fin 3) * 256 + 1 * c'.val = c'.val; omega
    | ⟨2, _⟩ => show win0_0.index t (2 : Fin 3) * 16384 + 1 * n.val = n.val; omega
  · funext c' k
    show V m c main_arg1 (((cfg0.win 1).blk t).view.emb (ix3 (0 : Fin 1) c' k)) = V m c main_arg1 _
    congr 1
    funext a
    apply Fin.ext
    match a with
    | ⟨0, _⟩ => show win0_1.index t (0 : Fin 3) * 1 + 1 * 0 = 0; omega
    | ⟨1, _⟩ => show win0_1.index t (1 : Fin 3) * 256 + 1 * c'.val = c'.val; omega
    | ⟨2, _⟩ => show win0_1.index t (2 : Fin 3) * 64 + 1 * k.val = k.val; omega
  · exact Fin.ext (by show (y 1).val = win0_2.index t (1 : Fin 3) * 16384 + 1 * (y 1).val; omega)
  · exact Fin.ext (by show (y 2).val = win0_2.index t (2 : Fin 3) * 64 + 1 * (y 2).val; omega)

/-- Every index of the result array lies in the block of the point numbered by its batch. -/
theorem cover (i : S16x16384x64.Idx) :
    ∃ t : Fin cfg0.N, (cfg0.win 2).flush t = true ∧ i ∈ ((cfg0.win 2).blk t).view.set := by
  have hN : cfg0.N = 16 := N_0
  obtain ⟨t, ht⟩ : ∃ t : Fin cfg0.N, t.val = (i 0).val := ⟨⟨(i 0).val, by rw [hN]; exact (i 0).isLt⟩, rfl⟩
  obtain ⟨a0, a1, a2, b0, b1, b2, o0, o1, o2⟩ := idx_facts t
  refine ⟨t, flush0_2 t, ?_⟩
  show i ∈ ((View.whole main_v1).slice (win0_2.rect t)).set
  rw [View.set_slice_whole, Rect.mem_set_unit]
  intro a
  have h1 : (i 1).val < 16384 := (i 1).isLt
  have h2 : (i 2).val < 64 := (i 2).isLt
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 16384 ≤ (i 1).val ∧ (i 1).val < win0_2.index t (1 : Fin 3) * 16384 + 16384
    omega
  | ⟨2, _⟩ =>
    show win0_2.index t (2 : Fin 3) * 64 ≤ (i 2).val ∧ (i 2).val < win0_2.index t (2 : Fin 3) * 64 + 64
    omega

/-- The result array after the run. -/
theorem final (c : Dev nD) : (dats m 0 c).arrAt 2 cfg0.N = G (V m c main_v0) (V m c main_arg1) :=
  (dats m 0 c).arrAt_eq_of_cover 2 (G (V m c main_v0) (V m c main_arg1)) (fun t _ => flushed_eq m c t) cover

/-- The points as the region finds them: the input array reshaped. -/
theorem V_main_v0 (c : Dev nD) :
    (V m c main_v0 : S16x256x16384.Idx → EReal)
      = shapeCast S16x256x16384 (m ((c : Thread nD τ).loc main_arg0)) shapeCasts_S16x256x128x128_S16x256x16384 := by
  dsimp only [Gen.V, Gen.hostOps0]
  after_results
  rfl

/-- The kernel's run: the result array ends at `G` of the reshaped points and the prototypes, the arguments unchanged. -/
theorem run : θ_run defs (onTc (τ := τ) (main (F := Ideal))) ⟨m, fun _ => 0, ρ⟩ fun r => ∀ c : Dev nD,
      r.2.mem ((c : Thread nD τ).loc main_v1)
        = G (shapeCast S16x256x16384 (m ((c : Thread nD τ).loc main_arg0)) shapeCasts_S16x256x128x128_S16x256x16384)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_v0, V_main_arg1])), (h c).2⟩)
    (Cert.KernelIdeal.Value.run_blocks m ρ)

end Cert.KernelIdeal.Result

end
-- ==== Proof.RefRun.lean ====
/-
  The reference program's run, read stage by stage.

  @main of the reference is a straight line of 128 tensor operations: a reshape and a broadcast of the two
  arguments, three identical rounds (scores by a contraction, scaling, row maximum, subtraction, exponential,
  row sum, division, column sum, a shifted division, a second contraction, and a division by the shifted
  Euclidean length of each column), and a final row-wise softmax. Several intermediate values are read more than
  once, so the result written out as one term of the arguments repeats each of them many times over. Here the
  line is cut into eighteen consecutive pieces, each ending just after a value with several later readers is
  written. For a piece, the contents of the few buffers still to be read are assumed to be the named stages
  (`ReadP.val_…`, one per operation, each defined over the previous ones), and the buffers the piece leaves for
  later are shown to hold their named stages. Composing the pieces gives the contents of the result buffer
  after the whole line as the last named stage; no operation writes an argument buffer, so both keep their
  launch contents. The statement over executions then follows from the rule for a straight line of operations.
-/
import proofs.«151417_j40132174413878_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The program as a list of operations -/

/-- @main's 128 operations, in order (a called function's operations stand in its call's place, spelt `TRef.…`). -/
abbrev ops : List (HloOp τ sig (Elt F)) :=
  [ reshape main_arg0 main_v0 rfl shapeCasts_S16x256x128x128_S16x256x16384,
    unary main_arg1 main_v1 (broadcastInDim S16x256x64 ![0, 1, 2] bcast_S1x256x64_S16x256x64_0_1_2 : (⟨S1x256x64, .f32⟩ : BufTy).Contents (Elt F) → (⟨S16x256x64, .f32⟩ : BufTy).Contents (Elt F)),
    binary main_v0 main_v1 main_v2 ((fun l r => Host.dotGeneral dot_S16x256x16384_S16x256x64_S16x16384x64_1_1_2_2_0_0 none l r) : (⟨S16x256x16384, .f32⟩ : BufTy).Contents (Elt F) → (⟨S16x256x64, .f32⟩ : BufTy).Contents (Elt F) → (⟨S16x16384x64, .f32⟩ : BufTy).Contents (Elt F)),
    nullary main_cst (constant S_ .f32 0x41A00000#32),
    unary main_cst main_v3 (broadcastInDim S16x16384x64 ![] bcast_S_S16x16384x64 : (⟨S_, .f32⟩ : BufTy).Contents (Elt F) → (⟨S16x16384x64, .f32⟩ : BufTy).Contents (Elt F)),
    binary main_v3 main_v2 main_v4 (mulf : (⟨S16x16384x64, .f32⟩ : BufTy).Contents (Elt F) → (⟨S16x16384x64, .f32⟩ : BufTy).Contents (Elt F) → (⟨S16x16384x64, .f32⟩ : BufTy).Contents (Elt F)),
    nullary main_cst_0 (constant S_ .f32 0xFF800000#32),
    binary main_v4 main_cst_0 main_v5 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_1 (constant S_ .f32 0xFF800000#32),
    unary main_cst_1 main_v6 (broadcastInDim S16x16384 ![] bcast_S_S16x16384 : (⟨S_, .f32⟩ : BufTy).Contents (Elt F) → (⟨S16x16384, .f32⟩ : BufTy).Contents (Elt F)),
    binary main_v6 main_v5 main_v7 (maximumf : (⟨S16x16384, .f32⟩ : BufTy).Contents (Elt F) → (⟨S16x16384, .f32⟩ : BufTy).Contents (Elt F) → (⟨S16x16384, .f32⟩ : BufTy).Contents (Elt F)),
    unary main_v7 main_v8 (broadcastInDim S16x16384x1 ![0, 1] bcast_S16x16384_S16x16384x1_0_1 : (⟨S16x16384, .f32⟩ : BufTy).Contents (Elt F) → (⟨S16x16384x1, .f32⟩ : BufTy).Contents (Elt F)),
    unary main_v8 main_v9 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v4 main_v9 main_v10 (subf : (⟨S16x16384x64, .f32⟩ : BufTy).Contents (Elt F) → (⟨S16x16384x64, .f32⟩ : BufTy).Contents (Elt F) → (⟨S16x16384x64, .f32⟩ : BufTy).Contents (Elt F)),
    unary main_v10 main_v11 (Host.exp : (⟨S16x16384x64, .f32⟩ : BufTy).Contents (Elt F) → (⟨S16x16384x64, .f32⟩ : BufTy).Contents (Elt F)),
    nullary main_cst_2 (constant S_ .f32 0x00000000#32),
    binary main_v11 main_cst_2 main_v12 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v12 main_v13 (broadcastInDim S16x16384x1 ![0, 1] bcast_S16x16384_S16x16384x1_0_1 : (⟨S16x16384, .f32⟩ : BufTy).Contents (Elt F) → (⟨S16x16384x1, .f32⟩ : BufTy).Contents (Elt F)),
    unary main_v13 main_v14 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v11 main_v14 main_v15 (Host.divf : (⟨S16x16384x64, .f32⟩ : BufTy).Contents (Elt F) → (⟨S16x16384x64, .f32⟩ : BufTy).Contents (Elt F) → (⟨S16x16384x64, .f32⟩ : BufTy).Contents (Elt F)),
    nullary main_cst_3 (constant S_ .f32 0x00000000#32),
    binary main_v15 main_cst_3 main_v16 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    unary main_v16 main_v17 (broadcastInDim S16x1x64 ![0, 2] bcast_S16x64_S16x1x64_0_2 : (⟨S16x64, .f32⟩ : BufTy).Contents (Elt F) → (⟨S16x1x64, .f32⟩ : BufTy).Contents (Elt F)),
    nullary main_cst_4 (constant S_ .f32 0x358637BD#32),
    unary main_cst_4 main_v18 (broadcastInDim S16x1x64 ![] bcast_S_S16x1x64 : (⟨S_, .f32⟩ : BufTy).Contents (Elt F) → (⟨S16x1x64, .f32⟩ : BufTy).Contents (Elt F)),
    binary main_v18 main_v17 main_v19 (addf : (⟨S16x1x64, .f32⟩ : BufTy).Contents (Elt F) → (⟨S16x1x64, .f32⟩ : BufTy).Contents (Elt F) → (⟨S16x1x64, .f32⟩ : BufTy).Contents (Elt F)),
    unary main_v19 main_v20 (broadcastInDim S16x16384x64 ![0, 1, 2] bcast_S16x1x64_S16x16384x64_0_1_2 : (⟨S16x1x64, .f32⟩ : BufTy).Contents (Elt F) → (⟨S16x16384x64, .f32⟩ : BufTy).Contents (Elt F)),
    binary main_v15 main_v20 main_v21 (Host.divf : (⟨S16x16384x64, .f32⟩ : BufTy).Contents (Elt F) → (⟨S16x16384x64, .f32⟩ : BufTy).Contents (Elt F) → (⟨S16x16384x64, .f32⟩ : BufTy).Contents (Elt F)),
    binary main_v0 main_v21 main_v22 ((fun l r => Host.dotGeneral dot_S16x256x16384_S16x16384x64_S16x256x64_2_1_1_2_0_0 none l r) : (⟨S16x256x16384, .f32⟩ : BufTy).Contents (Elt F) → (⟨S16x16384x64, .f32⟩ : BufTy).Contents (Elt F) → (⟨S16x256x64, .f32⟩ : BufTy).Contents (Elt F)),
    TRef.binary (TRef.of (T := ⟨S16x256x64, .f32⟩) main_v22) (TRef.of (T := ⟨S16x256x64, .f32⟩) main_v22) (TRef.of (T := ⟨S16x256x64, .f32⟩) main_call0_v0) mulf,
    TRef.nullary (TRef.of (T := ⟨S_, .f32⟩) main_call0_cst) (constant S_ .f32 0x00000000#32),
    TRef.binary (TRef.of (T := ⟨S16x256x64, .f32⟩) main_call0_v0) (TRef.of (T := ⟨S_, .f32⟩) main_call0_cst) (TRef.of (T := ⟨S16x64, .f32⟩) main_call0_v1) (fun x v => Host.reduceAdd x v reducesTo_S16x256x64_S16x64_d1 h_S_),
    TRef.unary (TRef.of (T := ⟨S16x64, .f32⟩) main_call0_v1) (TRef.of (T := ⟨S16x1x64, .f32⟩) main_call0_v2) (broadcastInDim S16x1x64 ![0, 2] bcast_S16x64_S16x1x64_0_2),
    TRef.unary (TRef.of (T := ⟨S16x1x64, .f32⟩) main_call0_v2) (TRef.of (T := ⟨S16x1x64, .f32⟩) main_v23) Host.sqrt,
    nullary main_cst_5 (constant S_ .f32 0x358637BD#32),
    unary main_cst_5 main_v24 (broadcastInDim S16x1x64 ![] bcast_S_S16x1x64 : (⟨S_, .f32⟩ : BufTy).Contents (Elt F) → (⟨S16x1x64, .f32⟩ : BufTy).Contents (Elt F)),
    binary main_v24 main_v23 main_v25 (addf : (⟨S16x1x64, .f32⟩ : BufTy).Contents (Elt F) → (⟨S16x1x64, .f32⟩ : BufTy).Contents (Elt F) → (⟨S16x1x64, .f32⟩ : BufTy).Contents (Elt F)),
    unary main_v25 main_v26 (broadcastInDim S16x256x64 ![0, 1, 2] bcast_S16x1x64_S16x256x64_0_1_2 : (⟨S16x1x64, .f32⟩ : BufTy).Contents (Elt F) → (⟨S16x256x64, .f32⟩ : BufTy).Contents (Elt F)),
    binary main_v22 main_v26 main_v27 (Host.divf : (⟨S16x256x64, .f32⟩ : BufTy).Contents (Elt F) → (⟨S16x256x64, .f32⟩ : BufTy).Contents (Elt F) → (⟨S16x256x64, .f32⟩ : BufTy).Contents (Elt F)),
    binary main_v0 main_v27 main_v28 ((fun l r => Host.dotGeneral dot_S16x256x16384_S16x256x64_S16x16384x64_1_1_2_2_0_0 none l r) : (⟨S16x256x16384, .f32⟩ : BufTy).Contents (Elt F) → (⟨S16x256x64, .f32⟩ : BufTy).Contents (Elt F) → (⟨S16x16384x64, .f32⟩ : BufTy).Contents (Elt F)),
    nullary main_cst_6 (constant S_ .f32 0x41A00000#32),
    unary main_cst_6 main_v29 (broadcastInDim S16x16384x64 ![] bcast_S_S16x16384x64 : (⟨S_, .f32⟩ : BufTy).Contents (Elt F) → (⟨S16x16384x64, .f32⟩ : BufTy).Contents (Elt F)),
    binary main_v29 main_v28 main_v30 (mulf : (⟨S16x16384x64, .f32⟩ : BufTy).Contents (Elt F) → (⟨S16x16384x64, .f32⟩ : BufTy).Contents (Elt F) → (⟨S16x16384x64, .f32⟩ : BufTy).Contents (Elt F)),
    nullary main_cst_7 (constant S_ .f32 0xFF800000#32),
    binary main_v30 main_cst_7 main_v31 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_8 (constant S_ .f32 0xFF800000#32),
    unary main_cst_8 main_v32 (broadcastInDim S16x16384 ![] bcast_S_S16x16384 : (⟨S_, .f32⟩ : BufTy).Contents (Elt F) → (⟨S16x16384, .f32⟩ : BufTy).Contents (Elt F)),
    binary main_v32 main_v31 main_v33 (maximumf : (⟨S16x16384, .f32⟩ : BufTy).Contents (Elt F) → (⟨S16x16384, .f32⟩ : BufTy).Contents (Elt F) → (⟨S16x16384, .f32⟩ : BufTy).Contents (Elt F)),
    unary main_v33 main_v34 (broadcastInDim S16x16384x1 ![0, 1] bcast_S16x16384_S16x16384x1_0_1 : (⟨S16x16384, .f32⟩ : BufTy).Contents (Elt F) → (⟨S16x16384x1, .f32⟩ : BufTy).Contents (Elt F)),
    unary main_v34 main_v35 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v30 main_v35 main_v36 (subf : (⟨S16x16384x64, .f32⟩ : BufTy).Contents (Elt F) → (⟨S16x16384x64, .f32⟩ : BufTy).Contents (Elt F) → (⟨S16x16384x64, .f32⟩ : BufTy).Contents (Elt F)),
    unary main_v36 main_v37 (Host.exp : (⟨S16x16384x64, .f32⟩ : BufTy).Contents (Elt F) → (⟨S16x16384x64, .f32⟩ : BufTy).Contents (Elt F)),
    nullary main_cst_9 (constant S_ .f32 0x00000000#32),
    binary main_v37 main_cst_9 main_v38 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v38 main_v39 (broadcastInDim S16x16384x1 ![0, 1] bcast_S16x16384_S16x16384x1_0_1 : (⟨S16x16384, .f32⟩ : BufTy).Contents (Elt F) → (⟨S16x16384x1, .f32⟩ : BufTy).Contents (Elt F)),
    unary main_v39 main_v40 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v37 main_v40 main_v41 (Host.divf : (⟨S16x16384x64, .f32⟩ : BufTy).Contents (Elt F) → (⟨S16x16384x64, .f32⟩ : BufTy).Contents (Elt F) → (⟨S16x16384x64, .f32⟩ : BufTy).Contents (Elt F)),
    nullary main_cst_10 (constant S_ .f32 0x00000000#32),
    binary main_v41 main_cst_10 main_v42 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    unary main_v42 main_v43 (broadcastInDim S16x1x64 ![0, 2] bcast_S16x64_S16x1x64_0_2 : (⟨S16x64, .f32⟩ : BufTy).Contents (Elt F) → (⟨S16x1x64, .f32⟩ : BufTy).Contents (Elt F)),
    nullary main_cst_11 (constant S_ .f32 0x358637BD#32),
    unary main_cst_11 main_v44 (broadcastInDim S16x1x64 ![] bcast_S_S16x1x64 : (⟨S_, .f32⟩ : BufTy).Contents (Elt F) → (⟨S16x1x64, .f32⟩ : BufTy).Contents (Elt F)),
    binary main_v44 main_v43 main_v45 (addf : (⟨S16x1x64, .f32⟩ : BufTy).Contents (Elt F) → (⟨S16x1x64, .f32⟩ : BufTy).Contents (Elt F) → (⟨S16x1x64, .f32⟩ : BufTy).Contents (Elt F)),
    unary main_v45 main_v46 (broadcastInDim S16x16384x64 ![0, 1, 2] bcast_S16x1x64_S16x16384x64_0_1_2 : (⟨S16x1x64, .f32⟩ : BufTy).Contents (Elt F) → (⟨S16x16384x64, .f32⟩ : BufTy).Contents (Elt F)),
    binary main_v41 main_v46 main_v47 (Host.divf : (⟨S16x16384x64, .f32⟩ : BufTy).Contents (Elt F) → (⟨S16x16384x64, .f32⟩ : BufTy).Contents (Elt F) → (⟨S16x16384x64, .f32⟩ : BufTy).Contents (Elt F)),
    binary main_v0 main_v47 main_v48 ((fun l r => Host.dotGeneral dot_S16x256x16384_S16x16384x64_S16x256x64_2_1_1_2_0_0 none l r) : (⟨S16x256x16384, .f32⟩ : BufTy).Contents (Elt F) → (⟨S16x16384x64, .f32⟩ : BufTy).Contents (Elt F) → (⟨S16x256x64, .f32⟩ : BufTy).Contents (Elt F)),
    TRef.binary (TRef.of (T := ⟨S16x256x64, .f32⟩) main_v48) (TRef.of (T := ⟨S16x256x64, .f32⟩) main_v48) (TRef.of (T := ⟨S16x256x64, .f32⟩) main_call1_v0) mulf,
    TRef.nullary (TRef.of (T := ⟨S_, .f32⟩) main_call1_cst) (constant S_ .f32 0x00000000#32),
    TRef.binary (TRef.of (T := ⟨S16x256x64, .f32⟩) main_call1_v0) (TRef.of (T := ⟨S_, .f32⟩) main_call1_cst) (TRef.of (T := ⟨S16x64, .f32⟩) main_call1_v1) (fun x v => Host.reduceAdd x v reducesTo_S16x256x64_S16x64_d1 h_S_),
    TRef.unary (TRef.of (T := ⟨S16x64, .f32⟩) main_call1_v1) (TRef.of (T := ⟨S16x1x64, .f32⟩) main_call1_v2) (broadcastInDim S16x1x64 ![0, 2] bcast_S16x64_S16x1x64_0_2),
    TRef.unary (TRef.of (T := ⟨S16x1x64, .f32⟩) main_call1_v2) (TRef.of (T := ⟨S16x1x64, .f32⟩) main_v49) Host.sqrt,
    nullary main_cst_12 (constant S_ .f32 0x358637BD#32),
    unary main_cst_12 main_v50 (broadcastInDim S16x1x64 ![] bcast_S_S16x1x64 : (⟨S_, .f32⟩ : BufTy).Contents (Elt F) → (⟨S16x1x64, .f32⟩ : BufTy).Contents (Elt F)),
    binary main_v50 main_v49 main_v51 (addf : (⟨S16x1x64, .f32⟩ : BufTy).Contents (Elt F) → (⟨S16x1x64, .f32⟩ : BufTy).Contents (Elt F) → (⟨S16x1x64, .f32⟩ : BufTy).Contents (Elt F)),
    unary main_v51 main_v52 (broadcastInDim S16x256x64 ![0, 1, 2] bcast_S16x1x64_S16x256x64_0_1_2 : (⟨S16x1x64, .f32⟩ : BufTy).Contents (Elt F) → (⟨S16x256x64, .f32⟩ : BufTy).Contents (Elt F)),
    binary main_v48 main_v52 main_v53 (Host.divf : (⟨S16x256x64, .f32⟩ : BufTy).Contents (Elt F) → (⟨S16x256x64, .f32⟩ : BufTy).Contents (Elt F) → (⟨S16x256x64, .f32⟩ : BufTy).Contents (Elt F)),
    binary main_v0 main_v53 main_v54 ((fun l r => Host.dotGeneral dot_S16x256x16384_S16x256x64_S16x16384x64_1_1_2_2_0_0 none l r) : (⟨S16x256x16384, .f32⟩ : BufTy).Contents (Elt F) → (⟨S16x256x64, .f32⟩ : BufTy).Contents (Elt F) → (⟨S16x16384x64, .f32⟩ : BufTy).Contents (Elt F)),
    nullary main_cst_13 (constant S_ .f32 0x41A00000#32),
    unary main_cst_13 main_v55 (broadcastInDim S16x16384x64 ![] bcast_S_S16x16384x64 : (⟨S_, .f32⟩ : BufTy).Contents (Elt F) → (⟨S16x16384x64, .f32⟩ : BufTy).Contents (Elt F)),
    binary main_v55 main_v54 main_v56 (mulf : (⟨S16x16384x64, .f32⟩ : BufTy).Contents (Elt F) → (⟨S16x16384x64, .f32⟩ : BufTy).Contents (Elt F) → (⟨S16x16384x64, .f32⟩ : BufTy).Contents (Elt F)),
    nullary main_cst_14 (constant S_ .f32 0xFF800000#32),
    binary main_v56 main_cst_14 main_v57 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_15 (constant S_ .f32 0xFF800000#32),
    unary main_cst_15 main_v58 (broadcastInDim S16x16384 ![] bcast_S_S16x16384 : (⟨S_, .f32⟩ : BufTy).Contents (Elt F) → (⟨S16x16384, .f32⟩ : BufTy).Contents (Elt F)),
    binary main_v58 main_v57 main_v59 (maximumf : (⟨S16x16384, .f32⟩ : BufTy).Contents (Elt F) → (⟨S16x16384, .f32⟩ : BufTy).Contents (Elt F) → (⟨S16x16384, .f32⟩ : BufTy).Contents (Elt F)),
    unary main_v59 main_v60 (broadcastInDim S16x16384x1 ![0, 1] bcast_S16x16384_S16x16384x1_0_1 : (⟨S16x16384, .f32⟩ : BufTy).Contents (Elt F) → (⟨S16x16384x1, .f32⟩ : BufTy).Contents (Elt F)),
    unary main_v60 main_v61 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v56 main_v61 main_v62 (subf : (⟨S16x16384x64, .f32⟩ : BufTy).Contents (Elt F) → (⟨S16x16384x64, .f32⟩ : BufTy).Contents (Elt F) → (⟨S16x16384x64, .f32⟩ : BufTy).Contents (Elt F)),
    unary main_v62 main_v63 (Host.exp : (⟨S16x16384x64, .f32⟩ : BufTy).Contents (Elt F) → (⟨S16x16384x64, .f32⟩ : BufTy).Contents (Elt F)),
    nullary main_cst_16 (constant S_ .f32 0x00000000#32),
    binary main_v63 main_cst_16 main_v64 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v64 main_v65 (broadcastInDim S16x16384x1 ![0, 1] bcast_S16x16384_S16x16384x1_0_1 : (⟨S16x16384, .f32⟩ : BufTy).Contents (Elt F) → (⟨S16x16384x1, .f32⟩ : BufTy).Contents (Elt F)),
    unary main_v65 main_v66 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v63 main_v66 main_v67 (Host.divf : (⟨S16x16384x64, .f32⟩ : BufTy).Contents (Elt F) → (⟨S16x16384x64, .f32⟩ : BufTy).Contents (Elt F) → (⟨S16x16384x64, .f32⟩ : BufTy).Contents (Elt F)),
    nullary main_cst_17 (constant S_ .f32 0x00000000#32),
    binary main_v67 main_cst_17 main_v68 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    unary main_v68 main_v69 (broadcastInDim S16x1x64 ![0, 2] bcast_S16x64_S16x1x64_0_2 : (⟨S16x64, .f32⟩ : BufTy).Contents (Elt F) → (⟨S16x1x64, .f32⟩ : BufTy).Contents (Elt F)),
    nullary main_cst_18 (constant S_ .f32 0x358637BD#32),
    unary main_cst_18 main_v70 (broadcastInDim S16x1x64 ![] bcast_S_S16x1x64 : (⟨S_, .f32⟩ : BufTy).Contents (Elt F) → (⟨S16x1x64, .f32⟩ : BufTy).Contents (Elt F)),
    binary main_v70 main_v69 main_v71 (addf : (⟨S16x1x64, .f32⟩ : BufTy).Contents (Elt F) → (⟨S16x1x64, .f32⟩ : BufTy).Contents (Elt F) → (⟨S16x1x64, .f32⟩ : BufTy).Contents (Elt F)),
    unary main_v71 main_v72 (broadcastInDim S16x16384x64 ![0, 1, 2] bcast_S16x1x64_S16x16384x64_0_1_2 : (⟨S16x1x64, .f32⟩ : BufTy).Contents (Elt F) → (⟨S16x16384x64, .f32⟩ : BufTy).Contents (Elt F)),
    binary main_v67 main_v72 main_v73 (Host.divf : (⟨S16x16384x64, .f32⟩ : BufTy).Contents (Elt F) → (⟨S16x16384x64, .f32⟩ : BufTy).Contents (Elt F) → (⟨S16x16384x64, .f32⟩ : BufTy).Contents (Elt F)),
    binary main_v0 main_v73 main_v74 ((fun l r => Host.dotGeneral dot_S16x256x16384_S16x16384x64_S16x256x64_2_1_1_2_0_0 none l r) : (⟨S16x256x16384, .f32⟩ : BufTy).Contents (Elt F) → (⟨S16x16384x64, .f32⟩ : BufTy).Contents (Elt F) → (⟨S16x256x64, .f32⟩ : BufTy).Contents (Elt F)),
    TRef.binary (TRef.of (T := ⟨S16x256x64, .f32⟩) main_v74) (TRef.of (T := ⟨S16x256x64, .f32⟩) main_v74) (TRef.of (T := ⟨S16x256x64, .f32⟩) main_call2_v0) mulf,
    TRef.nullary (TRef.of (T := ⟨S_, .f32⟩) main_call2_cst) (constant S_ .f32 0x00000000#32),
    TRef.binary (TRef.of (T := ⟨S16x256x64, .f32⟩) main_call2_v0) (TRef.of (T := ⟨S_, .f32⟩) main_call2_cst) (TRef.of (T := ⟨S16x64, .f32⟩) main_call2_v1) (fun x v => Host.reduceAdd x v reducesTo_S16x256x64_S16x64_d1 h_S_),
    TRef.unary (TRef.of (T := ⟨S16x64, .f32⟩) main_call2_v1) (TRef.of (T := ⟨S16x1x64, .f32⟩) main_call2_v2) (broadcastInDim S16x1x64 ![0, 2] bcast_S16x64_S16x1x64_0_2),
    TRef.unary (TRef.of (T := ⟨S16x1x64, .f32⟩) main_call2_v2) (TRef.of (T := ⟨S16x1x64, .f32⟩) main_v75) Host.sqrt,
    nullary main_cst_19 (constant S_ .f32 0x358637BD#32),
    unary main_cst_19 main_v76 (broadcastInDim S16x1x64 ![] bcast_S_S16x1x64 : (⟨S_, .f32⟩ : BufTy).Contents (Elt F) → (⟨S16x1x64, .f32⟩ : BufTy).Contents (Elt F)),
    binary main_v76 main_v75 main_v77 (addf : (⟨S16x1x64, .f32⟩ : BufTy).Contents (Elt F) → (⟨S16x1x64, .f32⟩ : BufTy).Contents (Elt F) → (⟨S16x1x64, .f32⟩ : BufTy).Contents (Elt F)),
    unary main_v77 main_v78 (broadcastInDim S16x256x64 ![0, 1, 2] bcast_S16x1x64_S16x256x64_0_1_2 : (⟨S16x1x64, .f32⟩ : BufTy).Contents (Elt F) → (⟨S16x256x64, .f32⟩ : BufTy).Contents (Elt F)),
    binary main_v74 main_v78 main_v79 (Host.divf : (⟨S16x256x64, .f32⟩ : BufTy).Contents (Elt F) → (⟨S16x256x64, .f32⟩ : BufTy).Contents (Elt F) → (⟨S16x256x64, .f32⟩ : BufTy).Contents (Elt F)),
    binary main_v0 main_v79 main_v80 ((fun l r => Host.dotGeneral dot_S16x256x16384_S16x256x64_S16x16384x64_1_1_2_2_0_0 none l r) : (⟨S16x256x16384, .f32⟩ : BufTy).Contents (Elt F) → (⟨S16x256x64, .f32⟩ : BufTy).Contents (Elt F) → (⟨S16x16384x64, .f32⟩ : BufTy).Contents (Elt F)),
    nullary main_cst_20 (constant S_ .f32 0xFF800000#32),
    binary main_v80 main_cst_20 main_v81 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_21 (constant S_ .f32 0xFF800000#32),
    unary main_cst_21 main_v82 (broadcastInDim S16x16384 ![] bcast_S_S16x16384 : (⟨S_, .f32⟩ : BufTy).Contents (Elt F) → (⟨S16x16384, .f32⟩ : BufTy).Contents (Elt F)),
    binary main_v82 main_v81 main_v83 (maximumf : (⟨S16x16384, .f32⟩ : BufTy).Contents (Elt F) → (⟨S16x16384, .f32⟩ : BufTy).Contents (Elt F) → (⟨S16x16384, .f32⟩ : BufTy).Contents (Elt F)),
    unary main_v83 main_v84 (broadcastInDim S16x16384x1 ![0, 1] bcast_S16x16384_S16x16384x1_0_1 : (⟨S16x16384, .f32⟩ : BufTy).Contents (Elt F) → (⟨S16x16384x1, .f32⟩ : BufTy).Contents (Elt F)),
    unary main_v84 main_v85 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v80 main_v85 main_v86 (subf : (⟨S16x16384x64, .f32⟩ : BufTy).Contents (Elt F) → (⟨S16x16384x64, .f32⟩ : BufTy).Contents (Elt F) → (⟨S16x16384x64, .f32⟩ : BufTy).Contents (Elt F)),
    unary main_v86 main_v87 (Host.exp : (⟨S16x16384x64, .f32⟩ : BufTy).Contents (Elt F) → (⟨S16x16384x64, .f32⟩ : BufTy).Contents (Elt F)),
    nullary main_cst_22 (constant S_ .f32 0x00000000#32),
    binary main_v87 main_cst_22 main_v88 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v88 main_v89 (broadcastInDim S16x16384x1 ![0, 1] bcast_S16x16384_S16x16384x1_0_1 : (⟨S16x16384, .f32⟩ : BufTy).Contents (Elt F) → (⟨S16x16384x1, .f32⟩ : BufTy).Contents (Elt F)),
    unary main_v89 main_v90 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v87 main_v90 main_v91 (Host.divf : (⟨S16x16384x64, .f32⟩ : BufTy).Contents (Elt F) → (⟨S16x16384x64, .f32⟩ : BufTy).Contents (Elt F) → (⟨S16x16384x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-! ## The list in consecutive pieces

Each piece ends where a value with several later readers has just been written, so that the value a piece
computes is stated over the named stages of its few live inputs and never over the fully substituted term. -/

/-- Operations 1 … 2 of @main's 128. -/
def seg0 : List (HloOp τ sig (Elt F)) :=
  [ reshape main_arg0 main_v0 rfl shapeCasts_S16x256x128x128_S16x256x16384,
    unary main_arg1 main_v1 (broadcastInDim S16x256x64 ![0, 1, 2] bcast_S1x256x64_S16x256x64_0_1_2 : (⟨S1x256x64, .f32⟩ : BufTy).Contents (Elt F) → (⟨S16x256x64, .f32⟩ : BufTy).Contents (Elt F)) ]

/-- Operations 3 … 6 of @main's 128. -/
def seg1 : List (HloOp τ sig (Elt F)) :=
  [ binary main_v0 main_v1 main_v2 ((fun l r => Host.dotGeneral dot_S16x256x16384_S16x256x64_S16x16384x64_1_1_2_2_0_0 none l r) : (⟨S16x256x16384, .f32⟩ : BufTy).Contents (Elt F) → (⟨S16x256x64, .f32⟩ : BufTy).Contents (Elt F) → (⟨S16x16384x64, .f32⟩ : BufTy).Contents (Elt F)),
    nullary main_cst (constant S_ .f32 0x41A00000#32),
    unary main_cst main_v3 (broadcastInDim S16x16384x64 ![] bcast_S_S16x16384x64 : (⟨S_, .f32⟩ : BufTy).Contents (Elt F) → (⟨S16x16384x64, .f32⟩ : BufTy).Contents (Elt F)),
    binary main_v3 main_v2 main_v4 (mulf : (⟨S16x16384x64, .f32⟩ : BufTy).Contents (Elt F) → (⟨S16x16384x64, .f32⟩ : BufTy).Contents (Elt F) → (⟨S16x16384x64, .f32⟩ : BufTy).Contents (Elt F)) ]

/-- Operations 7 … 15 of @main's 128. -/
def seg2 : List (HloOp τ sig (Elt F)) :=
  [ nullary main_cst_0 (constant S_ .f32 0xFF800000#32),
    binary main_v4 main_cst_0 main_v5 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_1 (constant S_ .f32 0xFF800000#32),
    unary main_cst_1 main_v6 (broadcastInDim S16x16384 ![] bcast_S_S16x16384 : (⟨S_, .f32⟩ : BufTy).Contents (Elt F) → (⟨S16x16384, .f32⟩ : BufTy).Contents (Elt F)),
    binary main_v6 main_v5 main_v7 (maximumf : (⟨S16x16384, .f32⟩ : BufTy).Contents (Elt F) → (⟨S16x16384, .f32⟩ : BufTy).Contents (Elt F) → (⟨S16x16384, .f32⟩ : BufTy).Contents (Elt F)),
    unary main_v7 main_v8 (broadcastInDim S16x16384x1 ![0, 1] bcast_S16x16384_S16x16384x1_0_1 : (⟨S16x16384, .f32⟩ : BufTy).Contents (Elt F) → (⟨S16x16384x1, .f32⟩ : BufTy).Contents (Elt F)),
    unary main_v8 main_v9 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v4 main_v9 main_v10 (subf : (⟨S16x16384x64, .f32⟩ : BufTy).Contents (Elt F) → (⟨S16x16384x64, .f32⟩ : BufTy).Contents (Elt F) → (⟨S16x16384x64, .f32⟩ : BufTy).Contents (Elt F)),
    unary main_v10 main_v11 (Host.exp : (⟨S16x16384x64, .f32⟩ : BufTy).Contents (Elt F) → (⟨S16x16384x64, .f32⟩ : BufTy).Contents (Elt F)) ]

/-- Operations 16 … 20 of @main's 128. -/
def seg3 : List (HloOp τ sig (Elt F)) :=
  [ nullary main_cst_2 (constant S_ .f32 0x00000000#32),
    binary main_v11 main_cst_2 main_v12 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v12 main_v13 (broadcastInDim S16x16384x1 ![0, 1] bcast_S16x16384_S16x16384x1_0_1 : (⟨S16x16384, .f32⟩ : BufTy).Contents (Elt F) → (⟨S16x16384x1, .f32⟩ : BufTy).Contents (Elt F)),
    unary main_v13 main_v14 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v11 main_v14 main_v15 (Host.divf : (⟨S16x16384x64, .f32⟩ : BufTy).Contents (Elt F) → (⟨S16x16384x64, .f32⟩ : BufTy).Contents (Elt F) → (⟨S16x16384x64, .f32⟩ : BufTy).Contents (Elt F)) ]

/-- Operations 21 … 29 of @main's 128. -/
def seg4 : List (HloOp τ sig (Elt F)) :=
  [ nullary main_cst_3 (constant S_ .f32 0x00000000#32),
    binary main_v15 main_cst_3 main_v16 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    unary main_v16 main_v17 (broadcastInDim S16x1x64 ![0, 2] bcast_S16x64_S16x1x64_0_2 : (⟨S16x64, .f32⟩ : BufTy).Contents (Elt F) → (⟨S16x1x64, .f32⟩ : BufTy).Contents (Elt F)),
    nullary main_cst_4 (constant S_ .f32 0x358637BD#32),
    unary main_cst_4 main_v18 (broadcastInDim S16x1x64 ![] bcast_S_S16x1x64 : (⟨S_, .f32⟩ : BufTy).Contents (Elt F) → (⟨S16x1x64, .f32⟩ : BufTy).Contents (Elt F)),
    binary main_v18 main_v17 main_v19 (addf : (⟨S16x1x64, .f32⟩ : BufTy).Contents (Elt F) → (⟨S16x1x64, .f32⟩ : BufTy).Contents (Elt F) → (⟨S16x1x64, .f32⟩ : BufTy).Contents (Elt F)),
    unary main_v19 main_v20 (broadcastInDim S16x16384x64 ![0, 1, 2] bcast_S16x1x64_S16x16384x64_0_1_2 : (⟨S16x1x64, .f32⟩ : BufTy).Contents (Elt F) → (⟨S16x16384x64, .f32⟩ : BufTy).Contents (Elt F)),
    binary main_v15 main_v20 main_v21 (Host.divf : (⟨S16x16384x64, .f32⟩ : BufTy).Contents (Elt F) → (⟨S16x16384x64, .f32⟩ : BufTy).Contents (Elt F) → (⟨S16x16384x64, .f32⟩ : BufTy).Contents (Elt F)),
    binary main_v0 main_v21 main_v22 ((fun l r => Host.dotGeneral dot_S16x256x16384_S16x16384x64_S16x256x64_2_1_1_2_0_0 none l r) : (⟨S16x256x16384, .f32⟩ : BufTy).Contents (Elt F) → (⟨S16x16384x64, .f32⟩ : BufTy).Contents (Elt F) → (⟨S16x256x64, .f32⟩ : BufTy).Contents (Elt F)) ]

/-- Operations 30 … 39 of @main's 128. -/
def seg5 : List (HloOp τ sig (Elt F)) :=
  [ TRef.binary (TRef.of (T := ⟨S16x256x64, .f32⟩) main_v22) (TRef.of (T := ⟨S16x256x64, .f32⟩) main_v22) (TRef.of (T := ⟨S16x256x64, .f32⟩) main_call0_v0) mulf,
    TRef.nullary (TRef.of (T := ⟨S_, .f32⟩) main_call0_cst) (constant S_ .f32 0x00000000#32),
    TRef.binary (TRef.of (T := ⟨S16x256x64, .f32⟩) main_call0_v0) (TRef.of (T := ⟨S_, .f32⟩) main_call0_cst) (TRef.of (T := ⟨S16x64, .f32⟩) main_call0_v1) (fun x v => Host.reduceAdd x v reducesTo_S16x256x64_S16x64_d1 h_S_),
    TRef.unary (TRef.of (T := ⟨S16x64, .f32⟩) main_call0_v1) (TRef.of (T := ⟨S16x1x64, .f32⟩) main_call0_v2) (broadcastInDim S16x1x64 ![0, 2] bcast_S16x64_S16x1x64_0_2),
    TRef.unary (TRef.of (T := ⟨S16x1x64, .f32⟩) main_call0_v2) (TRef.of (T := ⟨S16x1x64, .f32⟩) main_v23) Host.sqrt,
    nullary main_cst_5 (constant S_ .f32 0x358637BD#32),
    unary main_cst_5 main_v24 (broadcastInDim S16x1x64 ![] bcast_S_S16x1x64 : (⟨S_, .f32⟩ : BufTy).Contents (Elt F) → (⟨S16x1x64, .f32⟩ : BufTy).Contents (Elt F)),
    binary main_v24 main_v23 main_v25 (addf : (⟨S16x1x64, .f32⟩ : BufTy).Contents (Elt F) → (⟨S16x1x64, .f32⟩ : BufTy).Contents (Elt F) → (⟨S16x1x64, .f32⟩ : BufTy).Contents (Elt F)),
    unary main_v25 main_v26 (broadcastInDim S16x256x64 ![0, 1, 2] bcast_S16x1x64_S16x256x64_0_1_2 : (⟨S16x1x64, .f32⟩ : BufTy).Contents (Elt F) → (⟨S16x256x64, .f32⟩ : BufTy).Contents (Elt F)),
    binary main_v22 main_v26 main_v27 (Host.divf : (⟨S16x256x64, .f32⟩ : BufTy).Contents (Elt F) → (⟨S16x256x64, .f32⟩ : BufTy).Contents (Elt F) → (⟨S16x256x64, .f32⟩ : BufTy).Contents (Elt F)) ]

/-- Operations 40 … 43 of @main's 128. -/
def seg6 : List (HloOp τ sig (Elt F)) :=
  [ binary main_v0 main_v27 main_v28 ((fun l r => Host.dotGeneral dot_S16x256x16384_S16x256x64_S16x16384x64_1_1_2_2_0_0 none l r) : (⟨S16x256x16384, .f32⟩ : BufTy).Contents (Elt F) → (⟨S16x256x64, .f32⟩ : BufTy).Contents (Elt F) → (⟨S16x16384x64, .f32⟩ : BufTy).Contents (Elt F)),
    nullary main_cst_6 (constant S_ .f32 0x41A00000#32),
    unary main_cst_6 main_v29 (broadcastInDim S16x16384x64 ![] bcast_S_S16x16384x64 : (⟨S_, .f32⟩ : BufTy).Contents (Elt F) → (⟨S16x16384x64, .f32⟩ : BufTy).Contents (Elt F)),
    binary main_v29 main_v28 main_v30 (mulf : (⟨S16x16384x64, .f32⟩ : BufTy).Contents (Elt F) → (⟨S16x16384x64, .f32⟩ : BufTy).Contents (Elt F) → (⟨S16x16384x64, .f32⟩ : BufTy).Contents (Elt F)) ]

/-- Operations 44 … 52 of @main's 128. -/
def seg7 : List (HloOp τ sig (Elt F)) :=
  [ nullary main_cst_7 (constant S_ .f32 0xFF800000#32),
    binary main_v30 main_cst_7 main_v31 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_8 (constant S_ .f32 0xFF800000#32),
    unary main_cst_8 main_v32 (broadcastInDim S16x16384 ![] bcast_S_S16x16384 : (⟨S_, .f32⟩ : BufTy).Contents (Elt F) → (⟨S16x16384, .f32⟩ : BufTy).Contents (Elt F)),
    binary main_v32 main_v31 main_v33 (maximumf : (⟨S16x16384, .f32⟩ : BufTy).Contents (Elt F) → (⟨S16x16384, .f32⟩ : BufTy).Contents (Elt F) → (⟨S16x16384, .f32⟩ : BufTy).Contents (Elt F)),
    unary main_v33 main_v34 (broadcastInDim S16x16384x1 ![0, 1] bcast_S16x16384_S16x16384x1_0_1 : (⟨S16x16384, .f32⟩ : BufTy).Contents (Elt F) → (⟨S16x16384x1, .f32⟩ : BufTy).Contents (Elt F)),
    unary main_v34 main_v35 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v30 main_v35 main_v36 (subf : (⟨S16x16384x64, .f32⟩ : BufTy).Contents (Elt F) → (⟨S16x16384x64, .f32⟩ : BufTy).Contents (Elt F) → (⟨S16x16384x64, .f32⟩ : BufTy).Contents (Elt F)),
    unary main_v36 main_v37 (Host.exp : (⟨S16x16384x64, .f32⟩ : BufTy).Contents (Elt F) → (⟨S16x16384x64, .f32⟩ : BufTy).Contents (Elt F)) ]

/-- Operations 53 … 57 of @main's 128. -/
def seg8 : List (HloOp τ sig (Elt F)) :=
  [ nullary main_cst_9 (constant S_ .f32 0x00000000#32),
    binary main_v37 main_cst_9 main_v38 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v38 main_v39 (broadcastInDim S16x16384x1 ![0, 1] bcast_S16x16384_S16x16384x1_0_1 : (⟨S16x16384, .f32⟩ : BufTy).Contents (Elt F) → (⟨S16x16384x1, .f32⟩ : BufTy).Contents (Elt F)),
    unary main_v39 main_v40 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v37 main_v40 main_v41 (Host.divf : (⟨S16x16384x64, .f32⟩ : BufTy).Contents (Elt F) → (⟨S16x16384x64, .f32⟩ : BufTy).Contents (Elt F) → (⟨S16x16384x64, .f32⟩ : BufTy).Contents (Elt F)) ]

/-- Operations 58 … 66 of @main's 128. -/
def seg9 : List (HloOp τ sig (Elt F)) :=
  [ nullary main_cst_10 (constant S_ .f32 0x00000000#32),
    binary main_v41 main_cst_10 main_v42 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    unary main_v42 main_v43 (broadcastInDim S16x1x64 ![0, 2] bcast_S16x64_S16x1x64_0_2 : (⟨S16x64, .f32⟩ : BufTy).Contents (Elt F) → (⟨S16x1x64, .f32⟩ : BufTy).Contents (Elt F)),
    nullary main_cst_11 (constant S_ .f32 0x358637BD#32),
    unary main_cst_11 main_v44 (broadcastInDim S16x1x64 ![] bcast_S_S16x1x64 : (⟨S_, .f32⟩ : BufTy).Contents (Elt F) → (⟨S16x1x64, .f32⟩ : BufTy).Contents (Elt F)),
    binary main_v44 main_v43 main_v45 (addf : (⟨S16x1x64, .f32⟩ : BufTy).Contents (Elt F) → (⟨S16x1x64, .f32⟩ : BufTy).Contents (Elt F) → (⟨S16x1x64, .f32⟩ : BufTy).Contents (Elt F)),
    unary main_v45 main_v46 (broadcastInDim S16x16384x64 ![0, 1, 2] bcast_S16x1x64_S16x16384x64_0_1_2 : (⟨S16x1x64, .f32⟩ : BufTy).Contents (Elt F) → (⟨S16x16384x64, .f32⟩ : BufTy).Contents (Elt F)),
    binary main_v41 main_v46 main_v47 (Host.divf : (⟨S16x16384x64, .f32⟩ : BufTy).Contents (Elt F) → (⟨S16x16384x64, .f32⟩ : BufTy).Contents (Elt F) → (⟨S16x16384x64, .f32⟩ : BufTy).Contents (Elt F)),
    binary main_v0 main_v47 main_v48 ((fun l r => Host.dotGeneral dot_S16x256x16384_S16x16384x64_S16x256x64_2_1_1_2_0_0 none l r) : (⟨S16x256x16384, .f32⟩ : BufTy).Contents (Elt F) → (⟨S16x16384x64, .f32⟩ : BufTy).Contents (Elt F) → (⟨S16x256x64, .f32⟩ : BufTy).Contents (Elt F)) ]

/-- Operations 67 … 76 of @main's 128. -/
def seg10 : List (HloOp τ sig (Elt F)) :=
  [ TRef.binary (TRef.of (T := ⟨S16x256x64, .f32⟩) main_v48) (TRef.of (T := ⟨S16x256x64, .f32⟩) main_v48) (TRef.of (T := ⟨S16x256x64, .f32⟩) main_call1_v0) mulf,
    TRef.nullary (TRef.of (T := ⟨S_, .f32⟩) main_call1_cst) (constant S_ .f32 0x00000000#32),
    TRef.binary (TRef.of (T := ⟨S16x256x64, .f32⟩) main_call1_v0) (TRef.of (T := ⟨S_, .f32⟩) main_call1_cst) (TRef.of (T := ⟨S16x64, .f32⟩) main_call1_v1) (fun x v => Host.reduceAdd x v reducesTo_S16x256x64_S16x64_d1 h_S_),
    TRef.unary (TRef.of (T := ⟨S16x64, .f32⟩) main_call1_v1) (TRef.of (T := ⟨S16x1x64, .f32⟩) main_call1_v2) (broadcastInDim S16x1x64 ![0, 2] bcast_S16x64_S16x1x64_0_2),
    TRef.unary (TRef.of (T := ⟨S16x1x64, .f32⟩) main_call1_v2) (TRef.of (T := ⟨S16x1x64, .f32⟩) main_v49) Host.sqrt,
    nullary main_cst_12 (constant S_ .f32 0x358637BD#32),
    unary main_cst_12 main_v50 (broadcastInDim S16x1x64 ![] bcast_S_S16x1x64 : (⟨S_, .f32⟩ : BufTy).Contents (Elt F) → (⟨S16x1x64, .f32⟩ : BufTy).Contents (Elt F)),
    binary main_v50 main_v49 main_v51 (addf : (⟨S16x1x64, .f32⟩ : BufTy).Contents (Elt F) → (⟨S16x1x64, .f32⟩ : BufTy).Contents (Elt F) → (⟨S16x1x64, .f32⟩ : BufTy).Contents (Elt F)),
    unary main_v51 main_v52 (broadcastInDim S16x256x64 ![0, 1, 2] bcast_S16x1x64_S16x256x64_0_1_2 : (⟨S16x1x64, .f32⟩ : BufTy).Contents (Elt F) → (⟨S16x256x64, .f32⟩ : BufTy).Contents (Elt F)),
    binary main_v48 main_v52 main_v53 (Host.divf : (⟨S16x256x64, .f32⟩ : BufTy).Contents (Elt F) → (⟨S16x256x64, .f32⟩ : BufTy).Contents (Elt F) → (⟨S16x256x64, .f32⟩ : BufTy).Contents (Elt F)) ]

/-- Operations 77 … 80 of @main's 128. -/
def seg11 : List (HloOp τ sig (Elt F)) :=
  [ binary main_v0 main_v53 main_v54 ((fun l r => Host.dotGeneral dot_S16x256x16384_S16x256x64_S16x16384x64_1_1_2_2_0_0 none l r) : (⟨S16x256x16384, .f32⟩ : BufTy).Contents (Elt F) → (⟨S16x256x64, .f32⟩ : BufTy).Contents (Elt F) → (⟨S16x16384x64, .f32⟩ : BufTy).Contents (Elt F)),
    nullary main_cst_13 (constant S_ .f32 0x41A00000#32),
    unary main_cst_13 main_v55 (broadcastInDim S16x16384x64 ![] bcast_S_S16x16384x64 : (⟨S_, .f32⟩ : BufTy).Contents (Elt F) → (⟨S16x16384x64, .f32⟩ : BufTy).Contents (Elt F)),
    binary main_v55 main_v54 main_v56 (mulf : (⟨S16x16384x64, .f32⟩ : BufTy).Contents (Elt F) → (⟨S16x16384x64, .f32⟩ : BufTy).Contents (Elt F) → (⟨S16x16384x64, .f32⟩ : BufTy).Contents (Elt F)) ]

/-- Operations 81 … 89 of @main's 128. -/
def seg12 : List (HloOp τ sig (Elt F)) :=
  [ nullary main_cst_14 (constant S_ .f32 0xFF800000#32),
    binary main_v56 main_cst_14 main_v57 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_15 (constant S_ .f32 0xFF800000#32),
    unary main_cst_15 main_v58 (broadcastInDim S16x16384 ![] bcast_S_S16x16384 : (⟨S_, .f32⟩ : BufTy).Contents (Elt F) → (⟨S16x16384, .f32⟩ : BufTy).Contents (Elt F)),
    binary main_v58 main_v57 main_v59 (maximumf : (⟨S16x16384, .f32⟩ : BufTy).Contents (Elt F) → (⟨S16x16384, .f32⟩ : BufTy).Contents (Elt F) → (⟨S16x16384, .f32⟩ : BufTy).Contents (Elt F)),
    unary main_v59 main_v60 (broadcastInDim S16x16384x1 ![0, 1] bcast_S16x16384_S16x16384x1_0_1 : (⟨S16x16384, .f32⟩ : BufTy).Contents (Elt F) → (⟨S16x16384x1, .f32⟩ : BufTy).Contents (Elt F)),
    unary main_v60 main_v61 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v56 main_v61 main_v62 (subf : (⟨S16x16384x64, .f32⟩ : BufTy).Contents (Elt F) → (⟨S16x16384x64, .f32⟩ : BufTy).Contents (Elt F) → (⟨S16x16384x64, .f32⟩ : BufTy).Contents (Elt F)),
    unary main_v62 main_v63 (Host.exp : (⟨S16x16384x64, .f32⟩ : BufTy).Contents (Elt F) → (⟨S16x16384x64, .f32⟩ : BufTy).Contents (Elt F)) ]

/-- Operations 90 … 94 of @main's 128. -/
def seg13 : List (HloOp τ sig (Elt F)) :=
  [ nullary main_cst_16 (constant S_ .f32 0x00000000#32),
    binary main_v63 main_cst_16 main_v64 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v64 main_v65 (broadcastInDim S16x16384x1 ![0, 1] bcast_S16x16384_S16x16384x1_0_1 : (⟨S16x16384, .f32⟩ : BufTy).Contents (Elt F) → (⟨S16x16384x1, .f32⟩ : BufTy).Contents (Elt F)),
    unary main_v65 main_v66 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v63 main_v66 main_v67 (Host.divf : (⟨S16x16384x64, .f32⟩ : BufTy).Contents (Elt F) → (⟨S16x16384x64, .f32⟩ : BufTy).Contents (Elt F) → (⟨S16x16384x64, .f32⟩ : BufTy).Contents (Elt F)) ]

/-- Operations 95 … 103 of @main's 128. -/
def seg14 : List (HloOp τ sig (Elt F)) :=
  [ nullary main_cst_17 (constant S_ .f32 0x00000000#32),
    binary main_v67 main_cst_17 main_v68 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    unary main_v68 main_v69 (broadcastInDim S16x1x64 ![0, 2] bcast_S16x64_S16x1x64_0_2 : (⟨S16x64, .f32⟩ : BufTy).Contents (Elt F) → (⟨S16x1x64, .f32⟩ : BufTy).Contents (Elt F)),
    nullary main_cst_18 (constant S_ .f32 0x358637BD#32),
    unary main_cst_18 main_v70 (broadcastInDim S16x1x64 ![] bcast_S_S16x1x64 : (⟨S_, .f32⟩ : BufTy).Contents (Elt F) → (⟨S16x1x64, .f32⟩ : BufTy).Contents (Elt F)),
    binary main_v70 main_v69 main_v71 (addf : (⟨S16x1x64, .f32⟩ : BufTy).Contents (Elt F) → (⟨S16x1x64, .f32⟩ : BufTy).Contents (Elt F) → (⟨S16x1x64, .f32⟩ : BufTy).Contents (Elt F)),
    unary main_v71 main_v72 (broadcastInDim S16x16384x64 ![0, 1, 2] bcast_S16x1x64_S16x16384x64_0_1_2 : (⟨S16x1x64, .f32⟩ : BufTy).Contents (Elt F) → (⟨S16x16384x64, .f32⟩ : BufTy).Contents (Elt F)),
    binary main_v67 main_v72 main_v73 (Host.divf : (⟨S16x16384x64, .f32⟩ : BufTy).Contents (Elt F) → (⟨S16x16384x64, .f32⟩ : BufTy).Contents (Elt F) → (⟨S16x16384x64, .f32⟩ : BufTy).Contents (Elt F)),
    binary main_v0 main_v73 main_v74 ((fun l r => Host.dotGeneral dot_S16x256x16384_S16x16384x64_S16x256x64_2_1_1_2_0_0 none l r) : (⟨S16x256x16384, .f32⟩ : BufTy).Contents (Elt F) → (⟨S16x16384x64, .f32⟩ : BufTy).Contents (Elt F) → (⟨S16x256x64, .f32⟩ : BufTy).Contents (Elt F)) ]

/-- Operations 104 … 113 of @main's 128. -/
def seg15 : List (HloOp τ sig (Elt F)) :=
  [ TRef.binary (TRef.of (T := ⟨S16x256x64, .f32⟩) main_v74) (TRef.of (T := ⟨S16x256x64, .f32⟩) main_v74) (TRef.of (T := ⟨S16x256x64, .f32⟩) main_call2_v0) mulf,
    TRef.nullary (TRef.of (T := ⟨S_, .f32⟩) main_call2_cst) (constant S_ .f32 0x00000000#32),
    TRef.binary (TRef.of (T := ⟨S16x256x64, .f32⟩) main_call2_v0) (TRef.of (T := ⟨S_, .f32⟩) main_call2_cst) (TRef.of (T := ⟨S16x64, .f32⟩) main_call2_v1) (fun x v => Host.reduceAdd x v reducesTo_S16x256x64_S16x64_d1 h_S_),
    TRef.unary (TRef.of (T := ⟨S16x64, .f32⟩) main_call2_v1) (TRef.of (T := ⟨S16x1x64, .f32⟩) main_call2_v2) (broadcastInDim S16x1x64 ![0, 2] bcast_S16x64_S16x1x64_0_2),
    TRef.unary (TRef.of (T := ⟨S16x1x64, .f32⟩) main_call2_v2) (TRef.of (T := ⟨S16x1x64, .f32⟩) main_v75) Host.sqrt,
    nullary main_cst_19 (constant S_ .f32 0x358637BD#32),
    unary main_cst_19 main_v76 (broadcastInDim S16x1x64 ![] bcast_S_S16x1x64 : (⟨S_, .f32⟩ : BufTy).Contents (Elt F) → (⟨S16x1x64, .f32⟩ : BufTy).Contents (Elt F)),
    binary main_v76 main_v75 main_v77 (addf : (⟨S16x1x64, .f32⟩ : BufTy).Contents (Elt F) → (⟨S16x1x64, .f32⟩ : BufTy).Contents (Elt F) → (⟨S16x1x64, .f32⟩ : BufTy).Contents (Elt F)),
    unary main_v77 main_v78 (broadcastInDim S16x256x64 ![0, 1, 2] bcast_S16x1x64_S16x256x64_0_1_2 : (⟨S16x1x64, .f32⟩ : BufTy).Contents (Elt F) → (⟨S16x256x64, .f32⟩ : BufTy).Contents (Elt F)),
    binary main_v74 main_v78 main_v79 (Host.divf : (⟨S16x256x64, .f32⟩ : BufTy).Contents (Elt F) → (⟨S16x256x64, .f32⟩ : BufTy).Contents (Elt F) → (⟨S16x256x64, .f32⟩ : BufTy).Contents (Elt F)) ]

/-- Operations 114 … 123 of @main's 128. -/
def seg16 : List (HloOp τ sig (Elt F)) :=
  [ binary main_v0 main_v79 main_v80 ((fun l r => Host.dotGeneral dot_S16x256x16384_S16x256x64_S16x16384x64_1_1_2_2_0_0 none l r) : (⟨S16x256x16384, .f32⟩ : BufTy).Contents (Elt F) → (⟨S16x256x64, .f32⟩ : BufTy).Contents (Elt F) → (⟨S16x16384x64, .f32⟩ : BufTy).Contents (Elt F)),
    nullary main_cst_20 (constant S_ .f32 0xFF800000#32),
    binary main_v80 main_cst_20 main_v81 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_21 (constant S_ .f32 0xFF800000#32),
    unary main_cst_21 main_v82 (broadcastInDim S16x16384 ![] bcast_S_S16x16384 : (⟨S_, .f32⟩ : BufTy).Contents (Elt F) → (⟨S16x16384, .f32⟩ : BufTy).Contents (Elt F)),
    binary main_v82 main_v81 main_v83 (maximumf : (⟨S16x16384, .f32⟩ : BufTy).Contents (Elt F) → (⟨S16x16384, .f32⟩ : BufTy).Contents (Elt F) → (⟨S16x16384, .f32⟩ : BufTy).Contents (Elt F)),
    unary main_v83 main_v84 (broadcastInDim S16x16384x1 ![0, 1] bcast_S16x16384_S16x16384x1_0_1 : (⟨S16x16384, .f32⟩ : BufTy).Contents (Elt F) → (⟨S16x16384x1, .f32⟩ : BufTy).Contents (Elt F)),
    unary main_v84 main_v85 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v80 main_v85 main_v86 (subf : (⟨S16x16384x64, .f32⟩ : BufTy).Contents (Elt F) → (⟨S16x16384x64, .f32⟩ : BufTy).Contents (Elt F) → (⟨S16x16384x64, .f32⟩ : BufTy).Contents (Elt F)),
    unary main_v86 main_v87 (Host.exp : (⟨S16x16384x64, .f32⟩ : BufTy).Contents (Elt F) → (⟨S16x16384x64, .f32⟩ : BufTy).Contents (Elt F)) ]

/-- Operations 124 … 128 of @main's 128. -/
def seg17 : List (HloOp τ sig (Elt F)) :=
  [ nullary main_cst_22 (constant S_ .f32 0x00000000#32),
    binary main_v87 main_cst_22 main_v88 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v88 main_v89 (broadcastInDim S16x16384x1 ![0, 1] bcast_S16x16384_S16x16384x1_0_1 : (⟨S16x16384, .f32⟩ : BufTy).Contents (Elt F) → (⟨S16x16384x1, .f32⟩ : BufTy).Contents (Elt F)),
    unary main_v89 main_v90 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v87 main_v90 main_v91 (Host.divf : (⟨S16x16384x64, .f32⟩ : BufTy).Contents (Elt F) → (⟨S16x16384x64, .f32⟩ : BufTy).Contents (Elt F) → (⟨S16x16384x64, .f32⟩ : BufTy).Contents (Elt F)) ]

set_option maxRecDepth 8192 in
/-- The pieces, concatenated in order, are the whole list. -/
theorem ops_eq : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17))))))))))))))))) := rfl

/-- The whole line's effect is the pieces' effects composed. -/
theorem after_ops_eq (V : Valuation τ sig (Elt F)) :
    after ops V = after seg17 (after seg16 (after seg15 (after seg14 (after seg13 (after seg12 (after seg11 (after seg10 (after seg9 (after seg8 (after seg7 (after seg6 (after seg5 (after seg4 (after seg3 (after seg2 (after seg1 (after seg0 (V)))))))))))))))))) := by
  rw [ops_eq]
  simp only [after_append]

/-! ## Each piece computes the named stages

For a valuation holding the named stages at the piece's live inputs, the valuation after the piece holds the
named stages at its live outputs: every operation's result is its function of its operands' contents, a buffer
no operation of the piece writes keeps its contents, and the composed functions are the stage's definition. -/

theorem seg0_spec (V : Valuation τ sig (Elt F)) :
    after seg0 V (Proc.devRef .tc main_v0) = ReadP.val_main_v0 (F := F) (V (Proc.devRef .tc main_arg0))
    ∧ after seg0 V (Proc.devRef .tc main_v1) = ReadP.val_main_v1 (F := F) (V (Proc.devRef .tc main_arg1)) := by
  unfold seg0
  refine ⟨?_, ?_⟩
  · after_results_simp
    rfl
  · after_results_simp
    rfl

theorem seg1_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v1 : W (Proc.devRef .tc main_v1) = ReadP.val_main_v1 (F := F) x1) :
    after seg1 W (Proc.devRef .tc main_v0) = ReadP.val_main_v0 (F := F) x0
    ∧ after seg1 W (Proc.devRef .tc main_v4) = ReadP.val_main_v4 (F := F) x0 x1 := by
  unfold seg1
  refine ⟨?_, ?_⟩
  · after_results_simp
    exact h_main_v0
  · after_results_simp
    simp only [h_main_v0, h_main_v1]
    rfl

theorem seg2_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v4 : W (Proc.devRef .tc main_v4) = ReadP.val_main_v4 (F := F) x0 x1) :
    after seg2 W (Proc.devRef .tc main_v0) = ReadP.val_main_v0 (F := F) x0
    ∧ after seg2 W (Proc.devRef .tc main_v11) = ReadP.val_main_v11 (F := F) x0 x1 := by
  unfold seg2
  refine ⟨?_, ?_⟩
  · after_results_simp
    exact h_main_v0
  · after_results_simp
    simp only [h_main_v0, h_main_v4]
    rfl

theorem seg3_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v11 : W (Proc.devRef .tc main_v11) = ReadP.val_main_v11 (F := F) x0 x1) :
    after seg3 W (Proc.devRef .tc main_v0) = ReadP.val_main_v0 (F := F) x0
    ∧ after seg3 W (Proc.devRef .tc main_v15) = ReadP.val_main_v15 (F := F) x0 x1 := by
  unfold seg3
  refine ⟨?_, ?_⟩
  · after_results_simp
    exact h_main_v0
  · after_results_simp
    simp only [h_main_v0, h_main_v11]
    rfl

theorem seg4_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v15 : W (Proc.devRef .tc main_v15) = ReadP.val_main_v15 (F := F) x0 x1) :
    after seg4 W (Proc.devRef .tc main_v0) = ReadP.val_main_v0 (F := F) x0
    ∧ after seg4 W (Proc.devRef .tc main_v22) = ReadP.val_main_v22 (F := F) x0 x1 := by
  unfold seg4
  refine ⟨?_, ?_⟩
  · after_results_simp
    exact h_main_v0
  · after_results_simp
    simp only [h_main_v0, h_main_v15]
    rfl

theorem seg5_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v22 : W (Proc.devRef .tc main_v22) = ReadP.val_main_v22 (F := F) x0 x1) :
    after seg5 W (Proc.devRef .tc main_v0) = ReadP.val_main_v0 (F := F) x0
    ∧ after seg5 W (Proc.devRef .tc main_v27) = ReadP.val_main_v27 (F := F) x0 x1 := by
  unfold seg5
  refine ⟨?_, ?_⟩
  · after_results_simp
    exact h_main_v0
  · after_results_simp
    simp only [h_main_v0, h_main_v22]
    rfl

theorem seg6_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v27 : W (Proc.devRef .tc main_v27) = ReadP.val_main_v27 (F := F) x0 x1) :
    after seg6 W (Proc.devRef .tc main_v0) = ReadP.val_main_v0 (F := F) x0
    ∧ after seg6 W (Proc.devRef .tc main_v30) = ReadP.val_main_v30 (F := F) x0 x1 := by
  unfold seg6
  refine ⟨?_, ?_⟩
  · after_results_simp
    exact h_main_v0
  · after_results_simp
    simp only [h_main_v0, h_main_v27]
    rfl

theorem seg7_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v30 : W (Proc.devRef .tc main_v30) = ReadP.val_main_v30 (F := F) x0 x1) :
    after seg7 W (Proc.devRef .tc main_v0) = ReadP.val_main_v0 (F := F) x0
    ∧ after seg7 W (Proc.devRef .tc main_v37) = ReadP.val_main_v37 (F := F) x0 x1 := by
  unfold seg7
  refine ⟨?_, ?_⟩
  · after_results_simp
    exact h_main_v0
  · after_results_simp
    simp only [h_main_v0, h_main_v30]
    rfl

theorem seg8_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v37 : W (Proc.devRef .tc main_v37) = ReadP.val_main_v37 (F := F) x0 x1) :
    after seg8 W (Proc.devRef .tc main_v0) = ReadP.val_main_v0 (F := F) x0
    ∧ after seg8 W (Proc.devRef .tc main_v41) = ReadP.val_main_v41 (F := F) x0 x1 := by
  unfold seg8
  refine ⟨?_, ?_⟩
  · after_results_simp
    exact h_main_v0
  · after_results_simp
    simp only [h_main_v0, h_main_v37]
    rfl

theorem seg9_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v41 : W (Proc.devRef .tc main_v41) = ReadP.val_main_v41 (F := F) x0 x1) :
    after seg9 W (Proc.devRef .tc main_v0) = ReadP.val_main_v0 (F := F) x0
    ∧ after seg9 W (Proc.devRef .tc main_v48) = ReadP.val_main_v48 (F := F) x0 x1 := by
  unfold seg9
  refine ⟨?_, ?_⟩
  · after_results_simp
    exact h_main_v0
  · after_results_simp
    simp only [h_main_v0, h_main_v41]
    rfl

theorem seg10_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v48 : W (Proc.devRef .tc main_v48) = ReadP.val_main_v48 (F := F) x0 x1) :
    after seg10 W (Proc.devRef .tc main_v0) = ReadP.val_main_v0 (F := F) x0
    ∧ after seg10 W (Proc.devRef .tc main_v53) = ReadP.val_main_v53 (F := F) x0 x1 := by
  unfold seg10
  refine ⟨?_, ?_⟩
  · after_results_simp
    exact h_main_v0
  · after_results_simp
    simp only [h_main_v0, h_main_v48]
    rfl

theorem seg11_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v53 : W (Proc.devRef .tc main_v53) = ReadP.val_main_v53 (F := F) x0 x1) :
    after seg11 W (Proc.devRef .tc main_v0) = ReadP.val_main_v0 (F := F) x0
    ∧ after seg11 W (Proc.devRef .tc main_v56) = ReadP.val_main_v56 (F := F) x0 x1 := by
  unfold seg11
  refine ⟨?_, ?_⟩
  · after_results_simp
    exact h_main_v0
  · after_results_simp
    simp only [h_main_v0, h_main_v53]
    rfl

theorem seg12_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v56 : W (Proc.devRef .tc main_v56) = ReadP.val_main_v56 (F := F) x0 x1) :
    after seg12 W (Proc.devRef .tc main_v0) = ReadP.val_main_v0 (F := F) x0
    ∧ after seg12 W (Proc.devRef .tc main_v63) = ReadP.val_main_v63 (F := F) x0 x1 := by
  unfold seg12
  refine ⟨?_, ?_⟩
  · after_results_simp
    exact h_main_v0
  · after_results_simp
    simp only [h_main_v0, h_main_v56]
    rfl

theorem seg13_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v63 : W (Proc.devRef .tc main_v63) = ReadP.val_main_v63 (F := F) x0 x1) :
    after seg13 W (Proc.devRef .tc main_v0) = ReadP.val_main_v0 (F := F) x0
    ∧ after seg13 W (Proc.devRef .tc main_v67) = ReadP.val_main_v67 (F := F) x0 x1 := by
  unfold seg13
  refine ⟨?_, ?_⟩
  · after_results_simp
    exact h_main_v0
  · after_results_simp
    simp only [h_main_v0, h_main_v63]
    rfl

theorem seg14_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v67 : W (Proc.devRef .tc main_v67) = ReadP.val_main_v67 (F := F) x0 x1) :
    after seg14 W (Proc.devRef .tc main_v0) = ReadP.val_main_v0 (F := F) x0
    ∧ after seg14 W (Proc.devRef .tc main_v74) = ReadP.val_main_v74 (F := F) x0 x1 := by
  unfold seg14
  refine ⟨?_, ?_⟩
  · after_results_simp
    exact h_main_v0
  · after_results_simp
    simp only [h_main_v0, h_main_v67]
    rfl

theorem seg15_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v74 : W (Proc.devRef .tc main_v74) = ReadP.val_main_v74 (F := F) x0 x1) :
    after seg15 W (Proc.devRef .tc main_v0) = ReadP.val_main_v0 (F := F) x0
    ∧ after seg15 W (Proc.devRef .tc main_v79) = ReadP.val_main_v79 (F := F) x0 x1 := by
  unfold seg15
  refine ⟨?_, ?_⟩
  · after_results_simp
    exact h_main_v0
  · after_results_simp
    simp only [h_main_v0, h_main_v74]
    rfl

theorem seg16_spec (x0 : (⟨S16x256x128x128, .f32⟩ : BufTy).Contents (Elt F)) (x1 : (⟨S1x256x64, .f32⟩ : BufTy).Contents (Elt F)) (W : Valuation τ sig (Elt F))
    (h_main_v0 : W (Proc.devRef .tc main_v0) = ReadP.val_main_v0 (F := F) x0)
    (h_main_v79 : W (Proc.devRef .tc main_v79) = ReadP.val_main_v79 (F := F) x0 x1) :
    after seg16 W (Proc.devRef .tc main_v87) = ReadP.val_main_v87 (F := F) x0 x1 := by
  unfold seg16
  after_results_simp
  simp only [h_main_v0, h_main_v79]
  rfl

theorem seg17_spec (x0 : (⟨S16x256x128x128, .f32⟩ : BufTy).Contents (Elt F)) (x1 : (⟨S1x256x64, .f32⟩ : BufTy).Contents (Elt F)) (W : Valuation τ sig (Elt F))
    (h_main_v87 : W (Proc.devRef .tc main_v87) = ReadP.val_main_v87 (F := F) x0 x1) :
    after seg17 W (Proc.devRef .tc main_v91) = ReadP.val_main_v91 (F := F) x0 x1 := by
  unfold seg17
  after_results_simp
  simp only [h_main_v87]
  rfl

/-! ## The whole line -/

/-- After the whole line the result buffer holds the last named stage of the two arguments. -/
theorem after_ops_v91 (V : Valuation τ sig (Elt F)) :
    after ops V (Proc.devRef .tc main_v91) = ReadP.val_main_v91 (F := F) (V (Proc.devRef .tc main_arg0)) (V (Proc.devRef .tc main_arg1)) := by
  rw [after_ops_eq]
  have h0 := seg0_spec (F := F) V
  have h1 := seg1_spec (V (Proc.devRef .tc main_arg0)) (V (Proc.devRef .tc main_arg1)) _ h0.1 h0.2
  have h2 := seg2_spec (V (Proc.devRef .tc main_arg0)) (V (Proc.devRef .tc main_arg1)) _ h1.1 h1.2
  have h3 := seg3_spec (V (Proc.devRef .tc main_arg0)) (V (Proc.devRef .tc main_arg1)) _ h2.1 h2.2
  have h4 := seg4_spec (V (Proc.devRef .tc main_arg0)) (V (Proc.devRef .tc main_arg1)) _ h3.1 h3.2
  have h5 := seg5_spec (V (Proc.devRef .tc main_arg0)) (V (Proc.devRef .tc main_arg1)) _ h4.1 h4.2
  have h6 := seg6_spec (V (Proc.devRef .tc main_arg0)) (V (Proc.devRef .tc main_arg1)) _ h5.1 h5.2
  have h7 := seg7_spec (V (Proc.devRef .tc main_arg0)) (V (Proc.devRef .tc main_arg1)) _ h6.1 h6.2
  have h8 := seg8_spec (V (Proc.devRef .tc main_arg0)) (V (Proc.devRef .tc main_arg1)) _ h7.1 h7.2
  have h9 := seg9_spec (V (Proc.devRef .tc main_arg0)) (V (Proc.devRef .tc main_arg1)) _ h8.1 h8.2
  have h10 := seg10_spec (V (Proc.devRef .tc main_arg0)) (V (Proc.devRef .tc main_arg1)) _ h9.1 h9.2
  have h11 := seg11_spec (V (Proc.devRef .tc main_arg0)) (V (Proc.devRef .tc main_arg1)) _ h10.1 h10.2
  have h12 := seg12_spec (V (Proc.devRef .tc main_arg0)) (V (Proc.devRef .tc main_arg1)) _ h11.1 h11.2
  have h13 := seg13_spec (V (Proc.devRef .tc main_arg0)) (V (Proc.devRef .tc main_arg1)) _ h12.1 h12.2
  have h14 := seg14_spec (V (Proc.devRef .tc main_arg0)) (V (Proc.devRef .tc main_arg1)) _ h13.1 h13.2
  have h15 := seg15_spec (V (Proc.devRef .tc main_arg0)) (V (Proc.devRef .tc main_arg1)) _ h14.1 h14.2
  have h16 := seg16_spec (V (Proc.devRef .tc main_arg0)) (V (Proc.devRef .tc main_arg1)) _ h15.1 h15.2
  exact seg17_spec (V (Proc.devRef .tc main_arg0)) (V (Proc.devRef .tc main_arg1)) _ h16

set_option maxRecDepth 8192 in
/-- No operation writes the first argument. -/
theorem after_ops_arg0 (V : Valuation τ sig (Elt F)) :
    after ops V (Proc.devRef .tc main_arg0) = V (Proc.devRef .tc main_arg0) := by
  after_results_simp

set_option maxRecDepth 8192 in
/-- No operation writes the second argument. -/
theorem after_ops_arg1 (V : Valuation τ sig (Elt F)) :
    after ops V (Proc.devRef .tc main_arg1) = V (Proc.devRef .tc main_arg1) := by
  after_results_simp

/-- On every device, for any float values, from any memory with zero counters: every weakly fair execution of
    @main terminates with the result buffer at the last named stage of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = ReadP.val_main_v91 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v91).trans (after_ops_v91 (launchContents m c)),
      (h c main_arg0).trans (after_ops_arg0 (launchContents m c)),
      (h c main_arg1).trans (after_ops_arg1 (launchContents m c))⟩)
    (run_seq scopedRefs_eq scopedSems_eq defs main (fun _ => ops) main_eq (fun _ => ops_sub) m ρ)

end Cert.ReferenceIdeal.RefRun

end
-- ==== Proof.RefValue.lean ====
/-
  The reference program's result read at an index, at the ideal instance, as the specification's function.

  For one batch `b`, write `X c n` for feature `c` of point `n` and `M c k` for the prototype table entering a round.
  Each round of the program computes the scores `∑ c, X c n * M c k`, scales them by the temperature, takes each
  row's soft assignment (exponentials of the scores less the row maximum, over their sum), divides each weight by
  `eps` plus its column total over the points, forms the weighted sums of the points, and divides each column of the
  new table by `eps` plus its Euclidean length. The lemmas below read the program's stages one at a time at explicit
  coordinates and identify each with the corresponding function of the specification; three rounds and the final
  soft assignment then compose.
-/
import proofs.«151417_j40132174413878_2_alg».proof.Proof.RefRead
import proofs.«151417_j40132174413878_2_alg».proof.Proof.Spec

noncomputable section

open scoped BigOperators

namespace Cert.ReferenceIdeal.RefValue

open Idealize.ShloMosaic Idealize.ShloMosaic.ValueIdx Cert.ReferenceIdeal

/-- Round one's scores: the contraction over the features. -/
theorem v2_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v1 (F := Ideal) x1 (ix3 b c k') = M c k') (n : Fin 16384) (k : Fin 64) :
    ReadP.val_main_v2 (F := Ideal) x0 x1 (ix3 b n k)
      = Cert.Spec.score (fun (c : Fin 256) (n' : Fin 16384) => ReadP.val_main_v0 (F := Ideal) x0 (ix3 b c n')) M n k := by
  rw [ReadP.val_main_v2_apply]
  unfold Cert.Spec.score
  refine Finset.sum_congr rfl fun c _ => ?_
  have el : ReadP.lidx_main_v2 (ix3 b n k) c = ix3 b c n :=
    funext fun a => Fin.ext (by match a with | ⟨0, _⟩ => rfl | ⟨1, _⟩ => rfl | ⟨2, _⟩ => rfl)
  have er : ReadP.ridx_main_v2 (ix3 b n k) c = ix3 b c k :=
    funext fun a => Fin.ext (by match a with | ⟨0, _⟩ => rfl | ⟨1, _⟩ => rfl | ⟨2, _⟩ => rfl)
  rw [el, er, hM]

/-- The scaled scores. -/
theorem v4_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v1 (F := Ideal) x1 (ix3 b c k') = M c k') (n : Fin 16384) (k : Fin 64) :
    ReadP.val_main_v4 (F := Ideal) x0 x1 (ix3 b n k)
      = (Ideal.ofBits .f32 0x41A00000#32) * Cert.Spec.score (fun (c : Fin 256) (n' : Fin 16384) => ReadP.val_main_v0 (F := Ideal) x0 (ix3 b c n')) M n k := by
  rw [ReadP.val_main_v4_apply, ReadP.val_main_v3_apply, ReadP.val_main_cst_apply, v2_read x0 x1 b M hM]
  rfl

/-- The row maximum as the program takes it: a fold of `max` over the prototypes from the initial value. -/
theorem v5_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v1 (F := Ideal) x1 (ix3 b c k') = M c k') (n : Fin 16384) :
    ReadP.val_main_v5 (F := Ideal) x0 x1 (ix2 b n)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  have h : S16x16384x64.Reduces [2] S16x16384 := by decide
  have hf : (ReadP.val_main_v4 (F := Ideal) x0 x1 ∘ h.lift (ix2 b n))
      = (fun k' : Fin 64 => (Ideal.ofBits .f32 0x41A00000#32) * Cert.Spec.score (fun (c : Fin 256) (n' : Fin 16384) => ReadP.val_main_v0 (F := Ideal) x0 (ix3 b c n')) M n k') := by
    funext (k' : Fin 64)
    have e : h.lift (ix2 b n) k' = ix3 b n k' :=
      funext fun a => Fin.ext (by match a with | ⟨0, _⟩ => rfl | ⟨1, _⟩ => rfl | ⟨2, _⟩ => rfl)
    show ReadP.val_main_v4 (F := Ideal) x0 x1 (h.lift (ix2 b n) k') = _
    rw [e, v4_read x0 x1 b M hM]
  unfold ReadP.val_main_v5
  show Host.reduce (max : EReal → EReal → EReal) _ _ _ _ _ = _
  rw [Host.reduce_eq_fold_single max _ _ _ h, hf]
  rfl

/-- The extra `max` with the initial value changes nothing: the fold started there is already above it. -/
theorem v7_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (n : Fin 16384) :
    ReadP.val_main_v7 (F := Ideal) x0 x1 (ix2 b n)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  rw [ReadP.val_main_v7_apply, ReadP.val_main_v6_apply, ReadP.val_main_cst_1_apply, v5_read x0 x1 b M hM]
  show max (Ideal.ofBits .f32 0xFF800000#32) _ = _
  exact max_eq_right ((Finset.le_fold_max _).2 (Or.inl le_rfl))

/-- The row maximum, broadcast back over the prototypes. -/
theorem v9_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (n : Fin 16384) (k : Fin 64) :
    ReadP.val_main_v9 (F := Ideal) x0 x1 (ix3 b n k)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  rw [ReadP.val_main_v9_apply, ReadP.val_main_v8_apply]
  have e : ReadP.idx_main_v8 (ReadP.idx_main_v9 (ix3 b n k)) = ix2 b n :=
    funext fun a => Fin.ext (by match a with | ⟨0, _⟩ => rfl | ⟨1, _⟩ => rfl)
  rw [e, v7_read x0 x1 b M hM]

/-- The exponential of a scaled score less its row maximum. -/
theorem v11_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (n : Fin 16384) (k : Fin 64) :
    ReadP.val_main_v11 (F := Ideal) x0 x1 (ix3 b n k)
      = Ideal.exp ((Ideal.ofBits .f32 0x41A00000#32) * Cert.Spec.score (fun (c : Fin 256) (n' : Fin 16384) => ReadP.val_main_v0 (F := Ideal) x0 (ix3 b c n')) M n k
          - Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k')) := by
  rw [ReadP.val_main_v11_apply, ReadP.val_main_v10_apply, v4_read x0 x1 b M hM, v9_read x0 x1 b M hM]
  rfl

/-- The row's sum of exponentials (the sum's initial value is zero). -/
theorem v12_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (n : Fin 16384) :
    ReadP.val_main_v12 (F := Ideal) x0 x1 (ix2 b n)
      = ∑ k'' : Fin 64, Ideal.exp ((Ideal.ofBits .f32 0x41A00000#32) * Cert.Spec.score (fun (c : Fin 256) (n' : Fin 16384) => ReadP.val_main_v0 (F := Ideal) x0 (ix3 b c n')) M n k''
          - Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k')) := by
  rw [ReadP.val_main_v12_apply, ReadP.val_main_cst_2_apply]
  show Ideal.ofBits .f32 0x00000000#32 + _ = _
  rw [Ideal.ofBits_zero_f32, zero_add]
  refine Finset.sum_congr rfl fun k'' _ => ?_
  have e : ReadP.idx_main_v12 (ix2 b n) k'' = ix3 b n k'' :=
    funext fun a => Fin.ext (by match a with | ⟨0, _⟩ => rfl | ⟨1, _⟩ => rfl | ⟨2, _⟩ => rfl)
  rw [e, v11_read x0 x1 b M hM]

/-- The soft assignment of point `n` to prototype `k`. -/
theorem v15_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (n : Fin 16384) (k : Fin 64) :
    ReadP.val_main_v15 (F := Ideal) x0 x1 (ix3 b n k)
      = Cert.Spec.resp (Ideal.ofBits .f32 0xFF800000#32) (Ideal.ofBits .f32 0x41A00000#32) (fun (c : Fin 256) (n' : Fin 16384) => ReadP.val_main_v0 (F := Ideal) x0 (ix3 b c n')) M n k := by
  rw [ReadP.val_main_v15_apply, ReadP.val_main_v14_apply, ReadP.val_main_v13_apply]
  have e : ReadP.idx_main_v13 (ReadP.idx_main_v14 (ix3 b n k)) = ix2 b n :=
    funext fun a => Fin.ext (by match a with | ⟨0, _⟩ => rfl | ⟨1, _⟩ => rfl)
  rw [e, v11_read x0 x1 b M hM, v12_read x0 x1 b M hM]
  rfl

/-- The total weight prototype `k` receives from the points (the sum's initial value is zero). -/
theorem v16_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (k : Fin 64) :
    ReadP.val_main_v16 (F := Ideal) x0 x1 (ix2 b k)
      = ∑ n' : Fin 16384, Cert.Spec.resp (Ideal.ofBits .f32 0xFF800000#32) (Ideal.ofBits .f32 0x41A00000#32) (fun (c : Fin 256) (n' : Fin 16384) => ReadP.val_main_v0 (F := Ideal) x0 (ix3 b c n')) M n' k := by
  rw [ReadP.val_main_v16_apply, ReadP.val_main_cst_3_apply]
  show Ideal.ofBits .f32 0x00000000#32 + _ = _
  rw [Ideal.ofBits_zero_f32, zero_add]
  refine Finset.sum_congr rfl fun n' _ => ?_
  have e : ReadP.idx_main_v16 (ix2 b k) n' = ix3 b n' k :=
    funext fun a => Fin.ext (by match a with | ⟨0, _⟩ => rfl | ⟨1, _⟩ => rfl | ⟨2, _⟩ => rfl)
  rw [e, v15_read x0 x1 b M hM]

/-- Each weight over `eps` plus its column total. -/
theorem v21_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (n : Fin 16384) (k : Fin 64) :
    ReadP.val_main_v21 (F := Ideal) x0 x1 (ix3 b n k)
      = Ideal.div (Cert.Spec.resp (Ideal.ofBits .f32 0xFF800000#32) (Ideal.ofBits .f32 0x41A00000#32) (fun (c : Fin 256) (n' : Fin 16384) => ReadP.val_main_v0 (F := Ideal) x0 (ix3 b c n')) M n k)
          ((Ideal.ofBits .f32 0x358637BD#32) + ∑ n' : Fin 16384, Cert.Spec.resp (Ideal.ofBits .f32 0xFF800000#32) (Ideal.ofBits .f32 0x41A00000#32) (fun (c : Fin 256) (n' : Fin 16384) => ReadP.val_main_v0 (F := Ideal) x0 (ix3 b c n')) M n' k) := by
  rw [ReadP.val_main_v21_apply, ReadP.val_main_v20_apply, ReadP.val_main_v19_apply, ReadP.val_main_v18_apply,
    ReadP.val_main_cst_4_apply, ReadP.val_main_v17_apply]
  have e : ReadP.idx_main_v17 (ReadP.idx_main_v20 (ix3 b n k)) = ix2 b k :=
    funext fun a => Fin.ext (by match a with | ⟨0, _⟩ => rfl | ⟨1, _⟩ => rfl)
  rw [e, v15_read x0 x1 b M hM, v16_read x0 x1 b M hM]
  rfl

/-- The re-estimated prototypes: the weighted sums of the points. -/
theorem v22_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (c : Fin 256) (k : Fin 64) :
    ReadP.val_main_v22 (F := Ideal) x0 x1 (ix3 b c k)
      = Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c k := by
  rw [ReadP.val_main_v22_apply]
  unfold Cert.Spec.mstepEach
  refine Finset.sum_congr rfl fun n _ => ?_
  have el : ReadP.lidx_main_v22 (ix3 b c k) n = ix3 b c n :=
    funext fun a => Fin.ext (by match a with | ⟨0, _⟩ => rfl | ⟨1, _⟩ => rfl | ⟨2, _⟩ => rfl)
  have er : ReadP.ridx_main_v22 (ix3 b c k) n = ix3 b n k :=
    funext fun a => Fin.ext (by match a with | ⟨0, _⟩ => rfl | ⟨1, _⟩ => rfl | ⟨2, _⟩ => rfl)
  rw [el, er, v21_read x0 x1 b M hM]

/-- The squared length of prototype `k` (the sum's initial value is zero). -/
theorem call0_v1_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (k : Fin 64) :
    ReadP.val_main_call0_v1 (F := Ideal) x0 x1 (ix2 b k)
      = ∑ c' : Fin 256, Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c' k
          * Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c' k := by
  rw [ReadP.val_main_call0_v1_apply, ReadP.val_main_call0_cst_apply]
  show Ideal.ofBits .f32 0x00000000#32 + _ = _
  rw [Ideal.ofBits_zero_f32, zero_add]
  refine Finset.sum_congr rfl fun c' _ => ?_
  have e : ReadP.idx_main_call0_v1 (ix2 b k) c' = ix3 b c' k :=
    funext fun a => Fin.ext (by match a with | ⟨0, _⟩ => rfl | ⟨1, _⟩ => rfl | ⟨2, _⟩ => rfl)
  rw [e, ReadP.val_main_call0_v0_apply, v22_read x0 x1 b M hM]
  rfl

/-- One round: the prototypes after one iteration. -/
theorem v27_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v1 (F := Ideal) x1 (ix3 b c k') = M c k') (c : Fin 256) (k : Fin 64) :
    ReadP.val_main_v27 (F := Ideal) x0 x1 (ix3 b c k)
      = Cert.Spec.iterEach (Ideal.ofBits .f32 0xFF800000#32) (Ideal.ofBits .f32 0x41A00000#32) (Ideal.ofBits .f32 0x358637BD#32) (fun (c : Fin 256) (n' : Fin 16384) => ReadP.val_main_v0 (F := Ideal) x0 (ix3 b c n')) M c k := by
  rw [ReadP.val_main_v27_apply, ReadP.val_main_v26_apply, ReadP.val_main_v25_apply, ReadP.val_main_v24_apply,
    ReadP.val_main_cst_5_apply, ReadP.val_main_v23_apply, ReadP.val_main_call0_v2_apply]
  have e : ReadP.idx_main_call0_v2 (ReadP.idx_main_v26 (ix3 b c k)) = ix2 b k :=
    funext fun a => Fin.ext (by match a with | ⟨0, _⟩ => rfl | ⟨1, _⟩ => rfl)
  rw [e, v22_read x0 x1 b M hM, call0_v1_read x0 x1 b M hM]
  unfold Cert.Spec.iterEach Cert.Spec.unitCols
  rw [Ideal.hostDivf_def, Ideal.addf_def, Ideal.ofBits_def, Ideal.hostUnary_sqrt_def]

/-- Round two's scores: the contraction over the features. -/
theorem v28_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v27 (F := Ideal) x0 x1 (ix3 b c k') = M c k') (n : Fin 16384) (k : Fin 64) :
    ReadP.val_main_v28 (F := Ideal) x0 x1 (ix3 b n k)
      = Cert.Spec.score (fun (c : Fin 256) (n' : Fin 16384) => ReadP.val_main_v0 (F := Ideal) x0 (ix3 b c n')) M n k := by
  rw [ReadP.val_main_v28_apply]
  unfold Cert.Spec.score
  refine Finset.sum_congr rfl fun c _ => ?_
  have el : ReadP.lidx_main_v28 (ix3 b n k) c = ix3 b c n :=
    funext fun a => Fin.ext (by match a with | ⟨0, _⟩ => rfl | ⟨1, _⟩ => rfl | ⟨2, _⟩ => rfl)
  have er : ReadP.ridx_main_v28 (ix3 b n k) c = ix3 b c k :=
    funext fun a => Fin.ext (by match a with | ⟨0, _⟩ => rfl | ⟨1, _⟩ => rfl | ⟨2, _⟩ => rfl)
  rw [el, er, hM]

/-- The scaled scores. -/
theorem v30_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v27 (F := Ideal) x0 x1 (ix3 b c k') = M c k') (n : Fin 16384) (k : Fin 64) :
    ReadP.val_main_v30 (F := Ideal) x0 x1 (ix3 b n k)
      = (Ideal.ofBits .f32 0x41A00000#32) * Cert.Spec.score (fun (c : Fin 256) (n' : Fin 16384) => ReadP.val_main_v0 (F := Ideal) x0 (ix3 b c n')) M n k := by
  rw [ReadP.val_main_v30_apply, ReadP.val_main_v29_apply, ReadP.val_main_cst_6_apply, v28_read x0 x1 b M hM]
  rfl

/-- The row maximum as the program takes it: a fold of `max` over the prototypes from the initial value. -/
theorem v31_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v27 (F := Ideal) x0 x1 (ix3 b c k') = M c k') (n : Fin 16384) :
    ReadP.val_main_v31 (F := Ideal) x0 x1 (ix2 b n)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  have h : S16x16384x64.Reduces [2] S16x16384 := by decide
  have hf : (ReadP.val_main_v30 (F := Ideal) x0 x1 ∘ h.lift (ix2 b n))
      = (fun k' : Fin 64 => (Ideal.ofBits .f32 0x41A00000#32) * Cert.Spec.score (fun (c : Fin 256) (n' : Fin 16384) => ReadP.val_main_v0 (F := Ideal) x0 (ix3 b c n')) M n k') := by
    funext (k' : Fin 64)
    have e : h.lift (ix2 b n) k' = ix3 b n k' :=
      funext fun a => Fin.ext (by match a with | ⟨0, _⟩ => rfl | ⟨1, _⟩ => rfl | ⟨2, _⟩ => rfl)
    show ReadP.val_main_v30 (F := Ideal) x0 x1 (h.lift (ix2 b n) k') = _
    rw [e, v30_read x0 x1 b M hM]
  unfold ReadP.val_main_v31
  show Host.reduce (max : EReal → EReal → EReal) _ _ _ _ _ = _
  rw [Host.reduce_eq_fold_single max _ _ _ h, hf]
  rfl

/-- The extra `max` with the initial value changes nothing: the fold started there is already above it. -/
theorem v33_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (n : Fin 16384) :
    ReadP.val_main_v33 (F := Ideal) x0 x1 (ix2 b n)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  rw [ReadP.val_main_v33_apply, ReadP.val_main_v32_apply, ReadP.val_main_cst_8_apply, v31_read x0 x1 b M hM]
  show max (Ideal.ofBits .f32 0xFF800000#32) _ = _
  exact max_eq_right ((Finset.le_fold_max _).2 (Or.inl le_rfl))

/-- The row maximum, broadcast back over the prototypes. -/
theorem v35_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (n : Fin 16384) (k : Fin 64) :
    ReadP.val_main_v35 (F := Ideal) x0 x1 (ix3 b n k)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  rw [ReadP.val_main_v35_apply, ReadP.val_main_v34_apply]
  have e : ReadP.idx_main_v34 (ReadP.idx_main_v35 (ix3 b n k)) = ix2 b n :=
    funext fun a => Fin.ext (by match a with | ⟨0, _⟩ => rfl | ⟨1, _⟩ => rfl)
  rw [e, v33_read x0 x1 b M hM]

/-- The exponential of a scaled score less its row maximum. -/
theorem v37_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (n : Fin 16384) (k : Fin 64) :
    ReadP.val_main_v37 (F := Ideal) x0 x1 (ix3 b n k)
      = Ideal.exp ((Ideal.ofBits .f32 0x41A00000#32) * Cert.Spec.score (fun (c : Fin 256) (n' : Fin 16384) => ReadP.val_main_v0 (F := Ideal) x0 (ix3 b c n')) M n k
          - Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k')) := by
  rw [ReadP.val_main_v37_apply, ReadP.val_main_v36_apply, v30_read x0 x1 b M hM, v35_read x0 x1 b M hM]
  rfl

/-- The row's sum of exponentials (the sum's initial value is zero). -/
theorem v38_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (n : Fin 16384) :
    ReadP.val_main_v38 (F := Ideal) x0 x1 (ix2 b n)
      = ∑ k'' : Fin 64, Ideal.exp ((Ideal.ofBits .f32 0x41A00000#32) * Cert.Spec.score (fun (c : Fin 256) (n' : Fin 16384) => ReadP.val_main_v0 (F := Ideal) x0 (ix3 b c n')) M n k''
          - Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k')) := by
  rw [ReadP.val_main_v38_apply, ReadP.val_main_cst_9_apply]
  show Ideal.ofBits .f32 0x00000000#32 + _ = _
  rw [Ideal.ofBits_zero_f32, zero_add]
  refine Finset.sum_congr rfl fun k'' _ => ?_
  have e : ReadP.idx_main_v38 (ix2 b n) k'' = ix3 b n k'' :=
    funext fun a => Fin.ext (by match a with | ⟨0, _⟩ => rfl | ⟨1, _⟩ => rfl | ⟨2, _⟩ => rfl)
  rw [e, v37_read x0 x1 b M hM]

/-- The soft assignment of point `n` to prototype `k`. -/
theorem v41_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (n : Fin 16384) (k : Fin 64) :
    ReadP.val_main_v41 (F := Ideal) x0 x1 (ix3 b n k)
      = Cert.Spec.resp (Ideal.ofBits .f32 0xFF800000#32) (Ideal.ofBits .f32 0x41A00000#32) (fun (c : Fin 256) (n' : Fin 16384) => ReadP.val_main_v0 (F := Ideal) x0 (ix3 b c n')) M n k := by
  rw [ReadP.val_main_v41_apply, ReadP.val_main_v40_apply, ReadP.val_main_v39_apply]
  have e : ReadP.idx_main_v39 (ReadP.idx_main_v40 (ix3 b n k)) = ix2 b n :=
    funext fun a => Fin.ext (by match a with | ⟨0, _⟩ => rfl | ⟨1, _⟩ => rfl)
  rw [e, v37_read x0 x1 b M hM, v38_read x0 x1 b M hM]
  rfl

/-- The total weight prototype `k` receives from the points (the sum's initial value is zero). -/
theorem v42_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (k : Fin 64) :
    ReadP.val_main_v42 (F := Ideal) x0 x1 (ix2 b k)
      = ∑ n' : Fin 16384, Cert.Spec.resp (Ideal.ofBits .f32 0xFF800000#32) (Ideal.ofBits .f32 0x41A00000#32) (fun (c : Fin 256) (n' : Fin 16384) => ReadP.val_main_v0 (F := Ideal) x0 (ix3 b c n')) M n' k := by
  rw [ReadP.val_main_v42_apply, ReadP.val_main_cst_10_apply]
  show Ideal.ofBits .f32 0x00000000#32 + _ = _
  rw [Ideal.ofBits_zero_f32, zero_add]
  refine Finset.sum_congr rfl fun n' _ => ?_
  have e : ReadP.idx_main_v42 (ix2 b k) n' = ix3 b n' k :=
    funext fun a => Fin.ext (by match a with | ⟨0, _⟩ => rfl | ⟨1, _⟩ => rfl | ⟨2, _⟩ => rfl)
  rw [e, v41_read x0 x1 b M hM]

/-- Each weight over `eps` plus its column total. -/
theorem v47_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (n : Fin 16384) (k : Fin 64) :
    ReadP.val_main_v47 (F := Ideal) x0 x1 (ix3 b n k)
      = Ideal.div (Cert.Spec.resp (Ideal.ofBits .f32 0xFF800000#32) (Ideal.ofBits .f32 0x41A00000#32) (fun (c : Fin 256) (n' : Fin 16384) => ReadP.val_main_v0 (F := Ideal) x0 (ix3 b c n')) M n k)
          ((Ideal.ofBits .f32 0x358637BD#32) + ∑ n' : Fin 16384, Cert.Spec.resp (Ideal.ofBits .f32 0xFF800000#32) (Ideal.ofBits .f32 0x41A00000#32) (fun (c : Fin 256) (n' : Fin 16384) => ReadP.val_main_v0 (F := Ideal) x0 (ix3 b c n')) M n' k) := by
  rw [ReadP.val_main_v47_apply, ReadP.val_main_v46_apply, ReadP.val_main_v45_apply, ReadP.val_main_v44_apply,
    ReadP.val_main_cst_11_apply, ReadP.val_main_v43_apply]
  have e : ReadP.idx_main_v43 (ReadP.idx_main_v46 (ix3 b n k)) = ix2 b k :=
    funext fun a => Fin.ext (by match a with | ⟨0, _⟩ => rfl | ⟨1, _⟩ => rfl)
  rw [e, v41_read x0 x1 b M hM, v42_read x0 x1 b M hM]
  rfl

/-- The re-estimated prototypes: the weighted sums of the points. -/
theorem v48_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (c : Fin 256) (k : Fin 64) :
    ReadP.val_main_v48 (F := Ideal) x0 x1 (ix3 b c k)
      = Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c k := by
  rw [ReadP.val_main_v48_apply]
  unfold Cert.Spec.mstepEach
  refine Finset.sum_congr rfl fun n _ => ?_
  have el : ReadP.lidx_main_v48 (ix3 b c k) n = ix3 b c n :=
    funext fun a => Fin.ext (by match a with | ⟨0, _⟩ => rfl | ⟨1, _⟩ => rfl | ⟨2, _⟩ => rfl)
  have er : ReadP.ridx_main_v48 (ix3 b c k) n = ix3 b n k :=
    funext fun a => Fin.ext (by match a with | ⟨0, _⟩ => rfl | ⟨1, _⟩ => rfl | ⟨2, _⟩ => rfl)
  rw [el, er, v47_read x0 x1 b M hM]

/-- The squared length of prototype `k` (the sum's initial value is zero). -/
theorem call1_v1_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (k : Fin 64) :
    ReadP.val_main_call1_v1 (F := Ideal) x0 x1 (ix2 b k)
      = ∑ c' : Fin 256, Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c' k
          * Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c' k := by
  rw [ReadP.val_main_call1_v1_apply, ReadP.val_main_call1_cst_apply]
  show Ideal.ofBits .f32 0x00000000#32 + _ = _
  rw [Ideal.ofBits_zero_f32, zero_add]
  refine Finset.sum_congr rfl fun c' _ => ?_
  have e : ReadP.idx_main_call1_v1 (ix2 b k) c' = ix3 b c' k :=
    funext fun a => Fin.ext (by match a with | ⟨0, _⟩ => rfl | ⟨1, _⟩ => rfl | ⟨2, _⟩ => rfl)
  rw [e, ReadP.val_main_call1_v0_apply, v48_read x0 x1 b M hM]
  rfl

/-- One round: the prototypes after one iteration. -/
theorem v53_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v27 (F := Ideal) x0 x1 (ix3 b c k') = M c k') (c : Fin 256) (k : Fin 64) :
    ReadP.val_main_v53 (F := Ideal) x0 x1 (ix3 b c k)
      = Cert.Spec.iterEach (Ideal.ofBits .f32 0xFF800000#32) (Ideal.ofBits .f32 0x41A00000#32) (Ideal.ofBits .f32 0x358637BD#32) (fun (c : Fin 256) (n' : Fin 16384) => ReadP.val_main_v0 (F := Ideal) x0 (ix3 b c n')) M c k := by
  rw [ReadP.val_main_v53_apply, ReadP.val_main_v52_apply, ReadP.val_main_v51_apply, ReadP.val_main_v50_apply,
    ReadP.val_main_cst_12_apply, ReadP.val_main_v49_apply, ReadP.val_main_call1_v2_apply]
  have e : ReadP.idx_main_call1_v2 (ReadP.idx_main_v52 (ix3 b c k)) = ix2 b k :=
    funext fun a => Fin.ext (by match a with | ⟨0, _⟩ => rfl | ⟨1, _⟩ => rfl)
  rw [e, v48_read x0 x1 b M hM, call1_v1_read x0 x1 b M hM]
  unfold Cert.Spec.iterEach Cert.Spec.unitCols
  rw [Ideal.hostDivf_def, Ideal.addf_def, Ideal.ofBits_def, Ideal.hostUnary_sqrt_def]

/-- Round three's scores: the contraction over the features. -/
theorem v54_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v53 (F := Ideal) x0 x1 (ix3 b c k') = M c k') (n : Fin 16384) (k : Fin 64) :
    ReadP.val_main_v54 (F := Ideal) x0 x1 (ix3 b n k)
      = Cert.Spec.score (fun (c : Fin 256) (n' : Fin 16384) => ReadP.val_main_v0 (F := Ideal) x0 (ix3 b c n')) M n k := by
  rw [ReadP.val_main_v54_apply]
  unfold Cert.Spec.score
  refine Finset.sum_congr rfl fun c _ => ?_
  have el : ReadP.lidx_main_v54 (ix3 b n k) c = ix3 b c n :=
    funext fun a => Fin.ext (by match a with | ⟨0, _⟩ => rfl | ⟨1, _⟩ => rfl | ⟨2, _⟩ => rfl)
  have er : ReadP.ridx_main_v54 (ix3 b n k) c = ix3 b c k :=
    funext fun a => Fin.ext (by match a with | ⟨0, _⟩ => rfl | ⟨1, _⟩ => rfl | ⟨2, _⟩ => rfl)
  rw [el, er, hM]

/-- The scaled scores. -/
theorem v56_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v53 (F := Ideal) x0 x1 (ix3 b c k') = M c k') (n : Fin 16384) (k : Fin 64) :
    ReadP.val_main_v56 (F := Ideal) x0 x1 (ix3 b n k)
      = (Ideal.ofBits .f32 0x41A00000#32) * Cert.Spec.score (fun (c : Fin 256) (n' : Fin 16384) => ReadP.val_main_v0 (F := Ideal) x0 (ix3 b c n')) M n k := by
  rw [ReadP.val_main_v56_apply, ReadP.val_main_v55_apply, ReadP.val_main_cst_13_apply, v54_read x0 x1 b M hM]
  rfl

/-- The row maximum as the program takes it: a fold of `max` over the prototypes from the initial value. -/
theorem v57_read (x0 : (⟨S16x256x128x128, .f32⟩ : BufTy).Contents (Elt Ideal)) (x1 : (⟨S1x256x64, .f32⟩ : BufTy).Contents (Elt Ideal))
    (b : Fin 16) (M : Fin 256 → Fin 64 → EReal)
    (hM : ∀ c k', ReadP.val_main_v53 (F := Ideal) x0 x1 (ix3 b c k') = M c k') (n : Fin 16384) :
    ReadP.val_main_v57 (F := Ideal) x0 x1 (ix2 b n)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  have h : S16x16384x64.Reduces [2] S16x16384 := by decide
  have hf : (ReadP.val_main_v56 (F := Ideal) x0 x1 ∘ h.lift (ix2 b n))
      = (fun k' : Fin 64 => (Ideal.ofBits .f32 0x41A00000#32) * Cert.Spec.score (fun (c : Fin 256) (n' : Fin 16384) => ReadP.val_main_v0 (F := Ideal) x0 (ix3 b c n')) M n k') := by
    funext (k' : Fin 64)
    have e : h.lift (ix2 b n) k' = ix3 b n k' :=
      funext fun a => Fin.ext (by match a with | ⟨0, _⟩ => rfl | ⟨1, _⟩ => rfl | ⟨2, _⟩ => rfl)
    show ReadP.val_main_v56 (F := Ideal) x0 x1 (h.lift (ix2 b n) k') = _
    rw [e, v56_read x0 x1 b M hM]
  unfold ReadP.val_main_v57
  show Host.reduce (max : EReal → EReal → EReal) _ _ _ _ _ = _
  rw [Host.reduce_eq_fold_single max _ _ _ h, hf]
  rfl

/-- The extra `max` with the initial value changes nothing: the fold started there is already above it. -/
theorem v59_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (n : Fin 16384) :
    ReadP.val_main_v59 (F := Ideal) x0 x1 (ix2 b n)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  rw [ReadP.val_main_v59_apply, ReadP.val_main_v58_apply, ReadP.val_main_cst_15_apply, v57_read x0 x1 b M hM]
  show max (Ideal.ofBits .f32 0xFF800000#32) _ = _
  exact max_eq_right ((Finset.le_fold_max _).2 (Or.inl le_rfl))

/-- The row maximum, broadcast back over the prototypes. -/
theorem v61_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (n : Fin 16384) (k : Fin 64) :
    ReadP.val_main_v61 (F := Ideal) x0 x1 (ix3 b n k)
      = Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k') := by
  rw [ReadP.val_main_v61_apply, ReadP.val_main_v60_apply]
  have e : ReadP.idx_main_v60 (ReadP.idx_main_v61 (ix3 b n k)) = ix2 b n :=
    funext fun a => Fin.ext (by match a with | ⟨0, _⟩ => rfl | ⟨1, _⟩ => rfl)
  rw [e, v59_read x0 x1 b M hM]

/-- The exponential of a scaled score less its row maximum. -/
theorem v63_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (n : Fin 16384) (k : Fin 64) :
    ReadP.val_main_v63 (F := Ideal) x0 x1 (ix3 b n k)
      = Ideal.exp ((Ideal.ofBits .f32 0x41A00000#32) * Cert.Spec.score (fun (c : Fin 256) (n' : Fin 16384) => ReadP.val_main_v0 (F := Ideal) x0 (ix3 b c n')) M n k
          - Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k')) := by
  rw [ReadP.val_main_v63_apply, ReadP.val_main_v62_apply, v56_read x0 x1 b M hM, v61_read x0 x1 b M hM]
  rfl

/-- The row's sum of exponentials (the sum's initial value is zero). -/
theorem v64_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (n : Fin 16384) :
    ReadP.val_main_v64 (F := Ideal) x0 x1 (ix2 b n)
      = ∑ k'' : Fin 64, Ideal.exp ((Ideal.ofBits .f32 0x41A00000#32) * Cert.Spec.score (fun (c : Fin 256) (n' : Fin 16384) => ReadP.val_main_v0 (F := Ideal) x0 (ix3 b c n')) M n k''
          - Cert.Spec.rowMax (Ideal.ofBits .f32 0xFF800000#32) (fun k' => (Ideal.ofBits .f32 0x41A00000#32) * Cert.Spec.score (fun (c : Fin 256) (n' : Fin 16384) => ReadP.val_main_v0 (F := Ideal) x0 (ix3 b c n')) M n k')) := by
  rw [ReadP.val_main_v64_apply, ReadP.val_main_cst_16_apply]
  show Ideal.ofBits .f32 0x00000000#32 + _ = _
  rw [Ideal.ofBits_zero_f32, zero_add]
  refine Finset.sum_congr rfl fun k'' _ => ?_
  have e : ReadP.idx_main_v64 (ix2 b n) k'' = ix3 b n k'' :=
    funext fun a => Fin.ext (by match a with | ⟨0, _⟩ => rfl | ⟨1, _⟩ => rfl | ⟨2, _⟩ => rfl)
  rw [e, v63_read x0 x1 b M hM]

/-- The soft assignment of point `n` to prototype `k`. -/
theorem v67_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (n : Fin 16384) (k : Fin 64) :
    ReadP.val_main_v67 (F := Ideal) x0 x1 (ix3 b n k)
      = Cert.Spec.resp (Ideal.ofBits .f32 0xFF800000#32) (Ideal.ofBits .f32 0x41A00000#32) (fun (c : Fin 256) (n' : Fin 16384) => ReadP.val_main_v0 (F := Ideal) x0 (ix3 b c n')) M n k := by
  rw [ReadP.val_main_v67_apply, ReadP.val_main_v66_apply, ReadP.val_main_v65_apply]
  have e : ReadP.idx_main_v65 (ReadP.idx_main_v66 (ix3 b n k)) = ix2 b n :=
    funext fun a => Fin.ext (by match a with | ⟨0, _⟩ => rfl | ⟨1, _⟩ => rfl)
  rw [e, v63_read x0 x1 b M hM, v64_read x0 x1 b M hM]
  rfl

/-- The total weight prototype `k` receives from the points (the sum's initial value is zero). -/
theorem v68_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (k : Fin 64) :
    ReadP.val_main_v68 (F := Ideal) x0 x1 (ix2 b k)
      = ∑ n' : Fin 16384, Cert.Spec.resp (Ideal.ofBits .f32 0xFF800000#32) (Ideal.ofBits .f32 0x41A00000#32) (fun (c : Fin 256) (n' : Fin 16384) => ReadP.val_main_v0 (F := Ideal) x0 (ix3 b c n')) M n' k := by
  rw [ReadP.val_main_v68_apply, ReadP.val_main_cst_17_apply]
  show Ideal.ofBits .f32 0x00000000#32 + _ = _
  rw [Ideal.ofBits_zero_f32, zero_add]
  refine Finset.sum_congr rfl fun n' _ => ?_
  have e : ReadP.idx_main_v68 (ix2 b k) n' = ix3 b n' k :=
    funext fun a => Fin.ext (by match a with | ⟨0, _⟩ => rfl | ⟨1, _⟩ => rfl | ⟨2, _⟩ => rfl)
  rw [e, v67_read x0 x1 b M hM]

/-- Each weight over `eps` plus its column total. -/
theorem v73_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (n : Fin 16384) (k : Fin 64) :
    ReadP.val_main_v73 (F := Ideal) x0 x1 (ix3 b n k)
      = Ideal.div (Cert.Spec.resp (Ideal.ofBits .f32 0xFF800000#32) (Ideal.ofBits .f32 0x41A00000#32) (fun (c : Fin 256) (n' : Fin 16384) => ReadP.val_main_v0 (F := Ideal) x0 (ix3 b c n')) M n k)
          ((Ideal.ofBits .f32 0x358637BD#32) + ∑ n' : Fin 16384, Cert.Spec.resp (Ideal.ofBits .f32 0xFF800000#32) (Ideal.ofBits .f32 0x41A00000#32) (fun (c : Fin 256) (n' : Fin 16384) => ReadP.val_main_v0 (F := Ideal) x0 (ix3 b c n')) M n' k) := by
  rw [ReadP.val_main_v73_apply, ReadP.val_main_v72_apply, ReadP.val_main_v71_apply, ReadP.val_main_v70_apply,
    ReadP.val_main_cst_18_apply, ReadP.val_main_v69_apply]
  have e : ReadP.idx_main_v69 (ReadP.idx_main_v72 (ix3 b n k)) = ix2 b k :=
    funext fun a => Fin.ext (by match a with | ⟨0, _⟩ => rfl | ⟨1, _⟩ => rfl)
  rw [e, v67_read x0 x1 b M hM, v68_read x0 x1 b M hM]
  rfl

/-- The re-estimated prototypes: the weighted sums of the points. -/
theorem v74_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (c : Fin 256) (k : Fin 64) :
    ReadP.val_main_v74 (F := Ideal) x0 x1 (ix3 b c k)
      = Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c k := by
  rw [ReadP.val_main_v74_apply]
  unfold Cert.Spec.mstepEach
  refine Finset.sum_congr rfl fun n _ => ?_
  have el : ReadP.lidx_main_v74 (ix3 b c k) n = ix3 b c n :=
    funext fun a => Fin.ext (by match a with | ⟨0, _⟩ => rfl | ⟨1, _⟩ => rfl | ⟨2, _⟩ => rfl)
  have er : ReadP.ridx_main_v74 (ix3 b c k) n = ix3 b n k :=
    funext fun a => Fin.ext (by match a with | ⟨0, _⟩ => rfl | ⟨1, _⟩ => rfl | ⟨2, _⟩ => rfl)
  rw [el, er, v73_read x0 x1 b M hM]

/-- The squared length of prototype `k` (the sum's initial value is zero). -/
theorem call2_v1_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (k : Fin 64) :
    ReadP.val_main_call2_v1 (F := Ideal) x0 x1 (ix2 b k)
      = ∑ c' : Fin 256, Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c' k
          * Cert.Spec.mstepEach (Ideal.ofBits .f32 0x358637BD#32) (fun (c : Fin 256) (n' : Fin 16384) => ReadP.val_main_v0 (F := Ideal) x0 (ix3 b c n')) (Cert.Spec.resp (Ideal.ofBits .f32 0xFF800000#32) (Ideal.ofBits .f32 0x41A00000#32) (fun (c : Fin 256) (n' : Fin 16384) => ReadP.val_main_v0 (F := Ideal) x0 (ix3 b c n')) M) c' k := by
  rw [ReadP.val_main_call2_v1_apply, ReadP.val_main_call2_cst_apply]
  show Ideal.ofBits .f32 0x00000000#32 + _ = _
  rw [Ideal.ofBits_zero_f32, zero_add]
  refine Finset.sum_congr rfl fun c' _ => ?_
  have e : ReadP.idx_main_call2_v1 (ix2 b k) c' = ix3 b c' k :=
    funext fun a => Fin.ext (by match a with | ⟨0, _⟩ => rfl | ⟨1, _⟩ => rfl | ⟨2, _⟩ => rfl)
  rw [e, ReadP.val_main_call2_v0_apply, v74_read x0 x1 b M hM]
  rfl

/-- One round: the prototypes after one iteration. -/
theorem v79_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v53 (F := Ideal) x0 x1 (ix3 b c k') = M c k') (c : Fin 256) (k : Fin 64) :
    ReadP.val_main_v79 (F := Ideal) x0 x1 (ix3 b c k)
      = Cert.Spec.iterEach (Ideal.ofBits .f32 0xFF800000#32) (Ideal.ofBits .f32 0x41A00000#32) (Ideal.ofBits .f32 0x358637BD#32) (fun (c : Fin 256) (n' : Fin 16384) => ReadP.val_main_v0 (F := Ideal) x0 (ix3 b c n')) M c k := by
  rw [ReadP.val_main_v79_apply, ReadP.val_main_v78_apply, ReadP.val_main_v77_apply, ReadP.val_main_v76_apply,
    ReadP.val_main_cst_19_apply, ReadP.val_main_v75_apply, ReadP.val_main_call2_v2_apply]
  have e : ReadP.idx_main_call2_v2 (ReadP.idx_main_v78 (ix3 b c k)) = ix2 b k :=
    funext fun a => Fin.ext (by match a with | ⟨0, _⟩ => rfl | ⟨1, _⟩ => rfl)
  rw [e, v74_read x0 x1 b M hM, call2_v1_read x0 x1 b M hM]
  unfold Cert.Spec.iterEach Cert.Spec.unitCols
  rw [Ideal.hostDivf_def, Ideal.addf_def, Ideal.ofBits_def, Ideal.hostUnary_sqrt_def]

/-- The final scores against the last prototypes. -/
theorem v80_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v79 (F := Ideal) x0 x1 (ix3 b c k') = M c k') (n : Fin 16384) (k : Fin 64) :
    ReadP.val_main_v80 (F := Ideal) x0 x1 (ix3 b n k)
      = Cert.Spec.score (fun (c : Fin 256) (n' : Fin 16384) => ReadP.val_main_v0 (F := Ideal) x0 (ix3 b c n')) M n k := by
  rw [ReadP.val_main_v80_apply]
  unfold Cert.Spec.score
  refine Finset.sum_congr rfl fun c _ => ?_
  have el : ReadP.lidx_main_v80 (ix3 b n k) c = ix3 b c n :=
    funext fun a => Fin.ext (by match a with | ⟨0, _⟩ => rfl | ⟨1, _⟩ => rfl | ⟨2, _⟩ => rfl)
  have er : ReadP.ridx_main_v80 (ix3 b n k) c = ix3 b c k :=
    funext fun a => Fin.ext (by match a with | ⟨0, _⟩ => rfl | ⟨1, _⟩ => rfl | ⟨2, _⟩ => rfl)
  rw [el, er, hM]

/-- The final row maximum: a fold of `max` over the prototypes from the initial value. -/
theorem v81_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v79 (F := Ideal) x0 x1 (ix3 b c k') = M c k') (n : Fin 16384) :
    ReadP.val_main_v81 (F := Ideal) x0 x1 (ix2 b n)
      = Cert.Spec.rowMax (Ideal.ofBits .f32 0xFF800000#32) (fun k' => Cert.Spec.score (fun (c : Fin 256) (n' : Fin 16384) => ReadP.val_main_v0 (F := Ideal) x0 (ix3 b c n')) M n k') := by
  have h : S16x16384x64.Reduces [2] S16x16384 := by decide
  have hf : (ReadP.val_main_v80 (F := Ideal) x0 x1 ∘ h.lift (ix2 b n))
      = (fun k' : Fin 64 => Cert.Spec.score (fun (c : Fin 256) (n' : Fin 16384) => ReadP.val_main_v0 (F := Ideal) x0 (ix3 b c n')) M n k') := by
    funext (k' : Fin 64)
    have e : h.lift (ix2 b n) k' = ix3 b n k' :=
      funext fun a => Fin.ext (by match a with | ⟨0, _⟩ => rfl | ⟨1, _⟩ => rfl | ⟨2, _⟩ => rfl)
    show ReadP.val_main_v80 (F := Ideal) x0 x1 (h.lift (ix2 b n) k') = _
    rw [e, v80_read x0 x1 b M hM]
  unfold ReadP.val_main_v81
  show Host.reduce (max : EReal → EReal → EReal) _ _ _ _ _ = _
  rw [Host.reduce_eq_fold_single max _ _ _ h, hf]
  rfl

/-- The extra `max` with the initial value changes nothing. -/
theorem v83_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v79 (F := Ideal) x0 x1 (ix3 b c k') = M c k') (n : Fin 16384) :
    ReadP.val_main_v83 (F := Ideal) x0 x1 (ix2 b n)
      = Cert.Spec.rowMax (Ideal.ofBits .f32 0xFF800000#32) (fun k' => Cert.Spec.score (fun (c : Fin 256) (n' : Fin 16384) => ReadP.val_main_v0 (F := Ideal) x0 (ix3 b c n')) M n k') := by
  rw [ReadP.val_main_v83_apply, ReadP.val_main_v82_apply, ReadP.val_main_cst_21_apply, v81_read x0 x1 b M hM]
  show max (Ideal.ofBits .f32 0xFF800000#32) _ = _
  exact max_eq_right ((Finset.le_fold_max _).2 (Or.inl le_rfl))

/-- The final row maximum, broadcast back over the prototypes. -/
theorem v85_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v79 (F := Ideal) x0 x1 (ix3 b c k') = M c k') (n : Fin 16384) (k : Fin 64) :
    ReadP.val_main_v85 (F := Ideal) x0 x1 (ix3 b n k)
      = Cert.Spec.rowMax (Ideal.ofBits .f32 0xFF800000#32) (fun k' => Cert.Spec.score (fun (c : Fin 256) (n' : Fin 16384) => ReadP.val_main_v0 (F := Ideal) x0 (ix3 b c n')) M n k') := by
  rw [ReadP.val_main_v85_apply, ReadP.val_main_v84_apply]
  have e : ReadP.idx_main_v84 (ReadP.idx_main_v85 (ix3 b n k)) = ix2 b n :=
    funext fun a => Fin.ext (by match a with | ⟨0, _⟩ => rfl | ⟨1, _⟩ => rfl)
  rw [e, v83_read x0 x1 b M hM]

/-- The exponential of a final score less its row maximum. -/
theorem v87_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v79 (F := Ideal) x0 x1 (ix3 b c k') = M c k') (n : Fin 16384) (k : Fin 64) :
    ReadP.val_main_v87 (F := Ideal) x0 x1 (ix3 b n k)
      = Ideal.exp (Cert.Spec.score (fun (c : Fin 256) (n' : Fin 16384) => ReadP.val_main_v0 (F := Ideal) x0 (ix3 b c n')) M n k
          - Cert.Spec.rowMax (Ideal.ofBits .f32 0xFF800000#32) (fun k' => Cert.Spec.score (fun (c : Fin 256) (n' : Fin 16384) => ReadP.val_main_v0 (F := Ideal) x0 (ix3 b c n')) M n k')) := by
  rw [ReadP.val_main_v87_apply, ReadP.val_main_v86_apply, v80_read x0 x1 b M hM, v85_read x0 x1 b M hM]
  rfl

/-- The final row's sum of exponentials (the sum's initial value is zero). -/
theorem v88_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v79 (F := Ideal) x0 x1 (ix3 b c k') = M c k') (n : Fin 16384) :
    ReadP.val_main_v88 (F := Ideal) x0 x1 (ix2 b n)
      = ∑ k'' : Fin 64, Ideal.exp (Cert.Spec.score (fun (c : Fin 256) (n' : Fin 16384) => ReadP.val_main_v0 (F := Ideal) x0 (ix3 b c n')) M n k''
          - Cert.Spec.rowMax (Ideal.ofBits .f32 0xFF800000#32) (fun k' => Cert.Spec.score (fun (c : Fin 256) (n' : Fin 16384) => ReadP.val_main_v0 (F := Ideal) x0 (ix3 b c n')) M n k')) := by
  rw [ReadP.val_main_v88_apply, ReadP.val_main_cst_22_apply]
  show Ideal.ofBits .f32 0x00000000#32 + _ = _
  rw [Ideal.ofBits_zero_f32, zero_add]
  refine Finset.sum_congr rfl fun k'' _ => ?_
  have e : ReadP.idx_main_v88 (ix2 b n) k'' = ix3 b n k'' :=
    funext fun a => Fin.ext (by match a with | ⟨0, _⟩ => rfl | ⟨1, _⟩ => rfl | ⟨2, _⟩ => rfl)
  rw [e, v87_read x0 x1 b M hM]

/-- The result: the soft assignment (temperature one) of point `n` to prototype `k`. -/
theorem v91_read (x0 : (⟨S16x256x128x128, .f32⟩ : BufTy).Contents (Elt Ideal)) (x1 : (⟨S1x256x64, .f32⟩ : BufTy).Contents (Elt Ideal))
    (b : Fin 16) (M : Fin 256 → Fin 64 → EReal) (hM : ∀ c k', ReadP.val_main_v79 (F := Ideal) x0 x1 (ix3 b c k') = M c k') (n : Fin 16384) (k : Fin 64) :
    ReadP.val_main_v91 (F := Ideal) x0 x1 (ix3 b n k)
      = Cert.Spec.softRow (Ideal.ofBits .f32 0xFF800000#32) (fun k' => Cert.Spec.score (fun (c : Fin 256) (n' : Fin 16384) => ReadP.val_main_v0 (F := Ideal) x0 (ix3 b c n')) M n k') k := by
  rw [ReadP.val_main_v91_apply, ReadP.val_main_v90_apply, ReadP.val_main_v89_apply]
  have e : ReadP.idx_main_v89 (ReadP.idx_main_v90 (ix3 b n k)) = ix2 b n :=
    funext fun a => Fin.ext (by match a with | ⟨0, _⟩ => rfl | ⟨1, _⟩ => rfl)
  rw [e, v87_read x0 x1 b M hM, v88_read x0 x1 b M hM]
  rfl

/-- The prototypes entering round one: the input table, the same for every batch. -/
theorem v1_read (x1 : (⟨S1x256x64, .f32⟩ : BufTy).Contents (Elt Ideal)) (b : Fin 16) (c : Fin 256) (k' : Fin 64) :
    ReadP.val_main_v1 (F := Ideal) x1 (ix3 b c k') = x1 (ix3 (0 : Fin 1) c k') := by
  rw [ReadP.val_main_v1_apply]
  have e : ReadP.idx_main_v1 (ix3 b c k') = ix3 (0 : Fin 1) c k' :=
    funext fun a => Fin.ext (by match a with | ⟨0, _⟩ => rfl | ⟨1, _⟩ => rfl | ⟨2, _⟩ => rfl)
  rw [e]

/-- The program's result at batch `b`, point `n`, prototype `k`: three iterations from the input prototypes, then
    the soft assignment at temperature one. -/
theorem result_apply (x0 : (⟨S16x256x128x128, .f32⟩ : BufTy).Contents (Elt Ideal)) (x1 : (⟨S1x256x64, .f32⟩ : BufTy).Contents (Elt Ideal))
    (b : Fin 16) (n : Fin 16384) (k : Fin 64) :
    ReadP.val_main_v91 (F := Ideal) x0 x1 (ix3 b n k)
      = Cert.Spec.assignEach (Ideal.ofBits .f32 0xFF800000#32) (Ideal.ofBits .f32 0x41A00000#32) (Ideal.ofBits .f32 0x358637BD#32)
          (fun (c : Fin 256) (n' : Fin 16384) => ReadP.val_main_v0 (F := Ideal) x0 (ix3 b c n'))
          (fun (c : Fin 256) (k' : Fin 64) => x1 (ix3 (0 : Fin 1) c k')) n k := by
  have h1 := fun c k' => v1_read x1 b c k'
  have h27 := fun c k' => v27_read x0 x1 b _ h1 c k'
  have h53 := fun c k' => v53_read x0 x1 b _ h27 c k'
  have h79 := fun c k' => v79_read x0 x1 b _ h53 c k'
  rw [v91_read x0 x1 b _ h79]
  rfl

end Cert.ReferenceIdeal.RefValue

end
-- ==== Proof.Inputs.lean ====
/-
  The program's three float words, and the inputs under the precondition.

  A binary32 word is a sign bit, eight exponent bits and twenty-three fraction bits. The word FF800000 has every
  exponent bit set and no fraction bit: it is minus infinity. The word 41A00000 has exponent field 131 and fraction
  2^21: it is (2^23 + 2^21) · 2^(131 − 150) = 20. The word 358637BD has exponent field 107 and fraction 407485: it
  is 8796093 · 2^(−43), a positive real.

  The precondition says that every entry of either input has absolute value below plus infinity. On the extended
  reals the absolute value of x is the larger of x and −x; it is plus infinity at both infinities, so an entry with
  absolute value below plus infinity is a real number.
-/
import proofs.«151417_j40132174413878_2_alg».proof.Pre_finite_inputs
import Idealize.ShloMosaic.Lib.ReduceAll
import Idealize.ShloMosaic.Lib.ValueIdx
import Idealize.ShloMosaic.PureOps.Ideal.Laws

noncomputable section

namespace Cert.Inputs

open Idealize.ShloMosaic

/-! ### The three words -/

/-- The word a row maximum starts from is minus infinity. -/
theorem lo_eq : Ideal.ofBits .f32 0xFF800000#32 = (⊥ : EReal) := by
  simp [Ideal.ofBits, Ideal.ieee]

/-- The word the precondition compares against is plus infinity. -/
theorem top_eq : Ideal.ofBits .f32 0x7F800000#32 = (⊤ : EReal) := by
  simp [Ideal.ofBits, Ideal.ieee]

/-- The temperature word is the real number 20. -/
theorem tmp_real : ∃ r : ℝ, Ideal.ofBits .f32 0x41A00000#32 = (r : EReal) := by
  refine ⟨20, ?_⟩
  simp [Ideal.ofBits, Ideal.ieee, -EReal.coe_mul]
  norm_num

/-- The word `eps` is the positive real 8796093 · 2^(−43). -/
theorem eps_pos : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-! ### Entries of absolute value below plus infinity -/

/-- An extended real whose absolute value, the larger of it and its negation, is below plus infinity is real. -/
theorem real_of_abs_lt_top (x : EReal) (h : max x (-x) < ⊤) : ∃ r : ℝ, x = (r : EReal) := by
  induction x using EReal.rec with
  | bot => simp at h
  | top => simp at h
  | coe r => exact ⟨r, rfl⟩

/-- A strict comparison of extended reals whose word is one holds. -/
theorem lt_of_cmp_olt {x y : EReal} (h : Ideal.cmp .olt x y = 1#1) : x < y := by
  by_cases hxy : x < y
  · exact hxy
  · exfalso
    simp [Ideal.cmp, hxy] at h

/-- The scalar shape has one index. -/
instance : Subsingleton Cert.Pre_finite_inputs.S_.Idx := ⟨fun _ _ => funext fun d => d.elim0⟩

/-- Under the precondition every entry of both inputs is a real number. -/
theorem real_of_pre [Cert.Pre_finite_inputs.Facts]
    (a0 : FVec Ideal Cert.Pre_finite_inputs.S16x256x128x128 .f32) (a1 : FVec Ideal Cert.Pre_finite_inputs.S1x256x64 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  constructor
  · intro i
    have e := Host.reduce_andi_all _ _ _ _ _ h1 i
    have lt : max (a0 i) (-(a0 i)) < Ideal.ofBits .f32 0x7F800000#32 := lt_of_cmp_olt e
    rw [top_eq] at lt
    exact real_of_abs_lt_top _ lt
  · intro i
    have e := Host.reduce_andi_all _ _ _ _ _ h2 i
    have lt : max (a1 i) (-(a1 i)) < Ideal.ofBits .f32 0x7F800000#32 := lt_of_cmp_olt e
    rw [top_eq] at lt
    exact real_of_abs_lt_top _ lt

end Cert.Inputs

end
-- ==== Proof.lean ====
/-
  The certificate of a soft clustering kernel against its array-level reference.

  Both programs take points x[b, c, h, w] (reshaped to x[b, c, n], n = 128·h + w) and prototypes mu[0, c, k], run three
  rounds of: score every point against every prototype, take the soft assignment over the prototypes at temperature
  20, re-estimate each prototype as the assignment-weighted sum of the points over (eps + the total weight it
  received), rescale it by (eps + its Euclidean length); and return the soft assignment of the points to the last
  prototypes. The reference divides every weight by the total before summing; the kernel walks the points of a batch
  in four blocks, accumulates the weighted sum and the total block by block, and divides once. Over the extended
  reals the two agree when the inputs are finite: every intermediate value is then a real number, the total is a
  positive real, and a real factor moves through a finite sum (Proof/SpecLaw.lean). The finiteness of the inputs is
  the claim's precondition.

  The kernel's side: the body's run is identified with a composition of whole-vector steps (Proof/KernelBody.lean),
  each step read at coordinates (Proof/KernelOps.lean), the four blocks joined into sums over all points
  (Proof/KernelStep.lean) and the sixteen batches into the result array (Proof/KernelValue.lean). The reference's side:
  its run over named stages (Proof/RefRun.lean) and the last stage read at an index (Proof/RefValue.lean). Both are the
  specification of Proof/Spec.lean, in its two arrangements.
-/
import proofs.«151417_j40132174413878_2_alg».proof.Defs
import proofs.«151417_j40132174413878_2_alg».proof.Proof.Gen.Kernel
import proofs.«151417_j40132174413878_2_alg».proof.Proof.Gen.Kernel.Skeleton
import proofs.«151417_j40132174413878_2_alg».proof.Proof.Gen.Kernel.Launch
import proofs.«151417_j40132174413878_2_alg».proof.Proof.Gen.Kernel.Points
import proofs.«151417_j40132174413878_2_alg».proof.Proof.Gen.Kernel.Frame
import proofs.«151417_j40132174413878_2_alg».proof.Proof.Gen.KernelIdeal
import proofs.«151417_j40132174413878_2_alg».proof.Proof.Gen.KernelIdeal.Skeleton
import proofs.«151417_j40132174413878_2_alg».proof.Proof.Gen.KernelIdeal.Launch
import proofs.«151417_j40132174413878_2_alg».proof.Proof.Gen.KernelIdeal.Points
import proofs.«151417_j40132174413878_2_alg».proof.Proof.Gen.KernelIdeal.Frame
import proofs.«151417_j40132174413878_2_alg».proof.Proof.Gen.KernelIdeal.Value
import proofs.«151417_j40132174413878_2_alg».proof.Proof.Gen.ReferenceIdeal
import proofs.«151417_j40132174413878_2_alg».proof.Proof.Gen.Pre_finite_inputs
import proofs.«151417_j40132174413878_2_alg».proof.Proof.SpecLaw
import proofs.«151417_j40132174413878_2_alg».proof.Proof.KernelValue
import proofs.«151417_j40132174413878_2_alg».proof.Proof.RefRun
import proofs.«151417_j40132174413878_2_alg».proof.Proof.RefValue
import proofs.«151417_j40132174413878_2_alg».proof.Proof.Inputs
import Idealize.ShloMosaic.Adequacy
import Idealize.ShloMosaic.Init

set_option maxRecDepth 16384

noncomputable section

namespace Cert.Proof

open Idealize.ShloMosaic Idealize.ShloMosaic.ValueIdx Idealize.SL.Sem

/-! ## The three frames and the idealization -/

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation of the kernel was rewritten for the ideal reading. -/
theorem preserves : Cert.preserves_Kernel_KernelIdeal := trivial

/-! ## The two results are one function -/

/-- The reference's last stage and the kernel's result function agree on finite inputs, index by index: the two
    arrangements of the specification, on real-valued points and prototypes. -/
theorem result_eq (a0 : FVec Ideal Cert.Pre_finite_inputs.S16x256x128x128 .f32) (a1 : FVec Ideal Cert.Pre_finite_inputs.S1x256x64 .f32)
    (h0 : ∀ i, ∃ r : ℝ, a0 i = (r : EReal)) (h1 : ∀ i, ∃ r : ℝ, a1 i = (r : EReal)) :
    Cert.ReferenceIdeal.ReadP.val_main_v91 (F := Ideal) a0 a1
      = Cert.KernelIdeal.Result.G
          (shapeCast Cert.KernelIdeal.S16x256x16384 a0 Cert.KernelIdeal.Gen.shapeCasts_S16x256x128x128_S16x256x16384) a1 := by
  funext i
  obtain ⟨b, n, k, rfl⟩ : ∃ (b : Fin 16) (n : Fin 16384) (k : Fin 64), i = ix3 b n k := ⟨i 0, i 1, i 2, eq_ix3 i⟩
  rw [Cert.ReferenceIdeal.RefValue.result_apply]
  unfold Cert.KernelIdeal.Result.G
  show Cert.Spec.assignEach (Ideal.ofBits .f32 0xFF800000#32) (Ideal.ofBits .f32 0x41A00000#32) (Ideal.ofBits .f32 0x358637BD#32)
      (fun (c : Fin 256) (n' : Fin 16384) => a0 (Shape.reshapeEquiv Cert.KernelIdeal.Gen.shapeCasts_S16x256x128x128_S16x256x16384 (ix3 b c n')))
      (fun (c : Fin 256) (k' : Fin 64) => a1 (ix3 (0 : Fin 1) c k')) n k
    = Cert.Spec.assignOnce (Ideal.ofBits .f32 0xFF800000#32) (Ideal.ofBits .f32 0x41A00000#32) (Ideal.ofBits .f32 0x358637BD#32)
      (fun (c : Fin 256) (n' : Fin 16384) => a0 (Shape.reshapeEquiv Cert.KernelIdeal.Gen.shapeCasts_S16x256x128x128_S16x256x16384 (ix3 b c n')))
      (fun (c : Fin 256) (k' : Fin 64) => a1 (ix3 (0 : Fin 1) c k')) n k
  rw [Cert.Inputs.lo_eq]
  exact (congrFun (congrFun (Cert.Spec.assignOnce_eq_assignEach _ _ Cert.Inputs.tmp_real Cert.Inputs.eps_pos _ _
    (fun c n' => h0 _) (fun c k' => h1 _)) n) k).symm

/-- From memories that agree on the arguments and hold finite inputs, both idealized programs run and end with the
    same result array. -/
theorem algebraic : Cert.algebraic_KernelIdeal_ReferenceIdeal := by
  intro m ρ m' ρ' hpre hagree
  refine ⟨fun c => Cert.KernelIdeal.Result.G
      (shapeCast Cert.KernelIdeal.S16x256x16384 (m ((c.tc : Thread Cert.KernelIdeal.nD Cert.KernelIdeal.τ).loc Cert.KernelIdeal.main_arg0))
        Cert.KernelIdeal.Gen.shapeCasts_S16x256x128x128_S16x256x16384)
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨h0, h1⟩ := Cert.Inputs.real_of_pre _ _ (hpre c)
  exact result_eq _ _ h0 h1

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
